-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v83)) (v2 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S2x65536 : Shape := ⟨2, ![2, 65536]⟩
abbrev S65536x2 : Shape := ⟨2, ![65536, 2]⟩
abbrev S8x64 : Shape := ⟨2, ![8, 64]⟩
abbrev S100000x768 : Shape := ⟨2, ![100000, 768]⟩
abbrev S38x768 : Shape := ⟨2, ![38, 768]⟩
abbrev S768 : Shape := ⟨1, ![768]⟩
abbrev S2304x768 : Shape := ⟨2, ![2304, 768]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S100000x768 : S_.BroadcastsInDim S100000x768 (![] : Fin 0 → Fin S100000x768.rank)
  reducesTo_S100000x768_S_d0_1 : S100000x768.ReducesTo [0, 1] S_
  bcast_S_S38x768 : S_.BroadcastsInDim S38x768 (![] : Fin 0 → Fin S38x768.rank)
  reducesTo_S38x768_S_d0_1 : S38x768.ReducesTo [0, 1] S_
  bcast_S_S768 : S_.BroadcastsInDim S768 (![] : Fin 0 → Fin S768.rank)
  reducesTo_S768_S_d0 : S768.ReducesTo [0] S_
  bcast_S_S2304x768 : S_.BroadcastsInDim S2304x768 (![] : Fin 0 → Fin S2304x768.rank)
  reducesTo_S2304x768_S_d0_1 : S2304x768.ReducesTo [0, 1] S_

variable [Facts]

def fn_part1 {F : FTy → Type} [FloatOps F] (main_arg7 : FVec F S2304x768 .f32) (main_arg8 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S2304x768 .f32 := Host.absf main_arg7
  let main_cst_6 : FVec F S_ .f32 := constant S_ .f32 0x7F800000#32
  let main_v20 : FVec F S2304x768 .f32 := broadcastInDim S2304x768 ![] bcast_S_S2304x768 main_cst_6
  let main_v21 : IVec S2304x768 1 := cmpf .olt main_v19 main_v20
  let main_c_7 : IVec S_ 1 := constantI S_ 1 1#1
  let main_v22 : IVec S_ 1 := (fun x v => Host.reduce IntOp.andi x v reducesTo_S2304x768_S_d0_1 h_S_) main_v21 main_c_7
  let main_v23 : IVec S_ 1 := andi main_v18 main_v22
  let main_v24 : FVec F S768 .f32 := Host.absf main_arg8
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : IVec S8192 32) (main_arg1 : IVec S2x65536 32) (main_arg2 : FVec F S65536x2 .f32) (main_arg3 : IVec S8x64 32) (main_arg4 : FVec F S100000x768 .f32) (main_arg5 : FVec F S38x768 .f32) (main_arg6 : FVec F S768 .f32) (main_arg7 : FVec F S2304x768 .f32) (main_arg8 : FVec F S768 .f32) : IVec S_ 1 :=
  let main_v0 : FVec F S65536x2 .f32 := Host.absf main_arg2
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S100000x768 .f32 := Host.absf main_arg4
  let main_cst_0 : FVec F S_ .f32 := constant S_ .f32 0x7F800000#32
  let main_v5 : FVec F S100000x768 .f32 := broadcastInDim S100000x768 ![] bcast_S_S100000x768 main_cst_0
  let main_v6 : IVec S100000x768 1 := cmpf .olt main_v4 main_v5
  let main_c_1 : IVec S_ 1 := constantI S_ 1 1#1
  let main_v7 : IVec S_ 1 := (fun x v => Host.reduce IntOp.andi x v reducesTo_S100000x768_S_d0_1 h_S_) main_v6 main_c_1
  let main_v8 : IVec S_ 1 := andi main_v3 main_v7
  let main_v9 : FVec F S38x768 .f32 := Host.absf main_arg5
  let main_cst_2 : FVec F S_ .f32 := constant S_ .f32 0x7F800000#32
  let main_v10 : FVec F S38x768 .f32 := broadcastInDim S38x768 ![] bcast_S_S38x768 main_cst_2
  let main_v11 : IVec S38x768 1 := cmpf .olt main_v9 main_v10
  let main_c_3 : IVec S_ 1 := constantI S_ 1 1#1
  let main_v12 : IVec S_ 1 := (fun x v => Host.reduce IntOp.andi x v reducesTo_S38x768_S_d0_1 h_S_) main_v11 main_c_3
  let main_v13 : IVec S_ 1 := andi main_v8 main_v12
  let main_v14 : FVec F S768 .f32 := Host.absf main_arg6
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg7 main_arg8 main_v13 main_v16
-- ==== Kernel.lean ====
abbrev S8192 : Shape := ⟨1, ![8192]⟩
abbrev S2x65536 : Shape := ⟨2, ![2, 65536]⟩
abbrev S65536x2 : Shape := ⟨2, ![65536, 2]⟩
abbrev S8x64 : Shape := ⟨2, ![8, 64]⟩
abbrev S100000x768 : Shape := ⟨2, ![100000, 768]⟩
abbrev S38x768 : Shape := ⟨2, ![38, 768]⟩
abbrev S768 : Shape := ⟨1, ![768]⟩
abbrev S2304x768 : Shape := ⟨2, ![2304, 768]⟩
abbrev S_ : Shape := ⟨0, ![]⟩
abbrev S8192x1 : Shape := ⟨2, ![8192, 1]⟩
abbrev S8192x768 : Shape := ⟨2, ![8192, 768]⟩
abbrev S65536x1 : Shape := ⟨2, ![65536, 1]⟩
abbrev S65536 : Shape := ⟨1, ![65536]⟩
abbrev S65536x768 : Shape := ⟨2, ![65536, 768]⟩
abbrev S1x8192 : Shape := ⟨2, ![1, 8192]⟩
abbrev S2x8192 : Shape := ⟨2, ![2, 8192]⟩
abbrev S2x73728 : Shape := ⟨2, ![2, 73728]⟩
abbrev S73728x768 : Shape := ⟨2, ![73728, 768]⟩
abbrev S73728 : Shape := ⟨1, ![73728]⟩
abbrev S1x73728 : Shape := ⟨2, ![1, 73728]⟩
abbrev S73728x1 : Shape := ⟨2, ![73728, 1]⟩
abbrev S768x768 : Shape := ⟨2, ![768, 768]⟩
abbrev S1x768 : Shape := ⟨2, ![1, 768]⟩
abbrev S3072x768 : Shape := ⟨2, ![3072, 768]⟩
abbrev S73728x3 : Shape := ⟨2, ![73728, 3]⟩
abbrev S8x73728 : Shape := ⟨2, ![8, 73728]⟩
abbrev S1x4096 : Shape := ⟨2, ![1, 4096]⟩
abbrev S8x4096 : Shape := ⟨2, ![8, 4096]⟩
abbrev S8x64x1 : Shape := ⟨3, ![8, 64, 1]⟩
abbrev S1x1x4096 : Shape := ⟨3, ![1, 1, 4096]⟩
abbrev S8x64x4096 : Shape := ⟨3, ![8, 64, 4096]⟩

abbrev nBuf : Space → Nat
  | .hbm => 107
  | .vmem => 19
  | .smem => 0
  | _ => 0

abbrev bufTy : (tb : Table) → Fin (tcTables nBuf tb) → BufTy
  | .hbm, ⟨0, _⟩ => ⟨S8192, .i32⟩
  | .hbm, ⟨1, _⟩ => ⟨S2x65536, .i32⟩
  | .hbm, ⟨2, _⟩ => ⟨S65536x2, .f32⟩
  | .hbm, ⟨3, _⟩ => ⟨S8x64, .i32⟩
  | .hbm, ⟨4, _⟩ => ⟨S100000x768, .f32⟩
  | .hbm, ⟨5, _⟩ => ⟨S38x768, .f32⟩
  | .hbm, ⟨6, _⟩ => ⟨S768, .f32⟩
  | .hbm, ⟨7, _⟩ => ⟨S2304x768, .f32⟩
  | .hbm, ⟨8, _⟩ => ⟨S768, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x768, .f32⟩
  | .hbm, ⟨18, _⟩ => ⟨S8192x768, .bf16⟩
  | .hbm, ⟨19, _⟩ => ⟨S65536x1, .f32⟩
  | .hbm, ⟨20, _⟩ => ⟨S65536, .f32⟩
  | .hbm, ⟨21, _⟩ => ⟨S65536, .i32⟩
  | .hbm, ⟨22, _⟩ => ⟨S65536x1, .f32⟩
  | .hbm, ⟨23, _⟩ => ⟨S65536, .f32⟩
  | .hbm, ⟨24, _⟩ => ⟨S65536x1, .f32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S65536x768, .f32⟩
  | .hbm, ⟨34, _⟩ => ⟨S65536x768, .f32⟩
  | .hbm, ⟨35, _⟩ => ⟨S65536x768, .f32⟩
  | .hbm, ⟨36, _⟩ => ⟨S65536x768, .bf16⟩
  | .hbm, ⟨37, _⟩ => ⟨S8192, .i32⟩
  | .hbm, ⟨38, _⟩ => ⟨S1x8192, .i32⟩
  | .hbm, ⟨39, _⟩ => ⟨S1x8192, .i32⟩
  | .hbm, ⟨40, _⟩ => ⟨S2x8192, .i32⟩
  | .hbm, ⟨41, _⟩ => ⟨S2x73728, .i32⟩
  | .hbm, ⟨42, _⟩ => ⟨S768, .bf16⟩
  | .hbm, ⟨43, _⟩ => ⟨S8192x768, .bf16⟩
  | .hbm, ⟨44, _⟩ => ⟨S73728x768, .bf16⟩
  | .hbm, ⟨45, _⟩ => ⟨S_, .i32⟩
  | .hbm, ⟨46, _⟩ => ⟨S8192, .i32⟩
  | .hbm, ⟨47, _⟩ => ⟨S73728, .i32⟩
  | .hbm, ⟨48, _⟩ => ⟨S1x73728, .i32⟩
  | .hbm, ⟨49, _⟩ => ⟨S73728, .i32⟩
  | .hbm, ⟨50, _⟩ => ⟨S1x73728, .i32⟩
  | .hbm, ⟨51, _⟩ => ⟨S73728, .i32⟩
  | .hbm, ⟨52, _⟩ => ⟨S_, .i32⟩
  | .hbm, ⟨53, _⟩ => ⟨S73728, .i32⟩
  | .hbm, ⟨54, _⟩ => ⟨S73728, .i1⟩
  | .hbm, ⟨55, _⟩ => ⟨S_, .i32⟩
  | .hbm, ⟨56, _⟩ => ⟨S73728, .i32⟩
  | .hbm, ⟨57, _⟩ => ⟨S73728, .i32⟩
  | .hbm, ⟨58, _⟩ => ⟨S73728, .i32⟩
  | .hbm, ⟨59, _⟩ => ⟨S73728x1, .i32⟩
  | .hbm, ⟨60, _⟩ => ⟨S73728x768, .bf16⟩
  | .hbm, ⟨61, _⟩ => ⟨S_, .i32⟩
  | .hbm, ⟨62, _⟩ => ⟨S73728, .i32⟩
  | .hbm, ⟨63, _⟩ => ⟨S73728, .i1⟩
  | .hbm, ⟨64, _⟩ => ⟨S_, .i32⟩
  | .hbm, ⟨65, _⟩ => ⟨S73728, .i32⟩
  | .hbm, ⟨66, _⟩ => ⟨S73728, .i32⟩
  | .hbm, ⟨67, _⟩ => ⟨S73728, .i32⟩
  | .hbm, ⟨68, _⟩ => ⟨S73728x1, .i32⟩
  | .hbm, ⟨69, _⟩ => ⟨S73728x768, .bf16⟩
  | .hbm, ⟨70, _⟩ => ⟨S768x768, .f32⟩
  | .hbm, ⟨71, _⟩ => ⟨S768x768, .bf16⟩
  | .hbm, ⟨72, _⟩ => ⟨S768x768, .f32⟩
  | .hbm, ⟨73, _⟩ => ⟨S768x768, .bf16⟩
  | .hbm, ⟨74, _⟩ => ⟨S768x768, .f32⟩
  | .hbm, ⟨75, _⟩ => ⟨S768x768, .bf16⟩
  | .hbm, ⟨76, _⟩ => ⟨S1x768, .f32⟩
  | .hbm, ⟨77, _⟩ => ⟨S73728x768, .f32⟩
  | .hbm, ⟨78, _⟩ => ⟨S_, .i32⟩
  | .hbm, ⟨79, _⟩ => ⟨S73728, .i32⟩
  | .hbm, ⟨80, _⟩ => ⟨S73728, .i1⟩
  | .hbm, ⟨81, _⟩ => ⟨S_, .i32⟩
  | .hbm, ⟨82, _⟩ => ⟨S73728, .i32⟩
  | .hbm, ⟨83, _⟩ => ⟨S73728, .i32⟩
  | .hbm, ⟨84, _⟩ => ⟨S73728, .i32⟩
  | .hbm, ⟨85, _⟩ => ⟨S73728x1, .i32⟩
  | .hbm, ⟨86, _⟩ => ⟨S73728, .i32⟩
  | .hbm, ⟨87, _⟩ => ⟨S_, .i32⟩
  | .hbm, ⟨88, _⟩ => ⟨S73728, .i32⟩
  | .hbm, ⟨89, _⟩ => ⟨S73728, .i1⟩
  | .hbm, ⟨90, _⟩ => ⟨S_, .i32⟩
  | .hbm, ⟨91, _⟩ => ⟨S73728, .i32⟩
  | .hbm, ⟨92, _⟩ => ⟨S73728, .i32⟩
  | .hbm, ⟨93, _⟩ => ⟨S73728, .i32⟩
  | .hbm, ⟨94, _⟩ => ⟨S73728x1, .i32⟩
  | .hbm, ⟨95, _⟩ => ⟨S73728, .i32⟩
  | .hbm, ⟨96, _⟩ => ⟨S73728x1, .i32⟩
  | .hbm, ⟨97, _⟩ => ⟨S73728x1, .i32⟩
  | .hbm, ⟨98, _⟩ => ⟨S73728x1, .i32⟩
  | .hbm, ⟨99, _⟩ => ⟨S73728x3, .i32⟩
  | .hbm, ⟨100, _⟩ => ⟨S1x73728, .i32⟩
  | .hbm, ⟨101, _⟩ => ⟨S1x73728, .i32⟩
  | .hbm, ⟨102, _⟩ => ⟨S8x73728, .i32⟩
  | .hbm, ⟨103, _⟩ => ⟨S_, .i32⟩
  | .hbm, ⟨104, _⟩ => ⟨S8x73728, .i32⟩
  | .hbm, ⟨105, _⟩ => ⟨S8x73728, .i1⟩
  | .hbm, ⟨106, _⟩ => ⟨S8x73728, .i1⟩
  | .local _ .vmem, ⟨0, _⟩ => ⟨S3072x768, .bf16⟩
  | .local _ .vmem, ⟨1, _⟩ => ⟨S3072x768, .bf16⟩
  | .local _ .vmem, ⟨2, _⟩ => ⟨S3072x768, .bf16⟩
  | .local _ .vmem, ⟨3, _⟩ => ⟨S3072x768, .bf16⟩
  | .local _ .vmem, ⟨4, _⟩ => ⟨S3072x768, .bf16⟩
  | .local _ .vmem, ⟨5, _⟩ => ⟨S3072x768, .bf16⟩
  | .local _ .vmem, ⟨6, _⟩ => ⟨S768x768, .bf16⟩
  | .local _ .vmem, ⟨7, _⟩ => ⟨S768x768, .bf16⟩
  | .local _ .vmem, ⟨8, _⟩ => ⟨S768x768, .bf16⟩
  | .local _ .vmem, ⟨9, _⟩ => ⟨S1x768, .f32⟩
  | .local _ .vmem, ⟨10, _⟩ => ⟨S3072x768, .f32⟩
  | .local _ .vmem, ⟨11, _⟩ => ⟨S3072x768, .f32⟩
  | .local _ .vmem, ⟨12, _⟩ => ⟨S8x64, .i32⟩
  | .local _ .vmem, ⟨13, _⟩ => ⟨S1x4096, .i32⟩
  | .local _ .vmem, ⟨14, _⟩ => ⟨S1x4096, .i32⟩
  | .local _ .vmem, ⟨15, _⟩ => ⟨S1x4096, .i32⟩
  | .local _ .vmem, ⟨16, _⟩ => ⟨S1x4096, .i32⟩
  | .local _ .vmem, ⟨17, _⟩ => ⟨S8x4096, .i32⟩
  | .local _ .vmem, ⟨18, _⟩ => ⟨S8x4096, .i32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_8 : Ref sig .tc := ⟨.hbm, 78, rfl⟩
abbrev main_v60 : Ref sig .tc := ⟨.hbm, 79, rfl⟩
abbrev main_v61 : Ref sig .tc := ⟨.hbm, 80, rfl⟩
abbrev main_c_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_10 : Ref sig .tc := ⟨.hbm, 87, rfl⟩
abbrev main_v67 : Ref sig .tc := ⟨.hbm, 88, rfl⟩
abbrev main_v68 : Ref sig .tc := ⟨.hbm, 89, rfl⟩
abbrev main_c_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_12 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3072x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![18], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S8x64 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x4096 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  slices_S65536x2_S65536x1_0_0 : S65536x2.Slices ![0, 0] S65536x1
  shapeCasts_S65536x1_S65536 : S65536x1.ShapeCasts S65536
  slices_S65536x2_S65536x1_0_1 : S65536x2.Slices ![0, 1] S65536x1
  bcast_S65536_S65536x1_0 : S65536.BroadcastsInDim S65536x1 (![0] : Fin 1 → Fin S65536x1.rank)
  bcast_S_S65536 : S_.BroadcastsInDim S65536 (![] : Fin 0 → Fin S65536.rank)
  bcast_S65536x1_S65536x768_0_1 : S65536x1.BroadcastsInDim S65536x768 (![0, 1] : Fin 2 → Fin S65536x768.rank)
  bcast_S8192_S1x8192_1 : S8192.BroadcastsInDim S1x8192 (![1] : Fin 1 → Fin S1x8192.rank)
  concatenates_S1x8192_S1x8192_S2x8192_d0 : Shape.Concatenates [S1x8192, S1x8192] S2x8192 0
  concatenates_S2x65536_S2x8192_S2x73728_d1 : Shape.Concatenates [S2x65536, S2x8192] S2x73728 1
  bcast_S768_S8192x768_1 : S768.BroadcastsInDim S8192x768 (![1] : Fin 1 → Fin S8192x768.rank)
  concatenates_S65536x768_S8192x768_S73728x768_d0 : Shape.Concatenates [S65536x768, S8192x768] S73728x768 0
  concatenates_S65536_S8192_S73728_d0 : Shape.Concatenates [S65536, S8192] S73728 0
  slices_S2x73728_S1x73728_0_0 : S2x73728.Slices ![0, 0] S1x73728
  shapeCasts_S1x73728_S73728 : S1x73728.ShapeCasts S73728
  slices_S2x73728_S1x73728_1_0 : S2x73728.Slices ![1, 0] S1x73728
  bcast_S_S73728 : S_.BroadcastsInDim S73728 (![] : Fin 0 → Fin S73728.rank)
  bcast_S73728_S73728x1_0 : S73728.BroadcastsInDim S73728x1 (![0] : Fin 1 → Fin S73728x1.rank)
  slices_S2304x768_S768x768_0_0 : S2304x768.Slices ![0, 0] S768x768
  slices_S2304x768_S768x768_768_0 : S2304x768.Slices ![768, 0] S768x768
  slices_S2304x768_S768x768_1536_0 : S2304x768.Slices ![1536, 0] S768x768
  shapeCasts_S768_S1x768 : S768.ShapeCasts S1x768
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S3072x768 : S1x768.Broadcasts S3072x768
  concatenates_S73728x1_S73728x1_S73728x1_S73728x3_d1 : Shape.Concatenates [S73728x1, S73728x1, S73728x1] S73728x3 1
  shapeCasts_S73728_S1x73728 : S73728.ShapeCasts S1x73728
  inb_S8x64_S8x64_0_0 : ∀ a, (![0, 0] : Fin 2 → Nat) a + S8x64.size a ≤ S8x64.size a
  h_S8x64 : 0 < S8x64.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S8x64_S8x64x1 : S8x64.ShapeCasts S8x64x1
  shapeCasts_S1x4096_S1x1x4096 : S1x4096.ShapeCasts S1x1x4096
  broadcasts_S8x64x1_S8x64x4096 : S8x64x1.Broadcasts S8x64x4096
  broadcasts_S1x1x4096_S8x64x4096 : S1x1x4096.Broadcasts S8x64x4096
  reduces_S8x64x4096_S8x4096 : S8x64x4096.Reduces [1] S8x4096
  natLt_1_32 : 1 < 32
  inb_S8x4096_S8x4096_0_0 : ∀ a, (![0, 0] : Fin 2 → Nat) a + S8x4096.size a ≤ S8x4096.size a
  h_S8x4096 : 0 < S8x4096.numel
  bcast_S_S8x73728 : S_.BroadcastsInDim S8x73728 (![] : Fin 0 → Fin S8x73728.rank)
  gather_S100000x768_S8192x1_S8192x768_1_0_n_n_0_1_1768_wf : GatherDims.WF S100000x768 S8192x1 S8192x768 [1] [0] [] [0] [] 1 ![1, 768]
  gather_S38x768_S65536x1_S65536x768_1_0_n_n_0_1_1768_wf : GatherDims.WF S38x768 S65536x1 S65536x768 [1] [0] [] [0] [] 1 ![1, 768]
  gather_S8192x768_S73728x1_S73728x768_1_0_n_n_0_1_1768_wf : GatherDims.WF S8192x768 S73728x1 S73728x768 [1] [0] [] [0] [] 1 ![1, 768]
  dot_S3072x768_S768x768_S3072x768_1_0_0_1_n_n_wf : DotDims.WF S3072x768 S768x768 S3072x768 [1] [0] [0] [1] [] []
  gather_S8192_S73728x1_S73728_n_0_n_n_0_1_1_wf : GatherDims.WF S8192 S73728x1 S73728 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x768.size a ≤ S73728x768.size a
  hwx0_0 : ∀ i : grid0.Coords, EltTy.bits .bf16 = 32 ∨ (Rect.block (s := S73728x768) S3072x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x768.size a ≤ S73728x768.size a
  hwx0_1 : ∀ i : grid0.Coords, EltTy.bits .bf16 = 32 ∨ (Rect.block (s := S73728x768) S3072x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x768.size a ≤ S73728x768.size a
  hwx0_2 : ∀ i : grid0.Coords, EltTy.bits .bf16 = 32 ∨ (Rect.block (s := S73728x768) S3072x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3072x768.size a ≤ S73728x768.size a
  hwx0_7 : ∀ i : grid0.Coords, EltTy.bits .f32 = 32 ∨ (Rect.block (s := S73728x768) S3072x768.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x64.size a ≤ S8x64.size a
  hwx1_0 : ∀ i : grid1.Coords, EltTy.bits .i32 = 32 ∨ (Rect.block (s := S8x64) S8x64.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x73728.size a
  hwx1_1 : ∀ i : grid1.Coords, EltTy.bits .i32 = 32 ∨ (Rect.block (s := S1x73728) S1x4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x73728.size a
  hwx1_2 : ∀ i : grid1.Coords, EltTy.bits .i32 = 32 ∨ (Rect.block (s := S1x73728) S1x4096.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x4096.size a ≤ S8x73728.size a
  hwx1_3 : ∀ i : grid1.Coords, EltTy.bits .i32 = 32 ∨ (Rect.block (s := S8x73728) S8x4096.size (cc1_transform_3 i) (hinb1_3 i)).WholeWords (EltTy.packing .i32)

variable [Facts₀]

def gather_S100000x768_S8192x1_S8192x768_1_0_n_n_0_1_1768 : GatherDims S100000x768 S8192x1 S8192x768 where
  offsetDims := [1]
  collapsedSliceDims := [0]
  operandBatchingDims := []
  startIndicesBatchingDims := []
  startIndexMap := [0]
  indexVectorDim := 1
  sliceSizes := ![1, 768]
  wf := gather_S100000x768_S8192x1_S8192x768_1_0_n_n_0_1_1768_wf
def gather_S38x768_S65536x1_S65536x768_1_0_n_n_0_1_1768 : GatherDims S38x768 S65536x1 S65536x768 where
  offsetDims := [1]
  collapsedSliceDims := [0]
  operandBatchingDims := []
  startIndicesBatchingDims := []
  startIndexMap := [0]
  indexVectorDim := 1
  sliceSizes := ![1, 768]
  wf := gather_S38x768_S65536x1_S65536x768_1_0_n_n_0_1_1768_wf
def gather_S8192x768_S73728x1_S73728x768_1_0_n_n_0_1_1768 : GatherDims S8192x768 S73728x1 S73728x768 where
  offsetDims := [1]
  collapsedSliceDims := [0]
  operandBatchingDims := []
  startIndicesBatchingDims := []
  startIndexMap := [0]
  indexVectorDim := 1
  sliceSizes := ![1, 768]
  wf := gather_S8192x768_S73728x1_S73728x768_1_0_n_n_0_1_1768_wf
def dot_S3072x768_S768x768_S3072x768_1_0_0_1_n_n : DotDims S3072x768 S768x768 S3072x768 where
  lhsContracting := [1]
  rhsContracting := [0]
  lhsNonContracting := [0]
  rhsNonContracting := [1]
  lhsBatch := []
  rhsBatch := []
  wf := dot_S3072x768_S768x768_S3072x768_1_0_0_1_n_n_wf
def gather_S8192_S73728x1_S73728_n_0_n_n_0_1_1 : GatherDims S8192 S73728x1 S73728 where
  offsetDims := []
  collapsedSliceDims := [0]
  operandBatchingDims := []
  startIndicesBatchingDims := []
  startIndexMap := [0]
  indexVectorDim := 1
  sliceSizes := ![1]
  wf := gather_S8192_S73728x1_S73728_n_0_n_n_0_1_1_wf

abbrev win0_0 : Pipeline.Window sig grid0 :=
  Pipeline.Window.ofSpec (Memref.whole main_v44) S3072x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S3072x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S3072x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S3072x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg3) S8x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v78) S1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v79) S1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v80) S8x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192 : Shape := ⟨1, ![8192]⟩
abbrev S2x65536 : Shape := ⟨2, ![2, 65536]⟩
abbrev S65536x2 : Shape := ⟨2, ![65536, 2]⟩
abbrev S8x64 : Shape := ⟨2, ![8, 64]⟩
abbrev S100000x768 : Shape := ⟨2, ![100000, 768]⟩
abbrev S38x768 : Shape := ⟨2, ![38, 768]⟩
abbrev S768 : Shape := ⟨1, ![768]⟩
abbrev S2304x768 : Shape := ⟨2, ![2304, 768]⟩
abbrev S_ : Shape := ⟨0, ![]⟩
abbrev S8192x1 : Shape := ⟨2, ![8192, 1]⟩
abbrev S8192x768 : Shape := ⟨2, ![8192, 768]⟩
abbrev S65536x1 : Shape := ⟨2, ![65536, 1]⟩
abbrev S65536 : Shape := ⟨1, ![65536]⟩
abbrev S65536x768 : Shape := ⟨2, ![65536, 768]⟩
abbrev S1x8192 : Shape := ⟨2, ![1, 8192]⟩
abbrev S2x8192 : Shape := ⟨2, ![2, 8192]⟩
abbrev S2x73728 : Shape := ⟨2, ![2, 73728]⟩
abbrev S73728x768 : Shape := ⟨2, ![73728, 768]⟩
abbrev S73728 : Shape := ⟨1, ![73728]⟩
abbrev S1x73728 : Shape := ⟨2, ![1, 73728]⟩
abbrev S73728x1 : Shape := ⟨2, ![73728, 1]⟩
abbrev S73728x2304 : Shape := ⟨2, ![73728, 2304]⟩
abbrev S1x768 : Shape := ⟨2, ![1, 768]⟩
abbrev S73728x3 : Shape := ⟨2, ![73728, 3]⟩
abbrev S8x64x1 : Shape := ⟨3, ![8, 64, 1]⟩
abbrev S1x1x73728 : Shape := ⟨3, ![1, 1, 73728]⟩
abbrev S8x64x73728 : Shape := ⟨3, ![8, 64, 73728]⟩
abbrev S8x73728 : Shape := ⟨2, ![8, 73728]⟩

abbrev nBuf : Space → Nat
  | .hbm => 109
  | .vmem => 0
  | .smem => 0
  | _ => 0

abbrev bufTy : (tb : Table) → Fin (tcTables nBuf tb) → BufTy
  | .hbm, ⟨0, _⟩ => ⟨S8192, .i32⟩
  | .hbm, ⟨1, _⟩ => ⟨S2x65536, .i32⟩
  | .hbm, ⟨2, _⟩ => ⟨S65536x2, .f32⟩
  | .hbm, ⟨3, _⟩ => ⟨S8x64, .i32⟩
  | .hbm, ⟨4, _⟩ => ⟨S100000x768, .f32⟩
  | .hbm, ⟨5, _⟩ => ⟨S38x768, .f32⟩
  | .hbm, ⟨6, _⟩ => ⟨S768, .f32⟩
  | .hbm, ⟨7, _⟩ => ⟨S2304x768, .f32⟩
  | .hbm, ⟨8, _⟩ => ⟨S768, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x768, .f32⟩
  | .hbm, ⟨18, _⟩ => ⟨S65536x1, .f32⟩
  | .hbm, ⟨19, _⟩ => ⟨S65536, .f32⟩
  | .hbm, ⟨20, _⟩ => ⟨S65536, .i32⟩
  | .hbm, ⟨21, _⟩ => ⟨S65536x1, .f32⟩
  | .hbm, ⟨22, _⟩ => ⟨S65536, .f32⟩
  | .hbm, ⟨23, _⟩ => ⟨S65536x1, .f32⟩
  | .hbm, ⟨24, _⟩ => ⟨S_, .i32⟩
  | .hbm, ⟨25, _⟩ => ⟨S65536, .i32⟩
  | .hbm, ⟨26, _⟩ => ⟨S65536, .i1⟩
  | .hbm, ⟨27, _⟩ => ⟨S_, .i32⟩
  | .hbm, ⟨28, _⟩ => ⟨S65536, .i32⟩
  | .hbm, ⟨29, _⟩ => ⟨S65536, .i32⟩
  | .hbm, ⟨30, _⟩ => ⟨S65536, .i32⟩
  | .hbm, ⟨31, _⟩ => ⟨S65536x1, .i32⟩
  | .hbm, ⟨32, _⟩ => ⟨S65536x768, .f32⟩
  | .hbm, ⟨33, _⟩ => ⟨S65536x768, .f32⟩
  | .hbm, ⟨34, _⟩ => ⟨S65536x768, .f32⟩
  | .hbm, ⟨35, _⟩ => ⟨S8192, .i32⟩
  | .hbm, ⟨36, _⟩ => ⟨S1x8192, .i32⟩
  | .hbm, ⟨37, _⟩ => ⟨S1x8192, .i32⟩
  | .hbm, ⟨38, _⟩ => ⟨S2x8192, .i32⟩
  | .hbm, ⟨39, _⟩ => ⟨S2x73728, .i32⟩
  | .hbm, ⟨40, _⟩ => ⟨S8192x768, .f32⟩
  | .hbm, ⟨41, _⟩ => ⟨S73728x768, .f32⟩
  | .hbm, ⟨42, _⟩ => ⟨S_, .i32⟩
  | .hbm, ⟨43, _⟩ => ⟨S8192, .i32⟩
  | .hbm, ⟨44, _⟩ => ⟨S73728, .i32⟩
  | .hbm, ⟨45, _⟩ => ⟨S1x73728, .i32⟩
  | .hbm, ⟨46, _⟩ => ⟨S73728, .i32⟩
  | .hbm, ⟨47, _⟩ => ⟨S1x73728, .i32⟩
  | .hbm, ⟨48, _⟩ => ⟨S73728, .i32⟩
  | .hbm, ⟨49, _⟩ => ⟨S_, .i32⟩
  | .hbm, ⟨50, _⟩ => ⟨S73728, .i32⟩
  | .hbm, ⟨51, _⟩ => ⟨S73728, .i1⟩
  | .hbm, ⟨52, _⟩ => ⟨S_, .i32⟩
  | .hbm, ⟨53, _⟩ => ⟨S73728, .i32⟩
  | .hbm, ⟨54, _⟩ => ⟨S73728, .i32⟩
  | .hbm, ⟨55, _⟩ => ⟨S73728, .i32⟩
  | .hbm, ⟨56, _⟩ => ⟨S73728x1, .i32⟩
  | .hbm, ⟨57, _⟩ => ⟨S73728x768, .f32⟩
  | .hbm, ⟨58, _⟩ => ⟨S_, .i32⟩
  | .hbm, ⟨59, _⟩ => ⟨S73728, .i32⟩
  | .hbm, ⟨60, _⟩ => ⟨S73728, .i1⟩
  | .hbm, ⟨61, _⟩ => ⟨S_, .i32⟩
  | .hbm, ⟨62, _⟩ => ⟨S73728, .i32⟩
  | .hbm, ⟨63, _⟩ => ⟨S73728, .i32⟩
  | .hbm, ⟨64, _⟩ => ⟨S73728, .i32⟩
  | .hbm, ⟨65, _⟩ => ⟨S73728x1, .i32⟩
  | .hbm, ⟨66, _⟩ => ⟨S73728x768, .f32⟩
  | .hbm, ⟨67, _⟩ => ⟨S73728x2304, .f32⟩
  | .hbm, ⟨68, _⟩ => ⟨S73728x768, .f32⟩
  | .hbm, ⟨69, _⟩ => ⟨S1x768, .f32⟩
  | .hbm, ⟨70, _⟩ => ⟨S73728x768, .f32⟩
  | .hbm, ⟨71, _⟩ => ⟨S73728x768, .f32⟩
  | .hbm, ⟨72, _⟩ => ⟨S_, .i32⟩
  | .hbm, ⟨73, _⟩ => ⟨S73728, .i32⟩
  | .hbm, ⟨74, _⟩ => ⟨S73728, .i1⟩
  | .hbm, ⟨75, _⟩ => ⟨S_, .i32⟩
  | .hbm, ⟨76, _⟩ => ⟨S73728, .i32⟩
  | .hbm, ⟨77, _⟩ => ⟨S73728, .i32⟩
  | .hbm, ⟨78, _⟩ => ⟨S73728, .i32⟩
  | .hbm, ⟨79, _⟩ => ⟨S73728x1, .i32⟩
  | .hbm, ⟨80, _⟩ => ⟨S73728, .i32⟩
  | .hbm, ⟨81, _⟩ => ⟨S_, .i32⟩
  | .hbm, ⟨82, _⟩ => ⟨S73728, .i32⟩
  | .hbm, ⟨83, _⟩ => ⟨S73728, .i1⟩
  | .hbm, ⟨84, _⟩ => ⟨S_, .i32⟩
  | .hbm, ⟨85, _⟩ => ⟨S73728, .i32⟩
  | .hbm, ⟨86, _⟩ => ⟨S73728, .i32⟩
  | .hbm, ⟨87, _⟩ => ⟨S73728, .i32⟩
  | .hbm, ⟨88, _⟩ => ⟨S73728x1, .i32⟩
  | .hbm, ⟨89, _⟩ => ⟨S73728, .i32⟩
  | .hbm, ⟨90, _⟩ => ⟨S73728x1, .i32⟩
  | .hbm, ⟨91, _⟩ => ⟨S73728x1, .i32⟩
  | .hbm, ⟨92, _⟩ => ⟨S73728x1, .i32⟩
  | .hbm, ⟨93, _⟩ => ⟨S73728x3, .i32⟩
  | .hbm, ⟨94, _⟩ => ⟨S8x64x1, .i32⟩
  | .hbm, ⟨95, _⟩ => ⟨S1x1x73728, .i32⟩
  | .hbm, ⟨96, _⟩ => ⟨S8x64x73728, .i32⟩
  | .hbm, ⟨97, _⟩ => ⟨S8x64x73728, .i32⟩
  | .hbm, ⟨98, _⟩ => ⟨S8x64x73728, .i1⟩
  | .hbm, ⟨99, _⟩ => ⟨S_, .i1⟩
  | .hbm, ⟨100, _⟩ => ⟨S8x73728, .i1⟩
  | .hbm, ⟨101, _⟩ => ⟨S8x64x1, .i32⟩
  | .hbm, ⟨102, _⟩ => ⟨S1x1x73728, .i32⟩
  | .hbm, ⟨103, _⟩ => ⟨S8x64x73728, .i32⟩
  | .hbm, ⟨104, _⟩ => ⟨S8x64x73728, .i32⟩
  | .hbm, ⟨105, _⟩ => ⟨S8x64x73728, .i1⟩
  | .hbm, ⟨106, _⟩ => ⟨S_, .i1⟩
  | .hbm, ⟨107, _⟩ => ⟨S8x73728, .i1⟩
  | .hbm, ⟨108, _⟩ => ⟨S8x73728, .i1⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_12 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_13 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S65536x2_S65536x1_0_0 : S65536x2.Slices ![0, 0] S65536x1
  shapeCasts_S65536x1_S65536 : S65536x1.ShapeCasts S65536
  slices_S65536x2_S65536x1_0_1 : S65536x2.Slices ![0, 1] S65536x1
  bcast_S65536_S65536x1_0 : S65536.BroadcastsInDim S65536x1 (![0] : Fin 1 → Fin S65536x1.rank)
  bcast_S_S65536 : S_.BroadcastsInDim S65536 (![] : Fin 0 → Fin S65536.rank)
  bcast_S65536x1_S65536x768_0_1 : S65536x1.BroadcastsInDim S65536x768 (![0, 1] : Fin 2 → Fin S65536x768.rank)
  bcast_S8192_S1x8192_1 : S8192.BroadcastsInDim S1x8192 (![1] : Fin 1 → Fin S1x8192.rank)
  concatenates_S1x8192_S1x8192_S2x8192_d0 : Shape.Concatenates [S1x8192, S1x8192] S2x8192 0
  concatenates_S2x65536_S2x8192_S2x73728_d1 : Shape.Concatenates [S2x65536, S2x8192] S2x73728 1
  bcast_S768_S8192x768_1 : S768.BroadcastsInDim S8192x768 (![1] : Fin 1 → Fin S8192x768.rank)
  concatenates_S65536x768_S8192x768_S73728x768_d0 : Shape.Concatenates [S65536x768, S8192x768] S73728x768 0
  concatenates_S65536_S8192_S73728_d0 : Shape.Concatenates [S65536, S8192] S73728 0
  slices_S2x73728_S1x73728_0_0 : S2x73728.Slices ![0, 0] S1x73728
  shapeCasts_S1x73728_S73728 : S1x73728.ShapeCasts S73728
  slices_S2x73728_S1x73728_1_0 : S2x73728.Slices ![1, 0] S1x73728
  bcast_S_S73728 : S_.BroadcastsInDim S73728 (![] : Fin 0 → Fin S73728.rank)
  bcast_S73728_S73728x1_0 : S73728.BroadcastsInDim S73728x1 (![0] : Fin 1 → Fin S73728x1.rank)
  concatenates_S73728x768_S73728x768_S73728x768_S73728x2304_d1 : Shape.Concatenates [S73728x768, S73728x768, S73728x768] S73728x2304 1
  bcast_S768_S1x768_1 : S768.BroadcastsInDim S1x768 (![1] : Fin 1 → Fin S1x768.rank)
  bcast_S1x768_S73728x768_0_1 : S1x768.BroadcastsInDim S73728x768 (![0, 1] : Fin 2 → Fin S73728x768.rank)
  concatenates_S73728x1_S73728x1_S73728x1_S73728x3_d1 : Shape.Concatenates [S73728x1, S73728x1, S73728x1] S73728x3 1
  bcast_S8x64_S8x64x1_0_1 : S8x64.BroadcastsInDim S8x64x1 (![0, 1] : Fin 2 → Fin S8x64x1.rank)
  bcast_S73728_S1x1x73728_2 : S73728.BroadcastsInDim S1x1x73728 (![2] : Fin 1 → Fin S1x1x73728.rank)
  bcast_S8x64x1_S8x64x73728_0_1_2 : S8x64x1.BroadcastsInDim S8x64x73728 (![0, 1, 2] : Fin 3 → Fin S8x64x73728.rank)
  bcast_S1x1x73728_S8x64x73728_0_1_2 : S1x1x73728.BroadcastsInDim S8x64x73728 (![0, 1, 2] : Fin 3 → Fin S8x64x73728.rank)
  reducesTo_S8x64x73728_S8x73728_d1 : S8x64x73728.ReducesTo [1] S8x73728
  h_S_ : 0 < S_.numel
  gather_S100000x768_S8192x1_S8192x768_1_0_n_n_0_1_1768_wf : GatherDims.WF S100000x768 S8192x1 S8192x768 [1] [0] [] [0] [] 1 ![1, 768]
  gather_S38x768_S65536x1_S65536x768_1_0_n_n_0_1_1768_wf : GatherDims.WF S38x768 S65536x1 S65536x768 [1] [0] [] [0] [] 1 ![1, 768]
  gather_S8192x768_S73728x1_S73728x768_1_0_n_n_0_1_1768_wf : GatherDims.WF S8192x768 S73728x1 S73728x768 [1] [0] [] [0] [] 1 ![1, 768]
  dot_S73728x2304_S2304x768_S73728x768_1_0_0_1_n_n_wf : DotDims.WF S73728x2304 S2304x768 S73728x768 [1] [0] [0] [1] [] []
  gather_S8192_S73728x1_S73728_n_0_n_n_0_1_1_wf : GatherDims.WF S8192 S73728x1 S73728 [] [0] [] [0] [] 1 ![1]

variable [Facts₀]

def gather_S100000x768_S8192x1_S8192x768_1_0_n_n_0_1_1768 : GatherDims S100000x768 S8192x1 S8192x768 where
  offsetDims := [1]
  collapsedSliceDims := [0]
  operandBatchingDims := []
  startIndicesBatchingDims := []
  startIndexMap := [0]
  indexVectorDim := 1
  sliceSizes := ![1, 768]
  wf := gather_S100000x768_S8192x1_S8192x768_1_0_n_n_0_1_1768_wf
def gather_S38x768_S65536x1_S65536x768_1_0_n_n_0_1_1768 : GatherDims S38x768 S65536x1 S65536x768 where
  offsetDims := [1]
  collapsedSliceDims := [0]
  operandBatchingDims := []
  startIndicesBatchingDims := []
  startIndexMap := [0]
  indexVectorDim := 1
  sliceSizes := ![1, 768]
  wf := gather_S38x768_S65536x1_S65536x768_1_0_n_n_0_1_1768_wf
def gather_S8192x768_S73728x1_S73728x768_1_0_n_n_0_1_1768 : GatherDims S8192x768 S73728x1 S73728x768 where
  offsetDims := [1]
  collapsedSliceDims := [0]
  operandBatchingDims := []
  startIndicesBatchingDims := []
  startIndexMap := [0]
  indexVectorDim := 1
  sliceSizes := ![1, 768]
  wf := gather_S8192x768_S73728x1_S73728x768_1_0_n_n_0_1_1768_wf
def dot_S73728x2304_S2304x768_S73728x768_1_0_0_1_n_n : DotDims S73728x2304 S2304x768 S73728x768 where
  lhsContracting := [1]
  rhsContracting := [0]
  lhsNonContracting := [0]
  rhsNonContracting := [1]
  lhsBatch := []
  rhsBatch := []
  wf := dot_S73728x2304_S2304x768_S73728x768_1_0_0_1_n_n_wf
def gather_S8192_S73728x1_S73728_n_0_n_n_0_1_1 : GatherDims S8192 S73728x1 S73728 where
  offsetDims := []
  collapsedSliceDims := [0]
  operandBatchingDims := []
  startIndicesBatchingDims := []
  startIndexMap := [0]
  indexVectorDim := 1
  sliceSizes := ![1]
  wf := gather_S8192_S73728x1_S73728_n_0_n_n_0_1_1_wf

class Facts : Prop extends Facts₀ where

variable [Facts]
-- ==== Proof.ReferenceStages.lean ====
/-
  The reference program one operation at a time: the value each operation writes, as a function of the argument
  arrays it depends on. (index normalisation: a negative index has the extent added; the gathers; the relation rows
  scaled by the edge weights; the self-loop rows appended; the three operands laid side by side and multiplied by the
  weight matrix, plus the bias; the two or-reductions of equality tests; the id table.)
-/
import proofs.«164025_j25692494364677_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

def val_main_c : (⟨S_, .i32⟩ : BufTy).Contents (Elt F) :=
  constantI S_ 32 0#32

def val_main_v0 : (⟨S8192, .i32⟩ : BufTy).Contents (Elt F) :=
  broadcastInDim S8192 ![] bcast_S_S8192 (val_main_c (F := F))

def val_main_v1 (x0 : (⟨S8192, .i32⟩ : BufTy).Contents (Elt F)) : (⟨S8192, .i1⟩ : BufTy).Contents (Elt F) :=
  cmpi .slt (x0) (val_main_v0 (F := F))

def val_main_c_0 : (⟨S_, .i32⟩ : BufTy).Contents (Elt F) :=
  constantI S_ 32 100000#32

def val_main_v2 : (⟨S8192, .i32⟩ : BufTy).Contents (Elt F) :=
  broadcastInDim S8192 ![] bcast_S_S8192 (val_main_c_0 (F := F))

def val_main_v3 (x0 : (⟨S8192, .i32⟩ : BufTy).Contents (Elt F)) : (⟨S8192, .i32⟩ : BufTy).Contents (Elt F) :=
  addi (x0) (val_main_v2 (F := F))

def val_main_v4 (x0 : (⟨S8192, .i32⟩ : BufTy).Contents (Elt F)) : (⟨S8192, .i32⟩ : BufTy).Contents (Elt F) :=
  select (val_main_v1 (F := F) x0) (val_main_v3 (F := F) x0) (x0)

def val_main_v5 (x0 : (⟨S8192, .i32⟩ : BufTy).Contents (Elt F)) : (⟨S8192x1, .i32⟩ : BufTy).Contents (Elt F) :=
  broadcastInDim S8192x1 ![0] bcast_S8192_S8192x1_0 (val_main_v4 (F := F) x0)

def val_main_v6 (x0 : (⟨S8192, .i32⟩ : BufTy).Contents (Elt F)) (x4 : (⟨S100000x768, .f32⟩ : BufTy).Contents (Elt F)) : (⟨S8192x768, .f32⟩ : BufTy).Contents (Elt F) :=
  Host.gather gather_S100000x768_S8192x1_S8192x768_1_0_n_n_0_1_1768 (x4) (val_main_v5 (F := F) x0)

def val_main_v7 (x2 : (⟨S65536x2, .f32⟩ : BufTy).Contents (Elt F)) : (⟨S65536x1, .f32⟩ : BufTy).Contents (Elt F) :=
  extractStridedSlice S65536x1 ![0, 0] (x2) slices_S65536x2_S65536x1_0_0

def val_main_v8 (x2 : (⟨S65536x2, .f32⟩ : BufTy).Contents (Elt F)) : (⟨S65536, .f32⟩ : BufTy).Contents (Elt F) :=
  shapeCast _ (val_main_v7 (F := F) x2) shapeCasts_S65536x1_S65536

def val_main_v9 (x2 : (⟨S65536x2, .f32⟩ : BufTy).Contents (Elt F)) : (⟨S65536, .i32⟩ : BufTy).Contents (Elt F) :=
  fptosi 32 (val_main_v8 (F := F) x2)

def val_main_v10 (x2 : (⟨S65536x2, .f32⟩ : BufTy).Contents (Elt F)) : (⟨S65536x1, .f32⟩ : BufTy).Contents (Elt F) :=
  extractStridedSlice S65536x1 ![0, 1] (x2) slices_S65536x2_S65536x1_0_1

def val_main_v11 (x2 : (⟨S65536x2, .f32⟩ : BufTy).Contents (Elt F)) : (⟨S65536, .f32⟩ : BufTy).Contents (Elt F) :=
  shapeCast _ (val_main_v10 (F := F) x2) shapeCasts_S65536x1_S65536

def val_main_v12 (x2 : (⟨S65536x2, .f32⟩ : BufTy).Contents (Elt F)) : (⟨S65536x1, .f32⟩ : BufTy).Contents (Elt F) :=
  broadcastInDim S65536x1 ![0] bcast_S65536_S65536x1_0 (val_main_v11 (F := F) x2)

def val_main_c_1 : (⟨S_, .i32⟩ : BufTy).Contents (Elt F) :=
  constantI S_ 32 0#32

def val_main_v13 : (⟨S65536, .i32⟩ : BufTy).Contents (Elt F) :=
  broadcastInDim S65536 ![] bcast_S_S65536 (val_main_c_1 (F := F))

def val_main_v14 (x2 : (⟨S65536x2, .f32⟩ : BufTy).Contents (Elt F)) : (⟨S65536, .i1⟩ : BufTy).Contents (Elt F) :=
  cmpi .slt (val_main_v9 (F := F) x2) (val_main_v13 (F := F))

def val_main_c_2 : (⟨S_, .i32⟩ : BufTy).Contents (Elt F) :=
  constantI S_ 32 38#32

def val_main_v15 : (⟨S65536, .i32⟩ : BufTy).Contents (Elt F) :=
  broadcastInDim S65536 ![] bcast_S_S65536 (val_main_c_2 (F := F))

def val_main_v16 (x2 : (⟨S65536x2, .f32⟩ : BufTy).Contents (Elt F)) : (⟨S65536, .i32⟩ : BufTy).Contents (Elt F) :=
  addi (val_main_v9 (F := F) x2) (val_main_v15 (F := F))

def val_main_v17 (x2 : (⟨S65536x2, .f32⟩ : BufTy).Contents (Elt F)) : (⟨S65536, .i32⟩ : BufTy).Contents (Elt F) :=
  select (val_main_v14 (F := F) x2) (val_main_v16 (F := F) x2) (val_main_v9 (F := F) x2)

def val_main_v18 (x2 : (⟨S65536x2, .f32⟩ : BufTy).Contents (Elt F)) : (⟨S65536x1, .i32⟩ : BufTy).Contents (Elt F) :=
  broadcastInDim S65536x1 ![0] bcast_S65536_S65536x1_0 (val_main_v17 (F := F) x2)

def val_main_v19 (x2 : (⟨S65536x2, .f32⟩ : BufTy).Contents (Elt F)) (x5 : (⟨S38x768, .f32⟩ : BufTy).Contents (Elt F)) : (⟨S65536x768, .f32⟩ : BufTy).Contents (Elt F) :=
  Host.gather gather_S38x768_S65536x1_S65536x768_1_0_n_n_0_1_1768 (x5) (val_main_v18 (F := F) x2)

def val_main_v20 (x2 : (⟨S65536x2, .f32⟩ : BufTy).Contents (Elt F)) : (⟨S65536x768, .f32⟩ : BufTy).Contents (Elt F) :=
  broadcastInDim S65536x768 ![0, 1] bcast_S65536x1_S65536x768_0_1 (val_main_v12 (F := F) x2)

def val_main_v21 (x2 : (⟨S65536x2, .f32⟩ : BufTy).Contents (Elt F)) (x5 : (⟨S38x768, .f32⟩ : BufTy).Contents (Elt F)) : (⟨S65536x768, .f32⟩ : BufTy).Contents (Elt F) :=
  mulf (val_main_v20 (F := F) x2) (val_main_v19 (F := F) x2 x5)

def val_main_v22 : (⟨S8192, .i32⟩ : BufTy).Contents (Elt F) :=
  iotaInDim S8192 32 0

def val_main_v23 : (⟨S1x8192, .i32⟩ : BufTy).Contents (Elt F) :=
  broadcastInDim S1x8192 ![1] bcast_S8192_S1x8192_1 (val_main_v22 (F := F))

def val_main_v24 : (⟨S1x8192, .i32⟩ : BufTy).Contents (Elt F) :=
  broadcastInDim S1x8192 ![1] bcast_S8192_S1x8192_1 (val_main_v22 (F := F))

def val_main_v25 : (⟨S2x8192, .i32⟩ : BufTy).Contents (Elt F) :=
  concatenate S2x8192 0 [⟨S1x8192, (val_main_v23 (F := F))⟩, ⟨S1x8192, (val_main_v24 (F := F))⟩] concatenates_S1x8192_S1x8192_S2x8192_d0

def val_main_v26 (x1 : (⟨S2x65536, .i32⟩ : BufTy).Contents (Elt F)) : (⟨S2x73728, .i32⟩ : BufTy).Contents (Elt F) :=
  concatenate S2x73728 1 [⟨S2x65536, (x1)⟩, ⟨S2x8192, (val_main_v25 (F := F))⟩] concatenates_S2x65536_S2x8192_S2x73728_d1

def val_main_v27 (x6 : (⟨S768, .f32⟩ : BufTy).Contents (Elt F)) : (⟨S8192x768, .f32⟩ : BufTy).Contents (Elt F) :=
  broadcastInDim S8192x768 ![1] bcast_S768_S8192x768_1 (x6)

def val_main_v28 (x2 : (⟨S65536x2, .f32⟩ : BufTy).Contents (Elt F)) (x5 : (⟨S38x768, .f32⟩ : BufTy).Contents (Elt F)) (x6 : (⟨S768, .f32⟩ : BufTy).Contents (Elt F)) : (⟨S73728x768, .f32⟩ : BufTy).Contents (Elt F) :=
  concatenate S73728x768 0 [⟨S65536x768, (val_main_v21 (F := F) x2 x5)⟩, ⟨S8192x768, (val_main_v27 (F := F) x6)⟩] concatenates_S65536x768_S8192x768_S73728x768_d0

def val_main_c_3 : (⟨S_, .i32⟩ : BufTy).Contents (Elt F) :=
  constantI S_ 32 38#32

def val_main_v29 : (⟨S8192, .i32⟩ : BufTy).Contents (Elt F) :=
  broadcastInDim S8192 ![] bcast_S_S8192 (val_main_c_3 (F := F))

def val_main_v30 (x2 : (⟨S65536x2, .f32⟩ : BufTy).Contents (Elt F)) : (⟨S73728, .i32⟩ : BufTy).Contents (Elt F) :=
  concatenate S73728 0 [⟨S65536, (val_main_v9 (F := F) x2)⟩, ⟨S8192, (val_main_v29 (F := F))⟩] concatenates_S65536_S8192_S73728_d0

def val_main_v31 (x1 : (⟨S2x65536, .i32⟩ : BufTy).Contents (Elt F)) : (⟨S1x73728, .i32⟩ : BufTy).Contents (Elt F) :=
  extractStridedSlice S1x73728 ![0, 0] (val_main_v26 (F := F) x1) slices_S2x73728_S1x73728_0_0

def val_main_v32 (x1 : (⟨S2x65536, .i32⟩ : BufTy).Contents (Elt F)) : (⟨S73728, .i32⟩ : BufTy).Contents (Elt F) :=
  shapeCast _ (val_main_v31 (F := F) x1) shapeCasts_S1x73728_S73728

def val_main_v33 (x1 : (⟨S2x65536, .i32⟩ : BufTy).Contents (Elt F)) : (⟨S1x73728, .i32⟩ : BufTy).Contents (Elt F) :=
  extractStridedSlice S1x73728 ![1, 0] (val_main_v26 (F := F) x1) slices_S2x73728_S1x73728_1_0

def val_main_v34 (x1 : (⟨S2x65536, .i32⟩ : BufTy).Contents (Elt F)) : (⟨S73728, .i32⟩ : BufTy).Contents (Elt F) :=
  shapeCast _ (val_main_v33 (F := F) x1) shapeCasts_S1x73728_S73728

def val_main_c_4 : (⟨S_, .i32⟩ : BufTy).Contents (Elt F) :=
  constantI S_ 32 0#32

def val_main_v35 : (⟨S73728, .i32⟩ : BufTy).Contents (Elt F) :=
  broadcastInDim S73728 ![] bcast_S_S73728 (val_main_c_4 (F := F))

def val_main_v36 (x1 : (⟨S2x65536, .i32⟩ : BufTy).Contents (Elt F)) : (⟨S73728, .i1⟩ : BufTy).Contents (Elt F) :=
  cmpi .slt (val_main_v32 (F := F) x1) (val_main_v35 (F := F))

def val_main_c_5 : (⟨S_, .i32⟩ : BufTy).Contents (Elt F) :=
  constantI S_ 32 8192#32

def val_main_v37 : (⟨S73728, .i32⟩ : BufTy).Contents (Elt F) :=
  broadcastInDim S73728 ![] bcast_S_S73728 (val_main_c_5 (F := F))

def val_main_v38 (x1 : (⟨S2x65536, .i32⟩ : BufTy).Contents (Elt F)) : (⟨S73728, .i32⟩ : BufTy).Contents (Elt F) :=
  addi (val_main_v32 (F := F) x1) (val_main_v37 (F := F))

def val_main_v39 (x1 : (⟨S2x65536, .i32⟩ : BufTy).Contents (Elt F)) : (⟨S73728, .i32⟩ : BufTy).Contents (Elt F) :=
  select (val_main_v36 (F := F) x1) (val_main_v38 (F := F) x1) (val_main_v32 (F := F) x1)

def val_main_v40 (x1 : (⟨S2x65536, .i32⟩ : BufTy).Contents (Elt F)) : (⟨S73728x1, .i32⟩ : BufTy).Contents (Elt F) :=
  broadcastInDim S73728x1 ![0] bcast_S73728_S73728x1_0 (val_main_v39 (F := F) x1)

def val_main_v41 (x0 : (⟨S8192, .i32⟩ : BufTy).Contents (Elt F)) (x1 : (⟨S2x65536, .i32⟩ : BufTy).Contents (Elt F)) (x4 : (⟨S100000x768, .f32⟩ : BufTy).Contents (Elt F)) : (⟨S73728x768, .f32⟩ : BufTy).Contents (Elt F) :=
  Host.gather gather_S8192x768_S73728x1_S73728x768_1_0_n_n_0_1_1768 (val_main_v6 (F := F) x0 x4) (val_main_v40 (F := F) x1)

def val_main_c_6 : (⟨S_, .i32⟩ : BufTy).Contents (Elt F) :=
  constantI S_ 32 0#32

def val_main_v42 : (⟨S73728, .i32⟩ : BufTy).Contents (Elt F) :=
  broadcastInDim S73728 ![] bcast_S_S73728 (val_main_c_6 (F := F))

def val_main_v43 (x1 : (⟨S2x65536, .i32⟩ : BufTy).Contents (Elt F)) : (⟨S73728, .i1⟩ : BufTy).Contents (Elt F) :=
  cmpi .slt (val_main_v34 (F := F) x1) (val_main_v42 (F := F))

def val_main_c_7 : (⟨S_, .i32⟩ : BufTy).Contents (Elt F) :=
  constantI S_ 32 8192#32

def val_main_v44 : (⟨S73728, .i32⟩ : BufTy).Contents (Elt F) :=
  broadcastInDim S73728 ![] bcast_S_S73728 (val_main_c_7 (F := F))

def val_main_v45 (x1 : (⟨S2x65536, .i32⟩ : BufTy).Contents (Elt F)) : (⟨S73728, .i32⟩ : BufTy).Contents (Elt F) :=
  addi (val_main_v34 (F := F) x1) (val_main_v44 (F := F))

def val_main_v46 (x1 : (⟨S2x65536, .i32⟩ : BufTy).Contents (Elt F)) : (⟨S73728, .i32⟩ : BufTy).Contents (Elt F) :=
  select (val_main_v43 (F := F) x1) (val_main_v45 (F := F) x1) (val_main_v34 (F := F) x1)

def val_main_v47 (x1 : (⟨S2x65536, .i32⟩ : BufTy).Contents (Elt F)) : (⟨S73728x1, .i32⟩ : BufTy).Contents (Elt F) :=
  broadcastInDim S73728x1 ![0] bcast_S73728_S73728x1_0 (val_main_v46 (F := F) x1)

def val_main_v48 (x0 : (⟨S8192, .i32⟩ : BufTy).Contents (Elt F)) (x1 : (⟨S2x65536, .i32⟩ : BufTy).Contents (Elt F)) (x4 : (⟨S100000x768, .f32⟩ : BufTy).Contents (Elt F)) : (⟨S73728x768, .f32⟩ : BufTy).Contents (Elt F) :=
  Host.gather gather_S8192x768_S73728x1_S73728x768_1_0_n_n_0_1_1768 (val_main_v6 (F := F) x0 x4) (val_main_v47 (F := F) x1)

def val_main_v49 (x0 : (⟨S8192, .i32⟩ : BufTy).Contents (Elt F)) (x1 : (⟨S2x65536, .i32⟩ : BufTy).Contents (Elt F)) (x2 : (⟨S65536x2, .f32⟩ : BufTy).Contents (Elt F)) (x4 : (⟨S100000x768, .f32⟩ : BufTy).Contents (Elt F)) (x5 : (⟨S38x768, .f32⟩ : BufTy).Contents (Elt F)) (x6 : (⟨S768, .f32⟩ : BufTy).Contents (Elt F)) : (⟨S73728x2304, .f32⟩ : BufTy).Contents (Elt F) :=
  concatenate S73728x2304 1 [⟨S73728x768, (val_main_v41 (F := F) x0 x1 x4)⟩, ⟨S73728x768, (val_main_v28 (F := F) x2 x5 x6)⟩, ⟨S73728x768, (val_main_v48 (F := F) x0 x1 x4)⟩] concatenates_S73728x768_S73728x768_S73728x768_S73728x2304_d1

def val_main_v50 (x0 : (⟨S8192, .i32⟩ : BufTy).Contents (Elt F)) (x1 : (⟨S2x65536, .i32⟩ : BufTy).Contents (Elt F)) (x2 : (⟨S65536x2, .f32⟩ : BufTy).Contents (Elt F)) (x4 : (⟨S100000x768, .f32⟩ : BufTy).Contents (Elt F)) (x5 : (⟨S38x768, .f32⟩ : BufTy).Contents (Elt F)) (x6 : (⟨S768, .f32⟩ : BufTy).Contents (Elt F)) (x7 : (⟨S2304x768, .f32⟩ : BufTy).Contents (Elt F)) : (⟨S73728x768, .f32⟩ : BufTy).Contents (Elt F) :=
  Host.dotGeneral dot_S73728x2304_S2304x768_S73728x768_1_0_0_1_n_n none (val_main_v49 (F := F) x0 x1 x2 x4 x5 x6) (x7)

def val_main_v51 (x8 : (⟨S768, .f32⟩ : BufTy).Contents (Elt F)) : (⟨S1x768, .f32⟩ : BufTy).Contents (Elt F) :=
  broadcastInDim S1x768 ![1] bcast_S768_S1x768_1 (x8)

def val_main_v52 (x8 : (⟨S768, .f32⟩ : BufTy).Contents (Elt F)) : (⟨S73728x768, .f32⟩ : BufTy).Contents (Elt F) :=
  broadcastInDim S73728x768 ![0, 1] bcast_S1x768_S73728x768_0_1 (val_main_v51 (F := F) x8)

def val_main_v53 (x0 : (⟨S8192, .i32⟩ : BufTy).Contents (Elt F)) (x1 : (⟨S2x65536, .i32⟩ : BufTy).Contents (Elt F)) (x2 : (⟨S65536x2, .f32⟩ : BufTy).Contents (Elt F)) (x4 : (⟨S100000x768, .f32⟩ : BufTy).Contents (Elt F)) (x5 : (⟨S38x768, .f32⟩ : BufTy).Contents (Elt F)) (x6 : (⟨S768, .f32⟩ : BufTy).Contents (Elt F)) (x7 : (⟨S2304x768, .f32⟩ : BufTy).Contents (Elt F)) (x8 : (⟨S768, .f32⟩ : BufTy).Contents (Elt F)) : (⟨S73728x768, .f32⟩ : BufTy).Contents (Elt F) :=
  addf (val_main_v50 (F := F) x0 x1 x2 x4 x5 x6 x7) (val_main_v52 (F := F) x8)

def val_main_c_8 : (⟨S_, .i32⟩ : BufTy).Contents (Elt F) :=
  constantI S_ 32 0#32

def val_main_v54 : (⟨S73728, .i32⟩ : BufTy).Contents (Elt F) :=
  broadcastInDim S73728 ![] bcast_S_S73728 (val_main_c_8 (F := F))

def val_main_v55 (x1 : (⟨S2x65536, .i32⟩ : BufTy).Contents (Elt F)) : (⟨S73728, .i1⟩ : BufTy).Contents (Elt F) :=
  cmpi .slt (val_main_v32 (F := F) x1) (val_main_v54 (F := F))

def val_main_c_9 : (⟨S_, .i32⟩ : BufTy).Contents (Elt F) :=
  constantI S_ 32 8192#32

def val_main_v56 : (⟨S73728, .i32⟩ : BufTy).Contents (Elt F) :=
  broadcastInDim S73728 ![] bcast_S_S73728 (val_main_c_9 (F := F))

def val_main_v57 (x1 : (⟨S2x65536, .i32⟩ : BufTy).Contents (Elt F)) : (⟨S73728, .i32⟩ : BufTy).Contents (Elt F) :=
  addi (val_main_v32 (F := F) x1) (val_main_v56 (F := F))

def val_main_v58 (x1 : (⟨S2x65536, .i32⟩ : BufTy).Contents (Elt F)) : (⟨S73728, .i32⟩ : BufTy).Contents (Elt F) :=
  select (val_main_v55 (F := F) x1) (val_main_v57 (F := F) x1) (val_main_v32 (F := F) x1)

def val_main_v59 (x1 : (⟨S2x65536, .i32⟩ : BufTy).Contents (Elt F)) : (⟨S73728x1, .i32⟩ : BufTy).Contents (Elt F) :=
  broadcastInDim S73728x1 ![0] bcast_S73728_S73728x1_0 (val_main_v58 (F := F) x1)

def val_main_v60 (x0 : (⟨S8192, .i32⟩ : BufTy).Contents (Elt F)) (x1 : (⟨S2x65536, .i32⟩ : BufTy).Contents (Elt F)) : (⟨S73728, .i32⟩ : BufTy).Contents (Elt F) :=
  Host.gather gather_S8192_S73728x1_S73728_n_0_n_n_0_1_1 (x0) (val_main_v59 (F := F) x1)

def val_main_c_10 : (⟨S_, .i32⟩ : BufTy).Contents (Elt F) :=
  constantI S_ 32 0#32

def val_main_v61 : (⟨S73728, .i32⟩ : BufTy).Contents (Elt F) :=
  broadcastInDim S73728 ![] bcast_S_S73728 (val_main_c_10 (F := F))

def val_main_v62 (x1 : (⟨S2x65536, .i32⟩ : BufTy).Contents (Elt F)) : (⟨S73728, .i1⟩ : BufTy).Contents (Elt F) :=
  cmpi .slt (val_main_v34 (F := F) x1) (val_main_v61 (F := F))

def val_main_c_11 : (⟨S_, .i32⟩ : BufTy).Contents (Elt F) :=
  constantI S_ 32 8192#32

def val_main_v63 : (⟨S73728, .i32⟩ : BufTy).Contents (Elt F) :=
  broadcastInDim S73728 ![] bcast_S_S73728 (val_main_c_11 (F := F))

def val_main_v64 (x1 : (⟨S2x65536, .i32⟩ : BufTy).Contents (Elt F)) : (⟨S73728, .i32⟩ : BufTy).Contents (Elt F) :=
  addi (val_main_v34 (F := F) x1) (val_main_v63 (F := F))

def val_main_v65 (x1 : (⟨S2x65536, .i32⟩ : BufTy).Contents (Elt F)) : (⟨S73728, .i32⟩ : BufTy).Contents (Elt F) :=
  select (val_main_v62 (F := F) x1) (val_main_v64 (F := F) x1) (val_main_v34 (F := F) x1)

def val_main_v66 (x1 : (⟨S2x65536, .i32⟩ : BufTy).Contents (Elt F)) : (⟨S73728x1, .i32⟩ : BufTy).Contents (Elt F) :=
  broadcastInDim S73728x1 ![0] bcast_S73728_S73728x1_0 (val_main_v65 (F := F) x1)

def val_main_v67 (x0 : (⟨S8192, .i32⟩ : BufTy).Contents (Elt F)) (x1 : (⟨S2x65536, .i32⟩ : BufTy).Contents (Elt F)) : (⟨S73728, .i32⟩ : BufTy).Contents (Elt F) :=
  Host.gather gather_S8192_S73728x1_S73728_n_0_n_n_0_1_1 (x0) (val_main_v66 (F := F) x1)

def val_main_v68 (x0 : (⟨S8192, .i32⟩ : BufTy).Contents (Elt F)) (x1 : (⟨S2x65536, .i32⟩ : BufTy).Contents (Elt F)) : (⟨S73728x1, .i32⟩ : BufTy).Contents (Elt F) :=
  broadcastInDim S73728x1 ![0] bcast_S73728_S73728x1_0 (val_main_v60 (F := F) x0 x1)

def val_main_v69 (x2 : (⟨S65536x2, .f32⟩ : BufTy).Contents (Elt F)) : (⟨S73728x1, .i32⟩ : BufTy).Contents (Elt F) :=
  broadcastInDim S73728x1 ![0] bcast_S73728_S73728x1_0 (val_main_v30 (F := F) x2)

def val_main_v70 (x0 : (⟨S8192, .i32⟩ : BufTy).Contents (Elt F)) (x1 : (⟨S2x65536, .i32⟩ : BufTy).Contents (Elt F)) : (⟨S73728x1, .i32⟩ : BufTy).Contents (Elt F) :=
  broadcastInDim S73728x1 ![0] bcast_S73728_S73728x1_0 (val_main_v67 (F := F) x0 x1)

def val_main_v71 (x0 : (⟨S8192, .i32⟩ : BufTy).Contents (Elt F)) (x1 : (⟨S2x65536, .i32⟩ : BufTy).Contents (Elt F)) (x2 : (⟨S65536x2, .f32⟩ : BufTy).Contents (Elt F)) : (⟨S73728x3, .i32⟩ : BufTy).Contents (Elt F) :=
  concatenate S73728x3 1 [⟨S73728x1, (val_main_v68 (F := F) x0 x1)⟩, ⟨S73728x1, (val_main_v69 (F := F) x2)⟩, ⟨S73728x1, (val_main_v70 (F := F) x0 x1)⟩] concatenates_S73728x1_S73728x1_S73728x1_S73728x3_d1

def val_main_v72 (x3 : (⟨S8x64, .i32⟩ : BufTy).Contents (Elt F)) : (⟨S8x64x1, .i32⟩ : BufTy).Contents (Elt F) :=
  broadcastInDim S8x64x1 ![0, 1] bcast_S8x64_S8x64x1_0_1 (x3)

def val_main_v73 (x0 : (⟨S8192, .i32⟩ : BufTy).Contents (Elt F)) (x1 : (⟨S2x65536, .i32⟩ : BufTy).Contents (Elt F)) : (⟨S1x1x73728, .i32⟩ : BufTy).Contents (Elt F) :=
  broadcastInDim S1x1x73728 ![2] bcast_S73728_S1x1x73728_2 (val_main_v60 (F := F) x0 x1)

def val_main_v74 (x3 : (⟨S8x64, .i32⟩ : BufTy).Contents (Elt F)) : (⟨S8x64x73728, .i32⟩ : BufTy).Contents (Elt F) :=
  broadcastInDim S8x64x73728 ![0, 1, 2] bcast_S8x64x1_S8x64x73728_0_1_2 (val_main_v72 (F := F) x3)

def val_main_v75 (x0 : (⟨S8192, .i32⟩ : BufTy).Contents (Elt F)) (x1 : (⟨S2x65536, .i32⟩ : BufTy).Contents (Elt F)) : (⟨S8x64x73728, .i32⟩ : BufTy).Contents (Elt F) :=
  broadcastInDim S8x64x73728 ![0, 1, 2] bcast_S1x1x73728_S8x64x73728_0_1_2 (val_main_v73 (F := F) x0 x1)

def val_main_v76 (x0 : (⟨S8192, .i32⟩ : BufTy).Contents (Elt F)) (x1 : (⟨S2x65536, .i32⟩ : BufTy).Contents (Elt F)) (x3 : (⟨S8x64, .i32⟩ : BufTy).Contents (Elt F)) : (⟨S8x64x73728, .i1⟩ : BufTy).Contents (Elt F) :=
  cmpi .eq (val_main_v74 (F := F) x3) (val_main_v75 (F := F) x0 x1)

def val_main_c_12 : (⟨S_, .i1⟩ : BufTy).Contents (Elt F) :=
  constantI S_ 1 0#1

def val_main_v77 (x0 : (⟨S8192, .i32⟩ : BufTy).Contents (Elt F)) (x1 : (⟨S2x65536, .i32⟩ : BufTy).Contents (Elt F)) (x3 : (⟨S8x64, .i32⟩ : BufTy).Contents (Elt F)) : (⟨S8x73728, .i1⟩ : BufTy).Contents (Elt F) :=
  Host.reduce IntOp.ori (val_main_v76 (F := F) x0 x1 x3) (val_main_c_12 (F := F)) reducesTo_S8x64x73728_S8x73728_d1 h_S_

def val_main_v78 (x3 : (⟨S8x64, .i32⟩ : BufTy).Contents (Elt F)) : (⟨S8x64x1, .i32⟩ : BufTy).Contents (Elt F) :=
  broadcastInDim S8x64x1 ![0, 1] bcast_S8x64_S8x64x1_0_1 (x3)

def val_main_v79 (x0 : (⟨S8192, .i32⟩ : BufTy).Contents (Elt F)) (x1 : (⟨S2x65536, .i32⟩ : BufTy).Contents (Elt F)) : (⟨S1x1x73728, .i32⟩ : BufTy).Contents (Elt F) :=
  broadcastInDim S1x1x73728 ![2] bcast_S73728_S1x1x73728_2 (val_main_v67 (F := F) x0 x1)

def val_main_v80 (x3 : (⟨S8x64, .i32⟩ : BufTy).Contents (Elt F)) : (⟨S8x64x73728, .i32⟩ : BufTy).Contents (Elt F) :=
  broadcastInDim S8x64x73728 ![0, 1, 2] bcast_S8x64x1_S8x64x73728_0_1_2 (val_main_v78 (F := F) x3)

def val_main_v81 (x0 : (⟨S8192, .i32⟩ : BufTy).Contents (Elt F)) (x1 : (⟨S2x65536, .i32⟩ : BufTy).Contents (Elt F)) : (⟨S8x64x73728, .i32⟩ : BufTy).Contents (Elt F) :=
  broadcastInDim S8x64x73728 ![0, 1, 2] bcast_S1x1x73728_S8x64x73728_0_1_2 (val_main_v79 (F := F) x0 x1)

def val_main_v82 (x0 : (⟨S8192, .i32⟩ : BufTy).Contents (Elt F)) (x1 : (⟨S2x65536, .i32⟩ : BufTy).Contents (Elt F)) (x3 : (⟨S8x64, .i32⟩ : BufTy).Contents (Elt F)) : (⟨S8x64x73728, .i1⟩ : BufTy).Contents (Elt F) :=
  cmpi .eq (val_main_v80 (F := F) x3) (val_main_v81 (F := F) x0 x1)

def val_main_c_13 : (⟨S_, .i1⟩ : BufTy).Contents (Elt F) :=
  constantI S_ 1 0#1

def val_main_v83 (x0 : (⟨S8192, .i32⟩ : BufTy).Contents (Elt F)) (x1 : (⟨S2x65536, .i32⟩ : BufTy).Contents (Elt F)) (x3 : (⟨S8x64, .i32⟩ : BufTy).Contents (Elt F)) : (⟨S8x73728, .i1⟩ : BufTy).Contents (Elt F) :=
  Host.reduce IntOp.ori (val_main_v82 (F := F) x0 x1 x3) (val_main_c_13 (F := F)) reducesTo_S8x64x73728_S8x73728_d1 h_S_

def val_main_v84 (x0 : (⟨S8192, .i32⟩ : BufTy).Contents (Elt F)) (x1 : (⟨S2x65536, .i32⟩ : BufTy).Contents (Elt F)) (x3 : (⟨S8x64, .i32⟩ : BufTy).Contents (Elt F)) : (⟨S8x73728, .i1⟩ : BufTy).Contents (Elt F) :=
  ori (val_main_v77 (F := F) x0 x1 x3) (val_main_v83 (F := F) x0 x1 x3)

end Cert.ReferenceIdeal.Stages

end
-- ==== Proof.LibHostThree.lean ====
/-
  A host operation with three operands given as a literal family (a three-way concatenate): its result read with each
  operand's contents at that operand's own reference, so that reading the line of operations can go on through it.
  (The library states the four-operand case; this is the same statement for three.)
-/
import Idealize.ShloMosaic.Lib.StableHlo.Run

noncomputable section

namespace Idealize.ShloMosaic.HostThree

open Idealize.ShloMosaic Idealize.ShloMosaic.StableHlo

variable {τ : Topo} {sig : RefSig} {Val : EltTy → Type}
variable {x a b y : Ref sig .tc}

/-- The result of a three-operand operation at its own reference: its function of the three operands' contents, each
    taken at its reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, so that it rewrites in one pass over a whole line. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Two lines of host operations run one after the other. -/
theorem after_two_lines (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, after_cons, ih]

/-- Reading a line of host operations at a reference in one pass, three-operand operations included. -/
macro "host_line_results" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Idealize.ShloMosaic.HostThree

end
-- ==== Proof.ReferenceRun.lean ====
/-
  The reference program's run, read stage by stage. @main is a straight line of one hundred host operations; cut at its
  two three-way concatenations it is three stretches, and what each stretch leaves in the buffers the next one reads is
  the corresponding stage of the arguments. Every weakly fair execution terminates with the three results at their
  stages of the launch arguments and the arguments unchanged.
-/
import proofs.«164025_j25692494364677_2_alg».proof.Proof.ReferenceStages
import proofs.«164025_j25692494364677_2_alg».proof.Proof.LibHostThree
import Idealize.ShloMosaic.Lib.StableHlo.Run

set_option maxRecDepth 16384

noncomputable section

namespace Cert.ReferenceIdeal.StagedRun

open Cert.ReferenceIdeal Cert.ReferenceIdeal.Gen Idealize.ShloMosaic Idealize.ShloMosaic.TcCoe Idealize.SL.Sem Idealize.ShloMosaic.StableHlo
open Idealize.ShloMosaic.HostThree Cert.ReferenceIdeal.Stages

variable {F : FTy → Type} [FloatOps F]

/-- @main's operations, in order. -/
abbrev ops : List (HloOp τ sig (Elt F)) :=
  [
    nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg0 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 100000#32),
    unary main_c_0 main_v2 (broadcastInDim S8192 ![] bcast_S_S8192 : (⟨S_, .i32⟩ : BufTy).Contents (Elt F) → (⟨S8192, .i32⟩ : BufTy).Contents (Elt F)),
    binary main_arg0 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg0 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg4 main_v5 main_v6 ((fun x i => Host.gather gather_S100000x768_S8192x1_S8192x768_1_0_n_n_0_1_1768 x i) : (⟨S100000x768, .f32⟩ : BufTy).Contents (Elt F) → (⟨S8192x1, .i32⟩ : BufTy).Contents (Elt F) → (⟨S8192x768, .f32⟩ : BufTy).Contents (Elt F)),
    unary main_arg2 main_v7 ((extractStridedSlice S65536x1 ![0, 0] · slices_S65536x2_S65536x1_0_0) : (⟨S65536x2, .f32⟩ : BufTy).Contents (Elt F) → (⟨S65536x1, .f32⟩ : BufTy).Contents (Elt F)),
    reshape main_v7 main_v8 rfl shapeCasts_S65536x1_S65536,
    unary main_v8 main_v9 (fptosi 32 : (⟨S65536, .f32⟩ : BufTy).Contents (Elt F) → (⟨S65536, .i32⟩ : BufTy).Contents (Elt F)),
    unary main_arg2 main_v10 ((extractStridedSlice S65536x1 ![0, 1] · slices_S65536x2_S65536x1_0_1) : (⟨S65536x2, .f32⟩ : BufTy).Contents (Elt F) → (⟨S65536x1, .f32⟩ : BufTy).Contents (Elt F)),
    reshape main_v10 main_v11 rfl shapeCasts_S65536x1_S65536,
    unary main_v11 main_v12 (broadcastInDim S65536x1 ![0] bcast_S65536_S65536x1_0 : (⟨S65536, .f32⟩ : BufTy).Contents (Elt F) → (⟨S65536x1, .f32⟩ : BufTy).Contents (Elt F)),
    nullary main_c_1 (constantI S_ 32 0#32),
    unary main_c_1 main_v13 (broadcastInDim S65536 ![] bcast_S_S65536 : (⟨S_, .i32⟩ : BufTy).Contents (Elt F) → (⟨S65536, .i32⟩ : BufTy).Contents (Elt F)),
    binary main_v9 main_v13 main_v14 (cmpi .slt : (⟨S65536, .i32⟩ : BufTy).Contents (Elt F) → (⟨S65536, .i32⟩ : BufTy).Contents (Elt F) → (⟨S65536, .i1⟩ : BufTy).Contents (Elt F)),
    nullary main_c_2 (constantI S_ 32 38#32),
    unary main_c_2 main_v15 (broadcastInDim S65536 ![] bcast_S_S65536 : (⟨S_, .i32⟩ : BufTy).Contents (Elt F) → (⟨S65536, .i32⟩ : BufTy).Contents (Elt F)),
    binary main_v9 main_v15 main_v16 (addi : (⟨S65536, .i32⟩ : BufTy).Contents (Elt F) → (⟨S65536, .i32⟩ : BufTy).Contents (Elt F) → (⟨S65536, .i32⟩ : BufTy).Contents (Elt F)),
    ternary main_v14 main_v16 main_v9 main_v17 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v17 main_v18 (broadcastInDim S65536x1 ![0] bcast_S65536_S65536x1_0 : (⟨S65536, .i32⟩ : BufTy).Contents (Elt F) → (⟨S65536x1, .i32⟩ : BufTy).Contents (Elt F)),
    binary main_arg5 main_v18 main_v19 ((fun x i => Host.gather gather_S38x768_S65536x1_S65536x768_1_0_n_n_0_1_1768 x i) : (⟨S38x768, .f32⟩ : BufTy).Contents (Elt F) → (⟨S65536x1, .i32⟩ : BufTy).Contents (Elt F) → (⟨S65536x768, .f32⟩ : BufTy).Contents (Elt F)),
    unary main_v12 main_v20 (broadcastInDim S65536x768 ![0, 1] bcast_S65536x1_S65536x768_0_1 : (⟨S65536x1, .f32⟩ : BufTy).Contents (Elt F) → (⟨S65536x768, .f32⟩ : BufTy).Contents (Elt F)),
    binary main_v20 main_v19 main_v21 (mulf : (⟨S65536x768, .f32⟩ : BufTy).Contents (Elt F) → (⟨S65536x768, .f32⟩ : BufTy).Contents (Elt F) → (⟨S65536x768, .f32⟩ : BufTy).Contents (Elt F)),
    nullary main_v22 (iotaInDim S8192 32 0),
    unary main_v22 main_v23 (broadcastInDim S1x8192 ![1] bcast_S8192_S1x8192_1 : (⟨S8192, .i32⟩ : BufTy).Contents (Elt F) → (⟨S1x8192, .i32⟩ : BufTy).Contents (Elt F)),
    unary main_v22 main_v24 (broadcastInDim S1x8192 ![1] bcast_S8192_S1x8192_1 : (⟨S8192, .i32⟩ : BufTy).Contents (Elt F) → (⟨S1x8192, .i32⟩ : BufTy).Contents (Elt F)),
    binary main_v23 main_v24 main_v25 ((fun a b => concatenate S2x8192 0 [⟨S1x8192, a⟩, ⟨S1x8192, b⟩] concatenates_S1x8192_S1x8192_S2x8192_d0) : (⟨S1x8192, .i32⟩ : BufTy).Contents (Elt F) → (⟨S1x8192, .i32⟩ : BufTy).Contents (Elt F) → (⟨S2x8192, .i32⟩ : BufTy).Contents (Elt F)),
    binary main_arg1 main_v25 main_v26 ((fun a b => concatenate S2x73728 1 [⟨S2x65536, a⟩, ⟨S2x8192, b⟩] concatenates_S2x65536_S2x8192_S2x73728_d1) : (⟨S2x65536, .i32⟩ : BufTy).Contents (Elt F) → (⟨S2x8192, .i32⟩ : BufTy).Contents (Elt F) → (⟨S2x73728, .i32⟩ : BufTy).Contents (Elt F)),
    unary main_arg6 main_v27 (broadcastInDim S8192x768 ![1] bcast_S768_S8192x768_1 : (⟨S768, .f32⟩ : BufTy).Contents (Elt F) → (⟨S8192x768, .f32⟩ : BufTy).Contents (Elt F)),
    binary main_v21 main_v27 main_v28 ((fun a b => concatenate S73728x768 0 [⟨S65536x768, a⟩, ⟨S8192x768, b⟩] concatenates_S65536x768_S8192x768_S73728x768_d0) : (⟨S65536x768, .f32⟩ : BufTy).Contents (Elt F) → (⟨S8192x768, .f32⟩ : BufTy).Contents (Elt F) → (⟨S73728x768, .f32⟩ : BufTy).Contents (Elt F)),
    nullary main_c_3 (constantI S_ 32 38#32),
    unary main_c_3 main_v29 (broadcastInDim S8192 ![] bcast_S_S8192 : (⟨S_, .i32⟩ : BufTy).Contents (Elt F) → (⟨S8192, .i32⟩ : BufTy).Contents (Elt F)),
    binary main_v9 main_v29 main_v30 ((fun a b => concatenate S73728 0 [⟨S65536, a⟩, ⟨S8192, b⟩] concatenates_S65536_S8192_S73728_d0) : (⟨S65536, .i32⟩ : BufTy).Contents (Elt F) → (⟨S8192, .i32⟩ : BufTy).Contents (Elt F) → (⟨S73728, .i32⟩ : BufTy).Contents (Elt F)),
    unary main_v26 main_v31 ((extractStridedSlice S1x73728 ![0, 0] · slices_S2x73728_S1x73728_0_0) : (⟨S2x73728, .i32⟩ : BufTy).Contents (Elt F) → (⟨S1x73728, .i32⟩ : BufTy).Contents (Elt F)),
    reshape main_v31 main_v32 rfl shapeCasts_S1x73728_S73728,
    unary main_v26 main_v33 ((extractStridedSlice S1x73728 ![1, 0] · slices_S2x73728_S1x73728_1_0) : (⟨S2x73728, .i32⟩ : BufTy).Contents (Elt F) → (⟨S1x73728, .i32⟩ : BufTy).Contents (Elt F)),
    reshape main_v33 main_v34 rfl shapeCasts_S1x73728_S73728,
    nullary main_c_4 (constantI S_ 32 0#32),
    unary main_c_4 main_v35 (broadcastInDim S73728 ![] bcast_S_S73728 : (⟨S_, .i32⟩ : BufTy).Contents (Elt F) → (⟨S73728, .i32⟩ : BufTy).Contents (Elt F)),
    binary main_v32 main_v35 main_v36 (cmpi .slt : (⟨S73728, .i32⟩ : BufTy).Contents (Elt F) → (⟨S73728, .i32⟩ : BufTy).Contents (Elt F) → (⟨S73728, .i1⟩ : BufTy).Contents (Elt F)),
    nullary main_c_5 (constantI S_ 32 8192#32),
    unary main_c_5 main_v37 (broadcastInDim S73728 ![] bcast_S_S73728 : (⟨S_, .i32⟩ : BufTy).Contents (Elt F) → (⟨S73728, .i32⟩ : BufTy).Contents (Elt F)),
    binary main_v32 main_v37 main_v38 (addi : (⟨S73728, .i32⟩ : BufTy).Contents (Elt F) → (⟨S73728, .i32⟩ : BufTy).Contents (Elt F) → (⟨S73728, .i32⟩ : BufTy).Contents (Elt F)),
    ternary main_v36 main_v38 main_v32 main_v39 (select : (⟨S73728, .i1⟩ : BufTy).Contents (Elt F) → (⟨S73728, .i32⟩ : BufTy).Contents (Elt F) → (⟨S73728, .i32⟩ : BufTy).Contents (Elt F) → (⟨S73728, .i32⟩ : BufTy).Contents (Elt F)),
    unary main_v39 main_v40 (broadcastInDim S73728x1 ![0] bcast_S73728_S73728x1_0 : (⟨S73728, .i32⟩ : BufTy).Contents (Elt F) → (⟨S73728x1, .i32⟩ : BufTy).Contents (Elt F)),
    binary main_v6 main_v40 main_v41 ((fun x i => Host.gather gather_S8192x768_S73728x1_S73728x768_1_0_n_n_0_1_1768 x i) : (⟨S8192x768, .f32⟩ : BufTy).Contents (Elt F) → (⟨S73728x1, .i32⟩ : BufTy).Contents (Elt F) → (⟨S73728x768, .f32⟩ : BufTy).Contents (Elt F)),
    nullary main_c_6 (constantI S_ 32 0#32),
    unary main_c_6 main_v42 (broadcastInDim S73728 ![] bcast_S_S73728 : (⟨S_, .i32⟩ : BufTy).Contents (Elt F) → (⟨S73728, .i32⟩ : BufTy).Contents (Elt F)),
    binary main_v34 main_v42 main_v43 (cmpi .slt : (⟨S73728, .i32⟩ : BufTy).Contents (Elt F) → (⟨S73728, .i32⟩ : BufTy).Contents (Elt F) → (⟨S73728, .i1⟩ : BufTy).Contents (Elt F)),
    nullary main_c_7 (constantI S_ 32 8192#32),
    unary main_c_7 main_v44 (broadcastInDim S73728 ![] bcast_S_S73728 : (⟨S_, .i32⟩ : BufTy).Contents (Elt F) → (⟨S73728, .i32⟩ : BufTy).Contents (Elt F)),
    binary main_v34 main_v44 main_v45 (addi : (⟨S73728, .i32⟩ : BufTy).Contents (Elt F) → (⟨S73728, .i32⟩ : BufTy).Contents (Elt F) → (⟨S73728, .i32⟩ : BufTy).Contents (Elt F)),
    ternary main_v43 main_v45 main_v34 main_v46 (select : (⟨S73728, .i1⟩ : BufTy).Contents (Elt F) → (⟨S73728, .i32⟩ : BufTy).Contents (Elt F) → (⟨S73728, .i32⟩ : BufTy).Contents (Elt F) → (⟨S73728, .i32⟩ : BufTy).Contents (Elt F)),
    unary main_v46 main_v47 (broadcastInDim S73728x1 ![0] bcast_S73728_S73728x1_0 : (⟨S73728, .i32⟩ : BufTy).Contents (Elt F) → (⟨S73728x1, .i32⟩ : BufTy).Contents (Elt F)),
    binary main_v6 main_v47 main_v48 ((fun x i => Host.gather gather_S8192x768_S73728x1_S73728x768_1_0_n_n_0_1_1768 x i) : (⟨S8192x768, .f32⟩ : BufTy).Contents (Elt F) → (⟨S73728x1, .i32⟩ : BufTy).Contents (Elt F) → (⟨S73728x768, .f32⟩ : BufTy).Contents (Elt F)),
    nary ![main_v41, main_v28, main_v48] main_v49 (fun u => concatenate S73728x2304 1 [⟨S73728x768, u 0⟩, ⟨S73728x768, u 1⟩, ⟨S73728x768, u 2⟩] concatenates_S73728x768_S73728x768_S73728x768_S73728x2304_d1),
    binary main_v49 main_arg7 main_v50 ((fun l r => Host.dotGeneral dot_S73728x2304_S2304x768_S73728x768_1_0_0_1_n_n none l r) : (⟨S73728x2304, .f32⟩ : BufTy).Contents (Elt F) → (⟨S2304x768, .f32⟩ : BufTy).Contents (Elt F) → (⟨S73728x768, .f32⟩ : BufTy).Contents (Elt F)),
    unary main_arg8 main_v51 (broadcastInDim S1x768 ![1] bcast_S768_S1x768_1 : (⟨S768, .f32⟩ : BufTy).Contents (Elt F) → (⟨S1x768, .f32⟩ : BufTy).Contents (Elt F)),
    unary main_v51 main_v52 (broadcastInDim S73728x768 ![0, 1] bcast_S1x768_S73728x768_0_1 : (⟨S1x768, .f32⟩ : BufTy).Contents (Elt F) → (⟨S73728x768, .f32⟩ : BufTy).Contents (Elt F)),
    binary main_v50 main_v52 main_v53 (addf : (⟨S73728x768, .f32⟩ : BufTy).Contents (Elt F) → (⟨S73728x768, .f32⟩ : BufTy).Contents (Elt F) → (⟨S73728x768, .f32⟩ : BufTy).Contents (Elt F)),
    nullary main_c_8 (constantI S_ 32 0#32),
    unary main_c_8 main_v54 (broadcastInDim S73728 ![] bcast_S_S73728 : (⟨S_, .i32⟩ : BufTy).Contents (Elt F) → (⟨S73728, .i32⟩ : BufTy).Contents (Elt F)),
    binary main_v32 main_v54 main_v55 (cmpi .slt : (⟨S73728, .i32⟩ : BufTy).Contents (Elt F) → (⟨S73728, .i32⟩ : BufTy).Contents (Elt F) → (⟨S73728, .i1⟩ : BufTy).Contents (Elt F)),
    nullary main_c_9 (constantI S_ 32 8192#32),
    unary main_c_9 main_v56 (broadcastInDim S73728 ![] bcast_S_S73728 : (⟨S_, .i32⟩ : BufTy).Contents (Elt F) → (⟨S73728, .i32⟩ : BufTy).Contents (Elt F)),
    binary main_v32 main_v56 main_v57 (addi : (⟨S73728, .i32⟩ : BufTy).Contents (Elt F) → (⟨S73728, .i32⟩ : BufTy).Contents (Elt F) → (⟨S73728, .i32⟩ : BufTy).Contents (Elt F)),
    ternary main_v55 main_v57 main_v32 main_v58 (select : (⟨S73728, .i1⟩ : BufTy).Contents (Elt F) → (⟨S73728, .i32⟩ : BufTy).Contents (Elt F) → (⟨S73728, .i32⟩ : BufTy).Contents (Elt F) → (⟨S73728, .i32⟩ : BufTy).Contents (Elt F)),
    unary main_v58 main_v59 (broadcastInDim S73728x1 ![0] bcast_S73728_S73728x1_0 : (⟨S73728, .i32⟩ : BufTy).Contents (Elt F) → (⟨S73728x1, .i32⟩ : BufTy).Contents (Elt F)),
    binary main_arg0 main_v59 main_v60 ((fun x i => Host.gather gather_S8192_S73728x1_S73728_n_0_n_n_0_1_1 x i) : (⟨S8192, .i32⟩ : BufTy).Contents (Elt F) → (⟨S73728x1, .i32⟩ : BufTy).Contents (Elt F) → (⟨S73728, .i32⟩ : BufTy).Contents (Elt F)),
    nullary main_c_10 (constantI S_ 32 0#32),
    unary main_c_10 main_v61 (broadcastInDim S73728 ![] bcast_S_S73728 : (⟨S_, .i32⟩ : BufTy).Contents (Elt F) → (⟨S73728, .i32⟩ : BufTy).Contents (Elt F)),
    binary main_v34 main_v61 main_v62 (cmpi .slt : (⟨S73728, .i32⟩ : BufTy).Contents (Elt F) → (⟨S73728, .i32⟩ : BufTy).Contents (Elt F) → (⟨S73728, .i1⟩ : BufTy).Contents (Elt F)),
    nullary main_c_11 (constantI S_ 32 8192#32),
    unary main_c_11 main_v63 (broadcastInDim S73728 ![] bcast_S_S73728 : (⟨S_, .i32⟩ : BufTy).Contents (Elt F) → (⟨S73728, .i32⟩ : BufTy).Contents (Elt F)),
    binary main_v34 main_v63 main_v64 (addi : (⟨S73728, .i32⟩ : BufTy).Contents (Elt F) → (⟨S73728, .i32⟩ : BufTy).Contents (Elt F) → (⟨S73728, .i32⟩ : BufTy).Contents (Elt F)),
    ternary main_v62 main_v64 main_v34 main_v65 (select : (⟨S73728, .i1⟩ : BufTy).Contents (Elt F) → (⟨S73728, .i32⟩ : BufTy).Contents (Elt F) → (⟨S73728, .i32⟩ : BufTy).Contents (Elt F) → (⟨S73728, .i32⟩ : BufTy).Contents (Elt F)),
    unary main_v65 main_v66 (broadcastInDim S73728x1 ![0] bcast_S73728_S73728x1_0 : (⟨S73728, .i32⟩ : BufTy).Contents (Elt F) → (⟨S73728x1, .i32⟩ : BufTy).Contents (Elt F)),
    binary main_arg0 main_v66 main_v67 ((fun x i => Host.gather gather_S8192_S73728x1_S73728_n_0_n_n_0_1_1 x i) : (⟨S8192, .i32⟩ : BufTy).Contents (Elt F) → (⟨S73728x1, .i32⟩ : BufTy).Contents (Elt F) → (⟨S73728, .i32⟩ : BufTy).Contents (Elt F)),
    unary main_v60 main_v68 (broadcastInDim S73728x1 ![0] bcast_S73728_S73728x1_0 : (⟨S73728, .i32⟩ : BufTy).Contents (Elt F) → (⟨S73728x1, .i32⟩ : BufTy).Contents (Elt F)),
    unary main_v30 main_v69 (broadcastInDim S73728x1 ![0] bcast_S73728_S73728x1_0 : (⟨S73728, .i32⟩ : BufTy).Contents (Elt F) → (⟨S73728x1, .i32⟩ : BufTy).Contents (Elt F)),
    unary main_v67 main_v70 (broadcastInDim S73728x1 ![0] bcast_S73728_S73728x1_0 : (⟨S73728, .i32⟩ : BufTy).Contents (Elt F) → (⟨S73728x1, .i32⟩ : BufTy).Contents (Elt F)),
    nary ![main_v68, main_v69, main_v70] main_v71 (fun u => concatenate S73728x3 1 [⟨S73728x1, u 0⟩, ⟨S73728x1, u 1⟩, ⟨S73728x1, u 2⟩] concatenates_S73728x1_S73728x1_S73728x1_S73728x3_d1),
    unary main_arg3 main_v72 (broadcastInDim S8x64x1 ![0, 1] bcast_S8x64_S8x64x1_0_1 : (⟨S8x64, .i32⟩ : BufTy).Contents (Elt F) → (⟨S8x64x1, .i32⟩ : BufTy).Contents (Elt F)),
    unary main_v60 main_v73 (broadcastInDim S1x1x73728 ![2] bcast_S73728_S1x1x73728_2 : (⟨S73728, .i32⟩ : BufTy).Contents (Elt F) → (⟨S1x1x73728, .i32⟩ : BufTy).Contents (Elt F)),
    unary main_v72 main_v74 (broadcastInDim S8x64x73728 ![0, 1, 2] bcast_S8x64x1_S8x64x73728_0_1_2 : (⟨S8x64x1, .i32⟩ : BufTy).Contents (Elt F) → (⟨S8x64x73728, .i32⟩ : BufTy).Contents (Elt F)),
    unary main_v73 main_v75 (broadcastInDim S8x64x73728 ![0, 1, 2] bcast_S1x1x73728_S8x64x73728_0_1_2 : (⟨S1x1x73728, .i32⟩ : BufTy).Contents (Elt F) → (⟨S8x64x73728, .i32⟩ : BufTy).Contents (Elt F)),
    binary main_v74 main_v75 main_v76 (cmpi .eq : (⟨S8x64x73728, .i32⟩ : BufTy).Contents (Elt F) → (⟨S8x64x73728, .i32⟩ : BufTy).Contents (Elt F) → (⟨S8x64x73728, .i1⟩ : BufTy).Contents (Elt F)),
    nullary main_c_12 (constantI S_ 1 0#1),
    binary main_v76 main_c_12 main_v77 ((fun x v => Host.reduce IntOp.ori x v reducesTo_S8x64x73728_S8x73728_d1 h_S_) : (⟨S8x64x73728, .i1⟩ : BufTy).Contents (Elt F) → (⟨S_, .i1⟩ : BufTy).Contents (Elt F) → (⟨S8x73728, .i1⟩ : BufTy).Contents (Elt F)),
    unary main_arg3 main_v78 (broadcastInDim S8x64x1 ![0, 1] bcast_S8x64_S8x64x1_0_1 : (⟨S8x64, .i32⟩ : BufTy).Contents (Elt F) → (⟨S8x64x1, .i32⟩ : BufTy).Contents (Elt F)),
    unary main_v67 main_v79 (broadcastInDim S1x1x73728 ![2] bcast_S73728_S1x1x73728_2 : (⟨S73728, .i32⟩ : BufTy).Contents (Elt F) → (⟨S1x1x73728, .i32⟩ : BufTy).Contents (Elt F)),
    unary main_v78 main_v80 (broadcastInDim S8x64x73728 ![0, 1, 2] bcast_S8x64x1_S8x64x73728_0_1_2 : (⟨S8x64x1, .i32⟩ : BufTy).Contents (Elt F) → (⟨S8x64x73728, .i32⟩ : BufTy).Contents (Elt F)),
    unary main_v79 main_v81 (broadcastInDim S8x64x73728 ![0, 1, 2] bcast_S1x1x73728_S8x64x73728_0_1_2 : (⟨S1x1x73728, .i32⟩ : BufTy).Contents (Elt F) → (⟨S8x64x73728, .i32⟩ : BufTy).Contents (Elt F)),
    binary main_v80 main_v81 main_v82 (cmpi .eq : (⟨S8x64x73728, .i32⟩ : BufTy).Contents (Elt F) → (⟨S8x64x73728, .i32⟩ : BufTy).Contents (Elt F) → (⟨S8x64x73728, .i1⟩ : BufTy).Contents (Elt F)),
    nullary main_c_13 (constantI S_ 1 0#1),
    binary main_v82 main_c_13 main_v83 ((fun x v => Host.reduce IntOp.ori x v reducesTo_S8x64x73728_S8x73728_d1 h_S_) : (⟨S8x64x73728, .i1⟩ : BufTy).Contents (Elt F) → (⟨S_, .i1⟩ : BufTy).Contents (Elt F) → (⟨S8x73728, .i1⟩ : BufTy).Contents (Elt F)),
    binary main_v77 main_v83 main_v84 (ori : (⟨S8x73728, .i1⟩ : BufTy).Contents (Elt F) → (⟨S8x73728, .i1⟩ : BufTy).Contents (Elt F) → (⟨S8x73728, .i1⟩ : BufTy).Contents (Elt F)) ]
set_option maxHeartbeats 40000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., binary_bufs_sub .., binary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., nary_bufs_sub .., unary_bufs_sub .., unary_bufs_sub .., unary_bufs_sub .., unary_bufs_sub .., binary_bufs_sub .., nullary_bufs_sub .., binary_bufs_sub .., unary_bufs_sub .., unary_bufs_sub .., unary_bufs_sub .., unary_bufs_sub .., binary_bufs_sub .., nullary_bufs_sub .., binary_bufs_sub .., binary_bufs_sub ..⟩

/-- Up to the three operands of the projection. -/
abbrev lead : List (HloOp τ sig (Elt F)) :=
  [
    nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg0 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 100000#32),
    unary main_c_0 main_v2 (broadcastInDim S8192 ![] bcast_S_S8192 : (⟨S_, .i32⟩ : BufTy).Contents (Elt F) → (⟨S8192, .i32⟩ : BufTy).Contents (Elt F)),
    binary main_arg0 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg0 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg4 main_v5 main_v6 ((fun x i => Host.gather gather_S100000x768_S8192x1_S8192x768_1_0_n_n_0_1_1768 x i) : (⟨S100000x768, .f32⟩ : BufTy).Contents (Elt F) → (⟨S8192x1, .i32⟩ : BufTy).Contents (Elt F) → (⟨S8192x768, .f32⟩ : BufTy).Contents (Elt F)),
    unary main_arg2 main_v7 ((extractStridedSlice S65536x1 ![0, 0] · slices_S65536x2_S65536x1_0_0) : (⟨S65536x2, .f32⟩ : BufTy).Contents (Elt F) → (⟨S65536x1, .f32⟩ : BufTy).Contents (Elt F)),
    reshape main_v7 main_v8 rfl shapeCasts_S65536x1_S65536,
    unary main_v8 main_v9 (fptosi 32 : (⟨S65536, .f32⟩ : BufTy).Contents (Elt F) → (⟨S65536, .i32⟩ : BufTy).Contents (Elt F)),
    unary main_arg2 main_v10 ((extractStridedSlice S65536x1 ![0, 1] · slices_S65536x2_S65536x1_0_1) : (⟨S65536x2, .f32⟩ : BufTy).Contents (Elt F) → (⟨S65536x1, .f32⟩ : BufTy).Contents (Elt F)),
    reshape main_v10 main_v11 rfl shapeCasts_S65536x1_S65536,
    unary main_v11 main_v12 (broadcastInDim S65536x1 ![0] bcast_S65536_S65536x1_0 : (⟨S65536, .f32⟩ : BufTy).Contents (Elt F) → (⟨S65536x1, .f32⟩ : BufTy).Contents (Elt F)),
    nullary main_c_1 (constantI S_ 32 0#32),
    unary main_c_1 main_v13 (broadcastInDim S65536 ![] bcast_S_S65536 : (⟨S_, .i32⟩ : BufTy).Contents (Elt F) → (⟨S65536, .i32⟩ : BufTy).Contents (Elt F)),
    binary main_v9 main_v13 main_v14 (cmpi .slt : (⟨S65536, .i32⟩ : BufTy).Contents (Elt F) → (⟨S65536, .i32⟩ : BufTy).Contents (Elt F) → (⟨S65536, .i1⟩ : BufTy).Contents (Elt F)),
    nullary main_c_2 (constantI S_ 32 38#32),
    unary main_c_2 main_v15 (broadcastInDim S65536 ![] bcast_S_S65536 : (⟨S_, .i32⟩ : BufTy).Contents (Elt F) → (⟨S65536, .i32⟩ : BufTy).Contents (Elt F)),
    binary main_v9 main_v15 main_v16 (addi : (⟨S65536, .i32⟩ : BufTy).Contents (Elt F) → (⟨S65536, .i32⟩ : BufTy).Contents (Elt F) → (⟨S65536, .i32⟩ : BufTy).Contents (Elt F)),
    ternary main_v14 main_v16 main_v9 main_v17 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v17 main_v18 (broadcastInDim S65536x1 ![0] bcast_S65536_S65536x1_0 : (⟨S65536, .i32⟩ : BufTy).Contents (Elt F) → (⟨S65536x1, .i32⟩ : BufTy).Contents (Elt F)),
    binary main_arg5 main_v18 main_v19 ((fun x i => Host.gather gather_S38x768_S65536x1_S65536x768_1_0_n_n_0_1_1768 x i) : (⟨S38x768, .f32⟩ : BufTy).Contents (Elt F) → (⟨S65536x1, .i32⟩ : BufTy).Contents (Elt F) → (⟨S65536x768, .f32⟩ : BufTy).Contents (Elt F)),
    unary main_v12 main_v20 (broadcastInDim S65536x768 ![0, 1] bcast_S65536x1_S65536x768_0_1 : (⟨S65536x1, .f32⟩ : BufTy).Contents (Elt F) → (⟨S65536x768, .f32⟩ : BufTy).Contents (Elt F)),
    binary main_v20 main_v19 main_v21 (mulf : (⟨S65536x768, .f32⟩ : BufTy).Contents (Elt F) → (⟨S65536x768, .f32⟩ : BufTy).Contents (Elt F) → (⟨S65536x768, .f32⟩ : BufTy).Contents (Elt F)),
    nullary main_v22 (iotaInDim S8192 32 0),
    unary main_v22 main_v23 (broadcastInDim S1x8192 ![1] bcast_S8192_S1x8192_1 : (⟨S8192, .i32⟩ : BufTy).Contents (Elt F) → (⟨S1x8192, .i32⟩ : BufTy).Contents (Elt F)),
    unary main_v22 main_v24 (broadcastInDim S1x8192 ![1] bcast_S8192_S1x8192_1 : (⟨S8192, .i32⟩ : BufTy).Contents (Elt F) → (⟨S1x8192, .i32⟩ : BufTy).Contents (Elt F)),
    binary main_v23 main_v24 main_v25 ((fun a b => concatenate S2x8192 0 [⟨S1x8192, a⟩, ⟨S1x8192, b⟩] concatenates_S1x8192_S1x8192_S2x8192_d0) : (⟨S1x8192, .i32⟩ : BufTy).Contents (Elt F) → (⟨S1x8192, .i32⟩ : BufTy).Contents (Elt F) → (⟨S2x8192, .i32⟩ : BufTy).Contents (Elt F)),
    binary main_arg1 main_v25 main_v26 ((fun a b => concatenate S2x73728 1 [⟨S2x65536, a⟩, ⟨S2x8192, b⟩] concatenates_S2x65536_S2x8192_S2x73728_d1) : (⟨S2x65536, .i32⟩ : BufTy).Contents (Elt F) → (⟨S2x8192, .i32⟩ : BufTy).Contents (Elt F) → (⟨S2x73728, .i32⟩ : BufTy).Contents (Elt F)),
    unary main_arg6 main_v27 (broadcastInDim S8192x768 ![1] bcast_S768_S8192x768_1 : (⟨S768, .f32⟩ : BufTy).Contents (Elt F) → (⟨S8192x768, .f32⟩ : BufTy).Contents (Elt F)),
    binary main_v21 main_v27 main_v28 ((fun a b => concatenate S73728x768 0 [⟨S65536x768, a⟩, ⟨S8192x768, b⟩] concatenates_S65536x768_S8192x768_S73728x768_d0) : (⟨S65536x768, .f32⟩ : BufTy).Contents (Elt F) → (⟨S8192x768, .f32⟩ : BufTy).Contents (Elt F) → (⟨S73728x768, .f32⟩ : BufTy).Contents (Elt F)),
    nullary main_c_3 (constantI S_ 32 38#32),
    unary main_c_3 main_v29 (broadcastInDim S8192 ![] bcast_S_S8192 : (⟨S_, .i32⟩ : BufTy).Contents (Elt F) → (⟨S8192, .i32⟩ : BufTy).Contents (Elt F)),
    binary main_v9 main_v29 main_v30 ((fun a b => concatenate S73728 0 [⟨S65536, a⟩, ⟨S8192, b⟩] concatenates_S65536_S8192_S73728_d0) : (⟨S65536, .i32⟩ : BufTy).Contents (Elt F) → (⟨S8192, .i32⟩ : BufTy).Contents (Elt F) → (⟨S73728, .i32⟩ : BufTy).Contents (Elt F)),
    unary main_v26 main_v31 ((extractStridedSlice S1x73728 ![0, 0] · slices_S2x73728_S1x73728_0_0) : (⟨S2x73728, .i32⟩ : BufTy).Contents (Elt F) → (⟨S1x73728, .i32⟩ : BufTy).Contents (Elt F)),
    reshape main_v31 main_v32 rfl shapeCasts_S1x73728_S73728,
    unary main_v26 main_v33 ((extractStridedSlice S1x73728 ![1, 0] · slices_S2x73728_S1x73728_1_0) : (⟨S2x73728, .i32⟩ : BufTy).Contents (Elt F) → (⟨S1x73728, .i32⟩ : BufTy).Contents (Elt F)),
    reshape main_v33 main_v34 rfl shapeCasts_S1x73728_S73728,
    nullary main_c_4 (constantI S_ 32 0#32),
    unary main_c_4 main_v35 (broadcastInDim S73728 ![] bcast_S_S73728 : (⟨S_, .i32⟩ : BufTy).Contents (Elt F) → (⟨S73728, .i32⟩ : BufTy).Contents (Elt F)),
    binary main_v32 main_v35 main_v36 (cmpi .slt : (⟨S73728, .i32⟩ : BufTy).Contents (Elt F) → (⟨S73728, .i32⟩ : BufTy).Contents (Elt F) → (⟨S73728, .i1⟩ : BufTy).Contents (Elt F)),
    nullary main_c_5 (constantI S_ 32 8192#32),
    unary main_c_5 main_v37 (broadcastInDim S73728 ![] bcast_S_S73728 : (⟨S_, .i32⟩ : BufTy).Contents (Elt F) → (⟨S73728, .i32⟩ : BufTy).Contents (Elt F)),
    binary main_v32 main_v37 main_v38 (addi : (⟨S73728, .i32⟩ : BufTy).Contents (Elt F) → (⟨S73728, .i32⟩ : BufTy).Contents (Elt F) → (⟨S73728, .i32⟩ : BufTy).Contents (Elt F)),
    ternary main_v36 main_v38 main_v32 main_v39 (select : (⟨S73728, .i1⟩ : BufTy).Contents (Elt F) → (⟨S73728, .i32⟩ : BufTy).Contents (Elt F) → (⟨S73728, .i32⟩ : BufTy).Contents (Elt F) → (⟨S73728, .i32⟩ : BufTy).Contents (Elt F)),
    unary main_v39 main_v40 (broadcastInDim S73728x1 ![0] bcast_S73728_S73728x1_0 : (⟨S73728, .i32⟩ : BufTy).Contents (Elt F) → (⟨S73728x1, .i32⟩ : BufTy).Contents (Elt F)),
    binary main_v6 main_v40 main_v41 ((fun x i => Host.gather gather_S8192x768_S73728x1_S73728x768_1_0_n_n_0_1_1768 x i) : (⟨S8192x768, .f32⟩ : BufTy).Contents (Elt F) → (⟨S73728x1, .i32⟩ : BufTy).Contents (Elt F) → (⟨S73728x768, .f32⟩ : BufTy).Contents (Elt F)),
    nullary main_c_6 (constantI S_ 32 0#32),
    unary main_c_6 main_v42 (broadcastInDim S73728 ![] bcast_S_S73728 : (⟨S_, .i32⟩ : BufTy).Contents (Elt F) → (⟨S73728, .i32⟩ : BufTy).Contents (Elt F)),
    binary main_v34 main_v42 main_v43 (cmpi .slt : (⟨S73728, .i32⟩ : BufTy).Contents (Elt F) → (⟨S73728, .i32⟩ : BufTy).Contents (Elt F) → (⟨S73728, .i1⟩ : BufTy).Contents (Elt F)),
    nullary main_c_7 (constantI S_ 32 8192#32),
    unary main_c_7 main_v44 (broadcastInDim S73728 ![] bcast_S_S73728 : (⟨S_, .i32⟩ : BufTy).Contents (Elt F) → (⟨S73728, .i32⟩ : BufTy).Contents (Elt F)),
    binary main_v34 main_v44 main_v45 (addi : (⟨S73728, .i32⟩ : BufTy).Contents (Elt F) → (⟨S73728, .i32⟩ : BufTy).Contents (Elt F) → (⟨S73728, .i32⟩ : BufTy).Contents (Elt F)),
    ternary main_v43 main_v45 main_v34 main_v46 (select : (⟨S73728, .i1⟩ : BufTy).Contents (Elt F) → (⟨S73728, .i32⟩ : BufTy).Contents (Elt F) → (⟨S73728, .i32⟩ : BufTy).Contents (Elt F) → (⟨S73728, .i32⟩ : BufTy).Contents (Elt F)),
    unary main_v46 main_v47 (broadcastInDim S73728x1 ![0] bcast_S73728_S73728x1_0 : (⟨S73728, .i32⟩ : BufTy).Contents (Elt F) → (⟨S73728x1, .i32⟩ : BufTy).Contents (Elt F)),
    binary main_v6 main_v47 main_v48 ((fun x i => Host.gather gather_S8192x768_S73728x1_S73728x768_1_0_n_n_0_1_1768 x i) : (⟨S8192x768, .f32⟩ : BufTy).Contents (Elt F) → (⟨S73728x1, .i32⟩ : BufTy).Contents (Elt F) → (⟨S73728x768, .f32⟩ : BufTy).Contents (Elt F)) ]
/-- The operands side by side, the projection, and the id gathers. -/
abbrev middle : List (HloOp τ sig (Elt F)) :=
  [
    nary ![main_v41, main_v28, main_v48] main_v49 (fun u => concatenate S73728x2304 1 [⟨S73728x768, u 0⟩, ⟨S73728x768, u 1⟩, ⟨S73728x768, u 2⟩] concatenates_S73728x768_S73728x768_S73728x768_S73728x2304_d1),
    binary main_v49 main_arg7 main_v50 ((fun l r => Host.dotGeneral dot_S73728x2304_S2304x768_S73728x768_1_0_0_1_n_n none l r) : (⟨S73728x2304, .f32⟩ : BufTy).Contents (Elt F) → (⟨S2304x768, .f32⟩ : BufTy).Contents (Elt F) → (⟨S73728x768, .f32⟩ : BufTy).Contents (Elt F)),
    unary main_arg8 main_v51 (broadcastInDim S1x768 ![1] bcast_S768_S1x768_1 : (⟨S768, .f32⟩ : BufTy).Contents (Elt F) → (⟨S1x768, .f32⟩ : BufTy).Contents (Elt F)),
    unary main_v51 main_v52 (broadcastInDim S73728x768 ![0, 1] bcast_S1x768_S73728x768_0_1 : (⟨S1x768, .f32⟩ : BufTy).Contents (Elt F) → (⟨S73728x768, .f32⟩ : BufTy).Contents (Elt F)),
    binary main_v50 main_v52 main_v53 (addf : (⟨S73728x768, .f32⟩ : BufTy).Contents (Elt F) → (⟨S73728x768, .f32⟩ : BufTy).Contents (Elt F) → (⟨S73728x768, .f32⟩ : BufTy).Contents (Elt F)),
    nullary main_c_8 (constantI S_ 32 0#32),
    unary main_c_8 main_v54 (broadcastInDim S73728 ![] bcast_S_S73728 : (⟨S_, .i32⟩ : BufTy).Contents (Elt F) → (⟨S73728, .i32⟩ : BufTy).Contents (Elt F)),
    binary main_v32 main_v54 main_v55 (cmpi .slt : (⟨S73728, .i32⟩ : BufTy).Contents (Elt F) → (⟨S73728, .i32⟩ : BufTy).Contents (Elt F) → (⟨S73728, .i1⟩ : BufTy).Contents (Elt F)),
    nullary main_c_9 (constantI S_ 32 8192#32),
    unary main_c_9 main_v56 (broadcastInDim S73728 ![] bcast_S_S73728 : (⟨S_, .i32⟩ : BufTy).Contents (Elt F) → (⟨S73728, .i32⟩ : BufTy).Contents (Elt F)),
    binary main_v32 main_v56 main_v57 (addi : (⟨S73728, .i32⟩ : BufTy).Contents (Elt F) → (⟨S73728, .i32⟩ : BufTy).Contents (Elt F) → (⟨S73728, .i32⟩ : BufTy).Contents (Elt F)),
    ternary main_v55 main_v57 main_v32 main_v58 (select : (⟨S73728, .i1⟩ : BufTy).Contents (Elt F) → (⟨S73728, .i32⟩ : BufTy).Contents (Elt F) → (⟨S73728, .i32⟩ : BufTy).Contents (Elt F) → (⟨S73728, .i32⟩ : BufTy).Contents (Elt F)),
    unary main_v58 main_v59 (broadcastInDim S73728x1 ![0] bcast_S73728_S73728x1_0 : (⟨S73728, .i32⟩ : BufTy).Contents (Elt F) → (⟨S73728x1, .i32⟩ : BufTy).Contents (Elt F)),
    binary main_arg0 main_v59 main_v60 ((fun x i => Host.gather gather_S8192_S73728x1_S73728_n_0_n_n_0_1_1 x i) : (⟨S8192, .i32⟩ : BufTy).Contents (Elt F) → (⟨S73728x1, .i32⟩ : BufTy).Contents (Elt F) → (⟨S73728, .i32⟩ : BufTy).Contents (Elt F)),
    nullary main_c_10 (constantI S_ 32 0#32),
    unary main_c_10 main_v61 (broadcastInDim S73728 ![] bcast_S_S73728 : (⟨S_, .i32⟩ : BufTy).Contents (Elt F) → (⟨S73728, .i32⟩ : BufTy).Contents (Elt F)),
    binary main_v34 main_v61 main_v62 (cmpi .slt : (⟨S73728, .i32⟩ : BufTy).Contents (Elt F) → (⟨S73728, .i32⟩ : BufTy).Contents (Elt F) → (⟨S73728, .i1⟩ : BufTy).Contents (Elt F)),
    nullary main_c_11 (constantI S_ 32 8192#32),
    unary main_c_11 main_v63 (broadcastInDim S73728 ![] bcast_S_S73728 : (⟨S_, .i32⟩ : BufTy).Contents (Elt F) → (⟨S73728, .i32⟩ : BufTy).Contents (Elt F)),
    binary main_v34 main_v63 main_v64 (addi : (⟨S73728, .i32⟩ : BufTy).Contents (Elt F) → (⟨S73728, .i32⟩ : BufTy).Contents (Elt F) → (⟨S73728, .i32⟩ : BufTy).Contents (Elt F)),
    ternary main_v62 main_v64 main_v34 main_v65 (select : (⟨S73728, .i1⟩ : BufTy).Contents (Elt F) → (⟨S73728, .i32⟩ : BufTy).Contents (Elt F) → (⟨S73728, .i32⟩ : BufTy).Contents (Elt F) → (⟨S73728, .i32⟩ : BufTy).Contents (Elt F)),
    unary main_v65 main_v66 (broadcastInDim S73728x1 ![0] bcast_S73728_S73728x1_0 : (⟨S73728, .i32⟩ : BufTy).Contents (Elt F) → (⟨S73728x1, .i32⟩ : BufTy).Contents (Elt F)),
    binary main_arg0 main_v66 main_v67 ((fun x i => Host.gather gather_S8192_S73728x1_S73728_n_0_n_n_0_1_1 x i) : (⟨S8192, .i32⟩ : BufTy).Contents (Elt F) → (⟨S73728x1, .i32⟩ : BufTy).Contents (Elt F) → (⟨S73728, .i32⟩ : BufTy).Contents (Elt F)),
    unary main_v60 main_v68 (broadcastInDim S73728x1 ![0] bcast_S73728_S73728x1_0 : (⟨S73728, .i32⟩ : BufTy).Contents (Elt F) → (⟨S73728x1, .i32⟩ : BufTy).Contents (Elt F)),
    unary main_v30 main_v69 (broadcastInDim S73728x1 ![0] bcast_S73728_S73728x1_0 : (⟨S73728, .i32⟩ : BufTy).Contents (Elt F) → (⟨S73728x1, .i32⟩ : BufTy).Contents (Elt F)),
    unary main_v67 main_v70 (broadcastInDim S73728x1 ![0] bcast_S73728_S73728x1_0 : (⟨S73728, .i32⟩ : BufTy).Contents (Elt F) → (⟨S73728x1, .i32⟩ : BufTy).Contents (Elt F)) ]
/-- The id table and the membership mask. -/
abbrev close : List (HloOp τ sig (Elt F)) :=
  [
    nary ![main_v68, main_v69, main_v70] main_v71 (fun u => concatenate S73728x3 1 [⟨S73728x1, u 0⟩, ⟨S73728x1, u 1⟩, ⟨S73728x1, u 2⟩] concatenates_S73728x1_S73728x1_S73728x1_S73728x3_d1),
    unary main_arg3 main_v72 (broadcastInDim S8x64x1 ![0, 1] bcast_S8x64_S8x64x1_0_1 : (⟨S8x64, .i32⟩ : BufTy).Contents (Elt F) → (⟨S8x64x1, .i32⟩ : BufTy).Contents (Elt F)),
    unary main_v60 main_v73 (broadcastInDim S1x1x73728 ![2] bcast_S73728_S1x1x73728_2 : (⟨S73728, .i32⟩ : BufTy).Contents (Elt F) → (⟨S1x1x73728, .i32⟩ : BufTy).Contents (Elt F)),
    unary main_v72 main_v74 (broadcastInDim S8x64x73728 ![0, 1, 2] bcast_S8x64x1_S8x64x73728_0_1_2 : (⟨S8x64x1, .i32⟩ : BufTy).Contents (Elt F) → (⟨S8x64x73728, .i32⟩ : BufTy).Contents (Elt F)),
    unary main_v73 main_v75 (broadcastInDim S8x64x73728 ![0, 1, 2] bcast_S1x1x73728_S8x64x73728_0_1_2 : (⟨S1x1x73728, .i32⟩ : BufTy).Contents (Elt F) → (⟨S8x64x73728, .i32⟩ : BufTy).Contents (Elt F)),
    binary main_v74 main_v75 main_v76 (cmpi .eq : (⟨S8x64x73728, .i32⟩ : BufTy).Contents (Elt F) → (⟨S8x64x73728, .i32⟩ : BufTy).Contents (Elt F) → (⟨S8x64x73728, .i1⟩ : BufTy).Contents (Elt F)),
    nullary main_c_12 (constantI S_ 1 0#1),
    binary main_v76 main_c_12 main_v77 ((fun x v => Host.reduce IntOp.ori x v reducesTo_S8x64x73728_S8x73728_d1 h_S_) : (⟨S8x64x73728, .i1⟩ : BufTy).Contents (Elt F) → (⟨S_, .i1⟩ : BufTy).Contents (Elt F) → (⟨S8x73728, .i1⟩ : BufTy).Contents (Elt F)),
    unary main_arg3 main_v78 (broadcastInDim S8x64x1 ![0, 1] bcast_S8x64_S8x64x1_0_1 : (⟨S8x64, .i32⟩ : BufTy).Contents (Elt F) → (⟨S8x64x1, .i32⟩ : BufTy).Contents (Elt F)),
    unary main_v67 main_v79 (broadcastInDim S1x1x73728 ![2] bcast_S73728_S1x1x73728_2 : (⟨S73728, .i32⟩ : BufTy).Contents (Elt F) → (⟨S1x1x73728, .i32⟩ : BufTy).Contents (Elt F)),
    unary main_v78 main_v80 (broadcastInDim S8x64x73728 ![0, 1, 2] bcast_S8x64x1_S8x64x73728_0_1_2 : (⟨S8x64x1, .i32⟩ : BufTy).Contents (Elt F) → (⟨S8x64x73728, .i32⟩ : BufTy).Contents (Elt F)),
    unary main_v79 main_v81 (broadcastInDim S8x64x73728 ![0, 1, 2] bcast_S1x1x73728_S8x64x73728_0_1_2 : (⟨S1x1x73728, .i32⟩ : BufTy).Contents (Elt F) → (⟨S8x64x73728, .i32⟩ : BufTy).Contents (Elt F)),
    binary main_v80 main_v81 main_v82 (cmpi .eq : (⟨S8x64x73728, .i32⟩ : BufTy).Contents (Elt F) → (⟨S8x64x73728, .i32⟩ : BufTy).Contents (Elt F) → (⟨S8x64x73728, .i1⟩ : BufTy).Contents (Elt F)),
    nullary main_c_13 (constantI S_ 1 0#1),
    binary main_v82 main_c_13 main_v83 ((fun x v => Host.reduce IntOp.ori x v reducesTo_S8x64x73728_S8x73728_d1 h_S_) : (⟨S8x64x73728, .i1⟩ : BufTy).Contents (Elt F) → (⟨S_, .i1⟩ : BufTy).Contents (Elt F) → (⟨S8x73728, .i1⟩ : BufTy).Contents (Elt F)),
    binary main_v77 main_v83 main_v84 (ori : (⟨S8x73728, .i1⟩ : BufTy).Contents (Elt F) → (⟨S8x73728, .i1⟩ : BufTy).Contents (Elt F) → (⟨S8x73728, .i1⟩ : BufTy).Contents (Elt F)) ]
set_option maxHeartbeats 40000000 in
theorem ops_split : (ops : List (HloOp τ sig (Elt F))) = lead ++ middle ++ close := rfl

/-- The buffers @main writes. -/
abbrev written : List (Ref sig .tc) := [main_c, main_v0, main_v1, main_c_0, main_v2, main_v3, main_v4, main_v5, main_v6, main_v7, main_v8, main_v9, main_v10, main_v11, main_v12, main_c_1, main_v13, main_v14, main_c_2, main_v15, main_v16, main_v17, main_v18, main_v19, main_v20, main_v21, main_v22, main_v23, main_v24, main_v25, main_v26, main_v27, main_v28, main_c_3, main_v29, main_v30, main_v31, main_v32, main_v33, main_v34, main_c_4, main_v35, main_v36, main_c_5, main_v37, main_v38, main_v39, main_v40, main_v41, main_c_6, main_v42, main_v43, main_c_7, main_v44, main_v45, main_v46, main_v47, main_v48, main_v49, main_v50, main_v51, main_v52, main_v53, main_c_8, main_v54, main_v55, main_c_9, main_v56, main_v57, main_v58, main_v59, main_v60, main_c_10, main_v61, main_v62, main_c_11, main_v63, main_v64, main_v65, main_v66, main_v67, main_v68, main_v69, main_v70, main_v71, main_v72, main_v73, main_v74, main_v75, main_v76, main_c_12, main_v77, main_v78, main_v79, main_v80, main_v81, main_v82, main_c_13, main_v83, main_v84]
theorem ops_writes : (ops : List (HloOp τ sig (Elt F))).Forall fun op => op.writes ⊆ (written.map (Proc.devRef (τ := τ) .tc)).toFinset := by
  simp only [ops, List.Forall, StableHlo.nullary_writes, StableHlo.unary_writes, StableHlo.binary_writes, StableHlo.ternary_writes,
    StableHlo.reshape_writes, StableHlo.nary_writes, Finset.singleton_subset_iff]
  repeat' apply And.intro
  all_goals exact List.mem_toFinset.mpr (List.mem_map_of_mem (by decide))

section Lead

variable (W : Valuation τ sig (Elt F))

set_option maxHeartbeats 4000000 in
theorem lead_xh : StableHlo.after lead W (Proc.devRef .tc main_v41) = val_main_v41 (F := F) (W (Proc.devRef .tc main_arg0)) (W (Proc.devRef .tc main_arg1)) (W (Proc.devRef .tc main_arg4)) := by
  after_results_simp
  rfl
set_option maxHeartbeats 4000000 in
theorem lead_ea : StableHlo.after lead W (Proc.devRef .tc main_v28) = val_main_v28 (F := F) (W (Proc.devRef .tc main_arg2)) (W (Proc.devRef .tc main_arg5)) (W (Proc.devRef .tc main_arg6)) := by
  after_results_simp
  rfl
set_option maxHeartbeats 4000000 in
theorem lead_xt : StableHlo.after lead W (Proc.devRef .tc main_v48) = val_main_v48 (F := F) (W (Proc.devRef .tc main_arg0)) (W (Proc.devRef .tc main_arg1)) (W (Proc.devRef .tc main_arg4)) := by
  after_results_simp
  rfl
set_option maxHeartbeats 4000000 in
theorem lead_head : StableHlo.after lead W (Proc.devRef .tc main_v32) = val_main_v32 (F := F) (W (Proc.devRef .tc main_arg1)) := by
  after_results_simp
  rfl
set_option maxHeartbeats 4000000 in
theorem lead_tail : StableHlo.after lead W (Proc.devRef .tc main_v34) = val_main_v34 (F := F) (W (Proc.devRef .tc main_arg1)) := by
  after_results_simp
  rfl
set_option maxHeartbeats 4000000 in
theorem lead_rel : StableHlo.after lead W (Proc.devRef .tc main_v30) = val_main_v30 (F := F) (W (Proc.devRef .tc main_arg2)) := by
  after_results_simp
  rfl
/-- No operation writes an argument. -/
theorem lead_arg (b : Ref sig .tc) (hb : b ∉ written) : StableHlo.after lead W (Proc.devRef .tc b) = W (Proc.devRef .tc b) := by
  refine StableHlo.after_of_writes_sub (W := written) lead W ?_ hb
  have h := ops_writes (F := F)
  rw [ops_split, List.forall_iff_forall_mem] at h
  exact List.forall_iff_forall_mem.mpr fun op hop => h op (List.mem_append_left _ (List.mem_append_left _ hop))

end Lead

section Middle

variable (V : Valuation τ sig (Elt F)) (x0 : (⟨S8192, .i32⟩ : BufTy).Contents (Elt F)) (x1 : (⟨S2x65536, .i32⟩ : BufTy).Contents (Elt F)) (x2 : (⟨S65536x2, .f32⟩ : BufTy).Contents (Elt F)) (x3 : (⟨S8x64, .i32⟩ : BufTy).Contents (Elt F)) (x4 : (⟨S100000x768, .f32⟩ : BufTy).Contents (Elt F)) (x5 : (⟨S38x768, .f32⟩ : BufTy).Contents (Elt F)) (x6 : (⟨S768, .f32⟩ : BufTy).Contents (Elt F)) (x7 : (⟨S2304x768, .f32⟩ : BufTy).Contents (Elt F)) (x8 : (⟨S768, .f32⟩ : BufTy).Contents (Elt F))
variable (h0 : V (Proc.devRef .tc main_arg0) = x0) (h7 : V (Proc.devRef .tc main_arg7) = x7) (h8 : V (Proc.devRef .tc main_arg8) = x8)
  (hxh : V (Proc.devRef .tc main_v41) = val_main_v41 (F := F) x0 x1 x4) (hea : V (Proc.devRef .tc main_v28) = val_main_v28 (F := F) x2 x5 x6)
  (hxt : V (Proc.devRef .tc main_v48) = val_main_v48 (F := F) x0 x1 x4)
  (hhd : V (Proc.devRef .tc main_v32) = val_main_v32 (F := F) x1) (htl : V (Proc.devRef .tc main_v34) = val_main_v34 (F := F) x1)
  (hrel : V (Proc.devRef .tc main_v30) = val_main_v30 (F := F) x2)

include h7 h8 hxh hea hxt in
set_option maxHeartbeats 4000000 in
/-- The projection: the three operands side by side against the weights, plus the bias. -/
theorem middle_proj : StableHlo.after middle V (Proc.devRef .tc main_v53) = val_main_v53 (F := F) x0 x1 x2 x4 x5 x6 x7 x8 := by
  host_line_results
  show addf (Host.dotGeneral dot_S73728x2304_S2304x768_S73728x768_1_0_0_1_n_n none
      (concatenate S73728x2304 1 [⟨S73728x768, V (Proc.devRef .tc main_v41)⟩, ⟨S73728x768, V (Proc.devRef .tc main_v28)⟩,
        ⟨S73728x768, V (Proc.devRef .tc main_v48)⟩] concatenates_S73728x768_S73728x768_S73728x768_S73728x2304_d1)
      (V (Proc.devRef .tc main_arg7)))
    (broadcastInDim S73728x768 ![0, 1] bcast_S1x768_S73728x768_0_1 (broadcastInDim S1x768 ![1] bcast_S768_S1x768_1 (V (Proc.devRef .tc main_arg8)))) = _
  rw [hxh, hea, hxt, h7, h8]
  rfl

include h0 hhd in
set_option maxHeartbeats 4000000 in
theorem middle_head_ids : StableHlo.after middle V (Proc.devRef .tc main_v60) = val_main_v60 (F := F) x0 x1 := by
  after_results_simp
  rw [h0, hhd]
  rfl
include h0 htl in
set_option maxHeartbeats 4000000 in
theorem middle_tail_ids : StableHlo.after middle V (Proc.devRef .tc main_v67) = val_main_v67 (F := F) x0 x1 := by
  after_results_simp
  rw [h0, htl]
  rfl
include h0 hhd in
set_option maxHeartbeats 4000000 in
theorem middle_head_col : StableHlo.after middle V (Proc.devRef .tc main_v68) = val_main_v68 (F := F) x0 x1 := by
  after_results_simp
  rw [h0, hhd]
  rfl
include hrel in
set_option maxHeartbeats 4000000 in
theorem middle_rel_col : StableHlo.after middle V (Proc.devRef .tc main_v69) = val_main_v69 (F := F) x2 := by
  after_results_simp
  rw [hrel]
  rfl
include h0 htl in
set_option maxHeartbeats 4000000 in
theorem middle_tail_col : StableHlo.after middle V (Proc.devRef .tc main_v70) = val_main_v70 (F := F) x0 x1 := by
  after_results_simp
  rw [h0, htl]
  rfl

end Middle

section Close

variable (V : Valuation τ sig (Elt F)) (x0 : (⟨S8192, .i32⟩ : BufTy).Contents (Elt F)) (x1 : (⟨S2x65536, .i32⟩ : BufTy).Contents (Elt F)) (x2 : (⟨S65536x2, .f32⟩ : BufTy).Contents (Elt F)) (x3 : (⟨S8x64, .i32⟩ : BufTy).Contents (Elt F)) (x4 : (⟨S100000x768, .f32⟩ : BufTy).Contents (Elt F)) (x5 : (⟨S38x768, .f32⟩ : BufTy).Contents (Elt F)) (x6 : (⟨S768, .f32⟩ : BufTy).Contents (Elt F)) (x7 : (⟨S2304x768, .f32⟩ : BufTy).Contents (Elt F)) (x8 : (⟨S768, .f32⟩ : BufTy).Contents (Elt F))
variable (h3 : V (Proc.devRef .tc main_arg3) = x3)
  (hh : V (Proc.devRef .tc main_v60) = val_main_v60 (F := F) x0 x1) (ht : V (Proc.devRef .tc main_v67) = val_main_v67 (F := F) x0 x1)
  (hc0 : V (Proc.devRef .tc main_v68) = val_main_v68 (F := F) x0 x1) (hc1 : V (Proc.devRef .tc main_v69) = val_main_v69 (F := F) x2)
  (hc2 : V (Proc.devRef .tc main_v70) = val_main_v70 (F := F) x0 x1)

include hc0 hc1 hc2 in
set_option maxHeartbeats 4000000 in
/-- The id table: the three columns side by side. -/
theorem close_ids : StableHlo.after close V (Proc.devRef .tc main_v71) = val_main_v71 (F := F) x0 x1 x2 := by
  host_line_results
  show concatenate S73728x3 1 [⟨S73728x1, V (Proc.devRef .tc main_v68)⟩, ⟨S73728x1, V (Proc.devRef .tc main_v69)⟩,
    ⟨S73728x1, V (Proc.devRef .tc main_v70)⟩] concatenates_S73728x1_S73728x1_S73728x1_S73728x3_d1 = _
  rw [hc0, hc1, hc2]
  rfl

include h3 hh ht in
set_option maxHeartbeats 4000000 in
/-- The mask. -/
theorem close_mask : StableHlo.after close V (Proc.devRef .tc main_v84) = val_main_v84 (F := F) x0 x1 x3 := by
  after_results_simp
  rw [h3, hh, ht]
  rfl

/-- The closing stretch leaves the projection where it was. -/
theorem close_proj : StableHlo.after close V (Proc.devRef .tc main_v53) = V (Proc.devRef .tc main_v53) := by
  after_results_simp

end Close

section Whole

variable (W : Valuation τ sig (Elt F))

theorem whole_proj : StableHlo.after ops W (Proc.devRef .tc main_v53)
    = val_main_v53 (F := F) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) := by
  rw [ops_split, after_two_lines, after_two_lines, close_proj]
  exact middle_proj (StableHlo.after lead W) _ _ _ _ _ _ _ _ (lead_arg W main_arg7 (by decide)) (lead_arg W main_arg8 (by decide))
    (lead_xh W) (lead_ea W) (lead_xt W)

theorem middle_arg (V : Valuation τ sig (Elt F)) (b : Ref sig .tc) (hb : b ∉ written) :
    StableHlo.after middle V (Proc.devRef .tc b) = V (Proc.devRef .tc b) := by
  refine StableHlo.after_of_writes_sub (W := written) middle V ?_ hb
  have h := ops_writes (F := F)
  rw [ops_split, List.forall_iff_forall_mem] at h
  exact List.forall_iff_forall_mem.mpr fun op hop => h op (List.mem_append_left _ (List.mem_append_right _ hop))

theorem whole_mask : StableHlo.after ops W (Proc.devRef .tc main_v84) = val_main_v84 (F := F) (W (Proc.devRef .tc main_arg0)) (W (Proc.devRef .tc main_arg1)) (W (Proc.devRef .tc main_arg3)) := by
  rw [ops_split, after_two_lines, after_two_lines]
  refine close_mask _ _ _ _ ((middle_arg _ main_arg3 (by decide)).trans (lead_arg W main_arg3 (by decide))) ?_ ?_
  · exact middle_head_ids (StableHlo.after lead W) _ _ (lead_arg W main_arg0 (by decide)) (lead_head W)
  · exact middle_tail_ids (StableHlo.after lead W) _ _ (lead_arg W main_arg0 (by decide)) (lead_tail W)

theorem whole_ids : StableHlo.after ops W (Proc.devRef .tc main_v71) = val_main_v71 (F := F) (W (Proc.devRef .tc main_arg0)) (W (Proc.devRef .tc main_arg1)) (W (Proc.devRef .tc main_arg2)) := by
  rw [ops_split, after_two_lines, after_two_lines]
  refine close_ids _ _ _ _ ?_ ?_ ?_
  · exact middle_head_col (StableHlo.after lead W) _ _ (lead_arg W main_arg0 (by decide)) (lead_head W)
  · exact middle_rel_col (StableHlo.after lead W) _ (lead_rel W)
  · exact middle_tail_col (StableHlo.after lead W) _ _ (lead_arg W main_arg0 (by decide)) (lead_tail W)

theorem whole_arg (b : Ref sig .tc) (hb : b ∉ written) : StableHlo.after ops W (Proc.devRef .tc b) = W (Proc.devRef .tc b) :=
  StableHlo.after_of_writes_sub (W := written) ops W (ops_writes (F := F)) hb

end Whole

/-- Every weakly fair execution of the reference from `m` with zero counters terminates without fault, with the three
    results at their stages of the launch arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = val_main_v53 (F := F) (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_v84) = val_main_v84 (F := F) (m ((c.tc : Thread nD τ).loc main_arg0)) (m ((c.tc : Thread nD τ).loc main_arg1))
          (m ((c.tc : Thread nD τ).loc main_arg3))
      ∧ r.2.mem ((c.tc : Thread nD τ).loc main_v71) = val_main_v71 (F := F) (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v53).trans (whole_proj (launchContents m c)), (h c main_v84).trans (whole_mask (launchContents m c)),
      (h c main_v71).trans (whole_ids (launchContents m c)),
      (h c main_arg0).trans (whole_arg (launchContents m c) main_arg0 (by decide)),
      (h c main_arg1).trans (whole_arg (launchContents m c) main_arg1 (by decide)),
      (h c main_arg2).trans (whole_arg (launchContents m c) main_arg2 (by decide)),
      (h c main_arg3).trans (whole_arg (launchContents m c) main_arg3 (by decide)),
      (h c main_arg4).trans (whole_arg (launchContents m c) main_arg4 (by decide)),
      (h c main_arg5).trans (whole_arg (launchContents m c) main_arg5 (by decide)),
      (h c main_arg6).trans (whole_arg (launchContents m c) main_arg6 (by decide)),
      (h c main_arg7).trans (whole_arg (launchContents m c) main_arg7 (by decide)),
      (h c main_arg8).trans (whole_arg (launchContents m c) main_arg8 (by decide))⟩)
    (run_seq scopedRefs_eq scopedSems_eq defs main (fun _ => ops) main_eq (fun _ => ops_sub) m ρ)

end Cert.ReferenceIdeal.StagedRun

end
-- ==== Proof.WordsProjPoint.lean ====
/-
  The projection region, one grid point at a time, at any float instance (the word-level program's copy: the printed text is the same, the
  program is its own).
  A grid point reads a block of 3072 rows of each of the three gathered operands, the three 768x768 weight
  blocks and the bias row, and stores one 3072x768 block of the result: the sum of the three products plus the
  bias. Stated here: what the point leaves in the result's staging buffer as a function of the blocks it read,
  that the body runs without fault on whole staging buffers, and the pipeline's proof data built from that,
  at a parameter `V` for the buffer contents on entry to the region.
-/
import proofs.«164025_j25692494364677_2_alg».proof.Proof.Gen.Kernel.Launch
import proofs.«164025_j25692494364677_2_alg».proof.Proof.Gen.Kernel.Skeleton
import proofs.«164025_j25692494364677_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The block of operand `w` that grid point `t` works on, cut out of the operand's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0 is only read: whatever point `t` finds in its staging buffer is the operand's block at `t`,
    whether the block was copied in at `t` or earlier (its index has then not moved). -/
theorem found0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Operand 1 is only read: whatever point `t` finds in its staging buffer is the operand's block at `t`,
    whether the block was copied in at `t` or earlier (its index has then not moved). -/
theorem found1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Operand 2 is only read: whatever point `t` finds in its staging buffer is the operand's block at `t`,
    whether the block was copied in at `t` or earlier (its index has then not moved). -/
theorem found2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Operand 3 is only read: whatever point `t` finds in its staging buffer is the operand's block at `t`,
    whether the block was copied in at `t` or earlier (its index has then not moved). -/
theorem found3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Operand 4 is only read: whatever point `t` finds in its staging buffer is the operand's block at `t`,
    whether the block was copied in at `t` or earlier (its index has then not moved). -/
theorem found4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Operand 5 is only read: whatever point `t` finds in its staging buffer is the operand's block at `t`,
    whether the block was copied in at `t` or earlier (its index has then not moved). -/
theorem found5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Operand 6 is only read: whatever point `t` finds in its staging buffer is the operand's block at `t`,
    whether the block was copied in at `t` or earlier (its index has then not moved). -/
theorem found6_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-- What one grid point leaves in the result's staging buffer, as a function of the operand blocks it read: the
    body's single store, over the whole buffer, of the payload of its loads. -/
def stored (x0 : Vec F S3072x768 .bf16) (x1 : Vec F S3072x768 .bf16) (x2 : Vec F S3072x768 .bf16) (x3 : Vec F S768x768 .bf16) (x4 : Vec F S768x768 .bf16) (x5 : Vec F S768x768 .bf16) (x6 : Vec F S1x768 .f32) : Vec F S3072x768 .f32 :=
  View.canon [⟨(Rect.unit (s := S3072x768) ![0, 0] S3072x768.size inb_S3072x768_S3072x768_0_0), k0_pay1 (View.ld x0 (Rect.unit (s := S3072x768) ![0, 0] S3072x768.size inb_S3072x768_S3072x768_0_0)) (View.ld x3 (Rect.unit (s := S768x768) ![0, 0] S768x768.size inb_S768x768_S768x768_0_0)) (View.ld x1 (Rect.unit (s := S3072x768) ![0, 0] S3072x768.size inb_S3072x768_S3072x768_0_0)) (View.ld x4 (Rect.unit (s := S768x768) ![0, 0] S768x768.size inb_S768x768_S768x768_0_0)) (View.ld x2 (Rect.unit (s := S3072x768) ![0, 0] S3072x768.size inb_S3072x768_S3072x768_0_0)) (View.ld x5 (Rect.unit (s := S768x768) ![0, 0] S768x768.size inb_S768x768_S768x768_0_0)) (View.ld x6 (Rect.unit (s := S1x768) ![0, 0] S1x768.size inb_S1x768_S1x768_0_0))⟩]

/-- That one store covers the buffer. -/
theorem stored_covers (p0 : Vec F S3072x768 .f32) (y : S3072x768.Idx) :
    ∃ pc ∈ ([⟨(Rect.unit (s := S3072x768) ![0, 0] S3072x768.size inb_S3072x768_S3072x768_0_0), p0⟩] : List (View.Piece (Elt F) S3072x768 .f32)), y ∈ pc.1.set :=
  View.cover_of_tiled [⟨(Rect.unit (s := S3072x768) ![0, 0] S3072x768.size inb_S3072x768_S3072x768_0_0), p0⟩] S3072x768.size (by rfl) y

set_option maxHeartbeats 4000000 in
/-- The body on whole staging buffers: with the operand buffers at `x…` and the result buffer at anything, it runs
    without fault, leaves the operand buffers as they were and the result buffer at `stored` of them. -/
theorem body_runs (c : Dev nD) (E : Set ℕ) (i : grid0.Coords) (a0 : Memref sig .tc .vmem S3072x768 .bf16) (ha0 : a0.IsWhole) (a1 : Memref sig .tc .vmem S3072x768 .bf16) (ha1 : a1.IsWhole) (a2 : Memref sig .tc .vmem S3072x768 .bf16) (ha2 : a2.IsWhole) (a3 : Memref sig .tc .vmem S768x768 .bf16) (ha3 : a3.IsWhole) (a4 : Memref sig .tc .vmem S768x768 .bf16) (ha4 : a4.IsWhole) (a5 : Memref sig .tc .vmem S768x768 .bf16) (ha5 : a5.IsWhole) (a6 : Memref sig .tc .vmem S1x768 .f32) (ha6 : a6.IsWhole) (a7 : Memref sig .tc .vmem S3072x768 .f32) (ha7 : a7.IsWhole)
    (x0 : Vec F S3072x768 .bf16) (x1 : Vec F S3072x768 .bf16) (x2 : Vec F S3072x768 .bf16) (x3 : Vec F S768x768 .bf16) (x4 : Vec F S768x768 .bf16) (x5 : Vec F S768x768 .bf16) (x6 : Vec F S1x768 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (stored x0 x1 x2 x3 x4 x5 x6)) -∗ K ⟨⟩))
      ⊢ wp frame (wpE (defs₀ (F := F)) Variants.none c none) E (cc0__proj_kernel i a0 ha0 a1 ha1 a2 ha2 a3 ha3 a4 ha4 a5 ha5 a6 ha6 a7 ha7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_covers _)

/-- The pipeline's proof data on core `c`: the operands' arrays as the region finds them; after the body at point
    `t` each operand buffer still at its block and the result buffer at `stored` of the blocks; the invariant holds only
    what the body never touches; nothing owed, full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => stored (blockAt V c 0 t) (blockAt V c 1 t) (blockAt V c 2 t) (blockAt V c 3 t) (blockAt V c 4 t) (blockAt V c 5 t) (blockAt V c 6 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) : (dat V c).after 3 t = blockAt V c 3 t := by dsimp only [dat]
theorem after4 (c : Dev nD) (t : Fin cfg0.N) : (dat V c).after 4 t = blockAt V c 4 t := by dsimp only [dat]
theorem after5 (c : Dev nD) (t : Fin cfg0.N) : (dat V c).after 5 t = blockAt V c 5 t := by dsimp only [dat]
theorem after6 (c : Dev nD) (t : Fin cfg0.N) : (dat V c).after 6 t = blockAt V c 6 t := by dsimp only [dat]
theorem after7 (c : Dev nD) (t : Fin cfg0.N) : (dat V c).after 7 t = stored (blockAt V c 0 t) (blockAt V c 1 t) (blockAt V c 2 t) (blockAt V c 3 t) (blockAt V c 4 t) (blockAt V c 5 t) (blockAt V c 6 t) := by dsimp only [dat]

theorem found0 (c : Dev nD) (t : Fin cfg0.N) (d) : (dat V c).before 0 t d = blockAt V c 0 t :=
  found0_of V (dat V c) (dat_A V c 0) (after0 V c) t d
theorem found1 (c : Dev nD) (t : Fin cfg0.N) (d) : (dat V c).before 1 t d = blockAt V c 1 t :=
  found1_of V (dat V c) (dat_A V c 1) (after1 V c) t d
theorem found2 (c : Dev nD) (t : Fin cfg0.N) (d) : (dat V c).before 2 t d = blockAt V c 2 t :=
  found2_of V (dat V c) (dat_A V c 2) (after2 V c) t d
theorem found3 (c : Dev nD) (t : Fin cfg0.N) (d) : (dat V c).before 3 t d = blockAt V c 3 t :=
  found3_of V (dat V c) (dat_A V c 3) (after3 V c) t d
theorem found4 (c : Dev nD) (t : Fin cfg0.N) (d) : (dat V c).before 4 t d = blockAt V c 4 t :=
  found4_of V (dat V c) (dat_A V c 4) (after4 V c) t d
theorem found5 (c : Dev nD) (t : Fin cfg0.N) (d) : (dat V c).before 5 t d = blockAt V c 5 t :=
  found5_of V (dat V c) (dat_A V c 5) (after5 V c) t d
theorem found6 (c : Dev nD) (t : Fin cfg0.N) (d) : (dat V c).before 6 t d = blockAt V c 6 t :=
  found6_of V (dat V c) (dat_A V c 6) (after6 V c) t d

/-- What the body is handed at point `t`, window by window, -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it hands back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 2000000 in
/-- The body at any point: the operand buffers hold their blocks, so `body_runs` applies; the invariant and the
    core's debts pass through untouched. -/
theorem body_at (c : Dev nD) (t : Fin cfg0.N) :
    handed V c t ⊢ wp frame (wpE (defs₀ (F := F)) Variants.none c none) Set.univ (bodyAt0 t) (fun _ => returned V c t) := by
  unfold handed returned bodyAt0
  simp only [found0, found1, found2, found3, found4, found5, found6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ _ _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's obligation on the body, at every point. -/
theorem body_obligation (c : Dev nD) : BodyObligation (dat (F := F) V c) (defs₀ (F := F)) Variants.none () Set.univ := fun t => by
  rw [bigSep_W0, bigSep_W0]
  exact body_at V c t

end Cert.Kernel.Proj

end
-- ==== Proof.WordsMaskPoint.lean ====
/-
  The membership-mask region, one grid point at a time, at any float instance (the word-level program's copy: the printed text is the same, the
  program is its own).
  A grid point reads the whole 8x64 table of sentence ids and a block of 4096 head ids and 4096 tail ids, and
  stores the 8x4096 block of flags "some id of sentence b equals the head id or the tail id of triple q".
  Stated here: what the point leaves in the result's staging buffer as a function of the blocks it read, that the
  body runs without fault on whole staging buffers, and the pipeline's proof data built from that, at a
  parameter `V` for the buffer contents on entry to the region.
-/
import proofs.«164025_j25692494364677_2_alg».proof.Proof.Gen.Kernel.Launch
import proofs.«164025_j25692494364677_2_alg».proof.Proof.Gen.Kernel.Skeleton
import proofs.«164025_j25692494364677_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mask

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The block of operand `w` that grid point `t` works on, cut out of the operand's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand 0 is only read: whatever point `t` finds in its staging buffer is the operand's block at `t`,
    whether the block was copied in at `t` or earlier (its index has then not moved). -/
theorem found0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Operand 1 is only read: whatever point `t` finds in its staging buffer is the operand's block at `t`,
    whether the block was copied in at `t` or earlier (its index has then not moved). -/
theorem found1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Operand 2 is only read: whatever point `t` finds in its staging buffer is the operand's block at `t`,
    whether the block was copied in at `t` or earlier (its index has then not moved). -/
theorem found2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- What one grid point leaves in the result's staging buffer, as a function of the operand blocks it read: the
    body's single store, over the whole buffer, of the payload of its loads. -/
def stored (x0 : Vec F S8x64 .i32) (x1 : Vec F S1x4096 .i32) (x2 : Vec F S1x4096 .i32) : Vec F S8x4096 .i32 :=
  View.canon [⟨(Rect.unit (s := S8x4096) ![0, 0] S8x4096.size inb_S8x4096_S8x4096_0_0), k1_pay1 (View.ld x0 (Rect.unit (s := S8x64) ![0, 0] S8x64.size inb_S8x64_S8x64_0_0)) (View.ld x1 (Rect.unit (s := S1x4096) ![0, 0] S1x4096.size inb_S1x4096_S1x4096_0_0)) (View.ld x2 (Rect.unit (s := S1x4096) ![0, 0] S1x4096.size inb_S1x4096_S1x4096_0_0))⟩]

/-- That one store covers the buffer. -/
theorem stored_covers (p0 : Vec F S8x4096 .i32) (y : S8x4096.Idx) :
    ∃ pc ∈ ([⟨(Rect.unit (s := S8x4096) ![0, 0] S8x4096.size inb_S8x4096_S8x4096_0_0), p0⟩] : List (View.Piece (Elt F) S8x4096 .i32)), y ∈ pc.1.set :=
  View.cover_of_tiled [⟨(Rect.unit (s := S8x4096) ![0, 0] S8x4096.size inb_S8x4096_S8x4096_0_0), p0⟩] S8x4096.size (by rfl) y

set_option maxHeartbeats 4000000 in
/-- The body on whole staging buffers: with the operand buffers at `x…` and the result buffer at anything, it runs
    without fault, leaves the operand buffers as they were and the result buffer at `stored` of them. -/
theorem body_runs (c : Dev nD) (E : Set ℕ) (i : grid1.Coords) (a0 : Memref sig .tc .vmem S8x64 .i32) (ha0 : a0.IsWhole) (a1 : Memref sig .tc .vmem S1x4096 .i32) (ha1 : a1.IsWhole) (a2 : Memref sig .tc .vmem S1x4096 .i32) (ha2 : a2.IsWhole) (a3 : Memref sig .tc .vmem S8x4096 .i32) (ha3 : a3.IsWhole)
    (x0 : Vec F S8x64 .i32) (x1 : Vec F S1x4096 .i32) (x2 : Vec F S1x4096 .i32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored x0 x1 x2)) -∗ K ⟨⟩))
      ⊢ wp frame (wpE (defs₀ (F := F)) Variants.none c none) E (cc1__mask_kernel i a0 ha0 a1 ha1 a2 ha2 a3 ha3) K := by
  simp only [cc1__mask_kernel_eq_skeleton]; unfold cc1__mask_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-- The pipeline's proof data on core `c`: the operands' arrays as the region finds them; after the body at point
    `t` each operand buffer still at its block and the result buffer at `stored` of the blocks; the invariant holds only
    what the body never touches; nothing owed, full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = stored (blockAt V c 0 t) (blockAt V c 1 t) (blockAt V c 2 t) := by dsimp only [dat]

theorem found0 (c : Dev nD) (t : Fin cfg1.N) (d) : (dat V c).before 0 t d = blockAt V c 0 t :=
  found0_of V (dat V c) (dat_A V c 0) (after0 V c) t d
theorem found1 (c : Dev nD) (t : Fin cfg1.N) (d) : (dat V c).before 1 t d = blockAt V c 1 t :=
  found1_of V (dat V c) (dat_A V c 1) (after1 V c) t d
theorem found2 (c : Dev nD) (t : Fin cfg1.N) (d) : (dat V c).before 2 t d = blockAt V c 2 t :=
  found2_of V (dat V c) (dat_A V c 2) (after2 V c) t d

/-- What the body is handed at point `t`, window by window, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it hands back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

set_option maxHeartbeats 2000000 in
/-- The body at any point: the operand buffers hold their blocks, so `body_runs` applies; the invariant and the
    core's debts pass through untouched. -/
theorem body_at (c : Dev nD) (t : Fin cfg1.N) :
    handed V c t ⊢ wp frame (wpE (defs₀ (F := F)) Variants.none c none) Set.univ (bodyAt1 t) (fun _ => returned V c t) := by
  unfold handed returned bodyAt1
  simp only [found0, found1, found2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_runs c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's obligation on the body, at every point. -/
theorem body_obligation (c : Dev nD) : BodyObligation (dat (F := F) V c) (defs₀ (F := F)) Variants.none () Set.univ := fun t => by
  rw [bigSep_W1, bigSep_W1]
  exact body_at V c t

end Cert.Kernel.Mask

end
-- ==== Proof.WordsWholeRun.lean ====
/-
  The whole run of @main, at any float instance: a first stretch of host operations (the gathers, the
  concatenations, the weight slices), the projection region, a second stretch (the id gathers and the triple-id
  table), the mask region, and the closing comparison. The buffer contents at each boundary are named as a fold from
  the launch memory: a host stretch applies its operations' functions, a region replaces its operands' arrays by
  what its write-backs leave and keeps every other buffer. The launch theorem then says that every weakly fair
  execution terminates without fault in a state whose unscoped buffers are the last boundary's contents.
-/
import proofs.«164025_j25692494364677_2_alg».proof.Proof.WordsProjPoint
import proofs.«164025_j25692494364677_2_alg».proof.Proof.WordsMaskPoint

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first sixty host operations. -/
abbrev B1 : Dev nD → Valuation τ sig (Elt F) := fun c => StableHlo.after main_part0_ops0 (B0 m ρ c)
/-- After the next eight: what the projection region is entered from. -/
abbrev B2 : Dev nD → Valuation τ sig (Elt F) := fun c => StableHlo.after main_part1_ops0 (B1 m ρ c)
abbrev E2 : (c : Dev nD) → (b : Ref sig .tc) → Buf (Elt F) ((c : Thread nD τ).loc b) := fun c b => B2 m ρ c b
/-- When the projection region is left: its operands' arrays at what the write-backs leave, every other buffer as
    entered. -/
def B3 (c : Dev nD) : Valuation τ sig (Elt F) :=
  Pipeline.withArrays spec0 c (B2 m ρ c) fun w => (Proj.dat (E2 m ρ) c).arrAt w cfg0.N
theorem B3_arr (c : Dev nD) (w : Fin cfg0.W) :
    B3 m ρ c (Proc.devRef .tc (Pipeline.arrRef spec0 w)) = (Proj.dat (E2 m ρ) c).arrAt w cfg0.N := by
  unfold B3; exact Pipeline.withArrays_arr spec0 launch0.win.arr_inj c _ _ w
theorem B3_of_ne (c : Dev nD) (b : Ref sig .tc) (hb : ∀ w, Pipeline.arrRef spec0 w ≠ b) :
    B3 m ρ c (Proc.devRef .tc b) = B2 m ρ c (Proc.devRef .tc b) := by
  unfold B3; exact Pipeline.withArrays_of_ne spec0 c _ _ b hb
abbrev X3 : (c : Dev nD) → (b : Ref sig .tc) → Buf (Elt F) ((c : Thread nD τ).loc b) := fun c b => B3 m ρ c b
theorem left0 (c : Dev nD) (w : Fin cfg0.W) : (Proj.dat (E2 m ρ) c).arrAt w cfg0.N = X3 m ρ c (Pipeline.arrRef spec0 w) :=
  (B3_arr m ρ c w).symm
theorem rest0 (c : Dev nD) : ∀ b, b ∉ Finset.univ.image (Pipeline.arrRef spec0) → X3 m ρ c b = E2 m ρ c b :=
  fun b hb => B3_of_ne m ρ c b fun w e => hb (Finset.mem_image.mpr ⟨w, Finset.mem_univ _, e⟩)
/-- After the second stretch: what the mask region is entered from. -/
abbrev B4 : Dev nD → Valuation τ sig (Elt F) := fun c => StableHlo.after main_part1_ops1 (B3 m ρ c)
abbrev E4 : (c : Dev nD) → (b : Ref sig .tc) → Buf (Elt F) ((c : Thread nD τ).loc b) := fun c b => B4 m ρ c b
/-- When the mask region is left. -/
def B5 (c : Dev nD) : Valuation τ sig (Elt F) :=
  Pipeline.withArrays spec1 c (B4 m ρ c) fun w => (Mask.dat (E4 m ρ) c).arrAt w cfg1.N
theorem B5_arr (c : Dev nD) (w : Fin cfg1.W) :
    B5 m ρ c (Proc.devRef .tc (Pipeline.arrRef spec1 w)) = (Mask.dat (E4 m ρ) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m ρ c (Proc.devRef .tc b) = B4 m ρ c (Proc.devRef .tc b) := by
  unfold B5; exact Pipeline.withArrays_of_ne spec1 c _ _ b hb
abbrev X5 : (c : Dev nD) → (b : Ref sig .tc) → Buf (Elt F) ((c : Thread nD τ).loc b) := fun c b => B5 m ρ c b
theorem left1 (c : Dev nD) (w : Fin cfg1.W) : (Mask.dat (E4 m ρ) c).arrAt w cfg1.N = X5 m ρ c (Pipeline.arrRef spec1 w) :=
  (B5_arr m ρ c w).symm
theorem rest1 (c : Dev nD) : ∀ b, b ∉ Finset.univ.image (Pipeline.arrRef spec1) → X5 m ρ c b = E4 m ρ c b :=
  fun b hb => B5_of_ne m ρ c b fun w e => hb (Finset.mem_image.mpr ⟨w, Finset.mem_univ _, e⟩)
/-- After the closing comparison: what @main returns from. -/
abbrev B6 : Dev nD → Valuation τ sig (Elt F) := fun c => StableHlo.after main_part1_ops2 (B5 m ρ c)

/-! ## What each stretch writes -/

/-- The buffers the stretch writes, as a list of references. -/
abbrev opsA_written : List (Ref sig .tc) := [main_c, main_v0, main_v1, main_c_0, main_v2, main_v3, main_v4, main_v5, main_v6, main_v7, main_v8, main_v9, main_v10, main_v11, main_v12, main_v13, main_c_1, main_v14, main_v15, main_c_2, main_v16, main_v17, main_v18, main_v19, main_v20, main_v21, main_v22, main_v23, main_v24, main_v25, main_v26, main_v27, main_v28, main_v29, main_v30, main_v31, main_c_3, main_v32, main_v33, main_v34, main_v35, main_v36, main_v37, main_c_4, main_v38, main_v39, main_c_5, main_v40, main_v41, main_v42, main_v43, main_v44, main_c_6, main_v45, main_v46, main_c_7, main_v47, main_v48, main_v49, main_v50]
theorem opsA_writes : (main_part0_ops0 : List (HloOp τ sig (Elt F))).Forall fun op => op.writes ⊆ ((opsA_written).map (Proc.devRef (τ := τ) .tc)).toFinset := by
  simp only [main_part0_ops0, List.Forall, StableHlo.nullary_writes, StableHlo.unary_writes, StableHlo.binary_writes, StableHlo.ternary_writes,
    StableHlo.reshape_writes, StableHlo.nary_writes, Finset.singleton_subset_iff]
  repeat' apply And.intro
  all_goals exact List.mem_toFinset.mpr (List.mem_map_of_mem (by decide))
/-- No operation of the stretch allocates a buffer. -/
theorem opsA_fresh : (main_part0_ops0 : List (HloOp τ sig (Elt F))).Forall fun op => op.fresh = ∅ := by
  simp only [List.Forall]; repeat' constructor

/-- The buffers the stretch writes, as a list of references. -/
abbrev opsB_written : List (Ref sig .tc) := [main_v51, main_v52, main_v53, main_v54, main_v55, main_v56, main_v57, main_v58]
theorem opsB_writes : (main_part1_ops0 : List (HloOp τ sig (Elt F))).Forall fun op => op.writes ⊆ ((opsB_written).map (Proc.devRef (τ := τ) .tc)).toFinset := by
  simp only [main_part1_ops0, List.Forall, StableHlo.nullary_writes, StableHlo.unary_writes, StableHlo.binary_writes, StableHlo.ternary_writes,
    StableHlo.reshape_writes, StableHlo.nary_writes, Finset.singleton_subset_iff]
  repeat' apply And.intro
  all_goals exact List.mem_toFinset.mpr (List.mem_map_of_mem (by decide))
/-- No operation of the stretch allocates a buffer. -/
theorem opsB_fresh : (main_part1_ops0 : List (HloOp τ sig (Elt F))).Forall fun op => op.fresh = ∅ := by
  simp only [List.Forall]; repeat' constructor

/-- The buffers the stretch writes, as a list of references. -/
abbrev opsC_written : List (Ref sig .tc) := [main_c_8, main_v60, main_v61, main_c_9, main_v62, main_v63, main_v64, main_v65, main_v66, main_c_10, main_v67, main_v68, main_c_11, main_v69, main_v70, main_v71, main_v72, main_v73, main_v74, main_v75, main_v76, main_v77, main_v78, main_v79]
theorem opsC_writes : (main_part1_ops1 : List (HloOp τ sig (Elt F))).Forall fun op => op.writes ⊆ ((opsC_written).map (Proc.devRef (τ := τ) .tc)).toFinset := by
  simp only [main_part1_ops1, List.Forall, StableHlo.nullary_writes, StableHlo.unary_writes, StableHlo.binary_writes, StableHlo.ternary_writes,
    StableHlo.reshape_writes, StableHlo.nary_writes, Finset.singleton_subset_iff]
  repeat' apply And.intro
  all_goals exact List.mem_toFinset.mpr (List.mem_map_of_mem (by decide))
/-- No operation of the stretch allocates a buffer. -/
theorem opsC_fresh : (main_part1_ops1 : List (HloOp τ sig (Elt F))).Forall fun op => op.fresh = ∅ := by
  simp only [List.Forall]; repeat' constructor

/-- The buffers the stretch writes, as a list of references. -/
abbrev opsD_written : List (Ref sig .tc) := [main_c_12, main_v81, main_v82, main_v83]
theorem opsD_writes : (main_part1_ops2 : List (HloOp τ sig (Elt F))).Forall fun op => op.writes ⊆ ((opsD_written).map (Proc.devRef (τ := τ) .tc)).toFinset := by
  simp only [main_part1_ops2, List.Forall, StableHlo.nullary_writes, StableHlo.unary_writes, StableHlo.binary_writes, StableHlo.ternary_writes,
    StableHlo.reshape_writes, StableHlo.nary_writes, Finset.singleton_subset_iff]
  repeat' apply And.intro
  all_goals exact List.mem_toFinset.mpr (List.mem_map_of_mem (by decide))
/-- No operation of the stretch allocates a buffer. -/
theorem opsD_fresh : (main_part1_ops2 : List (HloOp τ sig (Elt F))).Forall fun op => op.fresh = ∅ := by
  simp only [List.Forall]; repeat' constructor

/-! ## The arguments end as launched: no stretch writes one, and a region only reads the one it is handed -/

theorem kept_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := StableHlo.after_of_writes_sub _ _ opsD_writes (by decide)
    _ = B4 m ρ c (Proc.devRef .tc main_arg0) := B5_of_ne m ρ c main_arg0 (by decide)
    _ = B3 m ρ c (Proc.devRef .tc main_arg0) := StableHlo.after_of_writes_sub _ _ opsC_writes (by decide)
    _ = B2 m ρ c (Proc.devRef .tc main_arg0) := B3_of_ne m ρ c main_arg0 (by decide)
    _ = B1 m ρ c (Proc.devRef .tc main_arg0) := StableHlo.after_of_writes_sub _ _ opsB_writes (by decide)
    _ = B0 m ρ c (Proc.devRef .tc main_arg0) := StableHlo.after_of_writes_sub _ _ opsA_writes (by decide)
    _ = m ((c : Thread nD τ).loc main_arg0) := rfl

theorem kept_main_arg1 (c : Dev nD) : B6 m ρ c (Proc.devRef .tc main_arg1) = m ((c : Thread nD τ).loc main_arg1) :=
  calc B6 m ρ c (Proc.devRef .tc main_arg1)
    _ = B5 m ρ c (Proc.devRef .tc main_arg1) := StableHlo.after_of_writes_sub _ _ opsD_writes (by decide)
    _ = B4 m ρ c (Proc.devRef .tc main_arg1) := B5_of_ne m ρ c main_arg1 (by decide)
    _ = B3 m ρ c (Proc.devRef .tc main_arg1) := StableHlo.after_of_writes_sub _ _ opsC_writes (by decide)
    _ = B2 m ρ c (Proc.devRef .tc main_arg1) := B3_of_ne m ρ c main_arg1 (by decide)
    _ = B1 m ρ c (Proc.devRef .tc main_arg1) := StableHlo.after_of_writes_sub _ _ opsB_writes (by decide)
    _ = B0 m ρ c (Proc.devRef .tc main_arg1) := StableHlo.after_of_writes_sub _ _ opsA_writes (by decide)
    _ = m ((c : Thread nD τ).loc main_arg1) := rfl

theorem kept_main_arg2 (c : Dev nD) : B6 m ρ c (Proc.devRef .tc main_arg2) = m ((c : Thread nD τ).loc main_arg2) :=
  calc B6 m ρ c (Proc.devRef .tc main_arg2)
    _ = B5 m ρ c (Proc.devRef .tc main_arg2) := StableHlo.after_of_writes_sub _ _ opsD_writes (by decide)
    _ = B4 m ρ c (Proc.devRef .tc main_arg2) := B5_of_ne m ρ c main_arg2 (by decide)
    _ = B3 m ρ c (Proc.devRef .tc main_arg2) := StableHlo.after_of_writes_sub _ _ opsC_writes (by decide)
    _ = B2 m ρ c (Proc.devRef .tc main_arg2) := B3_of_ne m ρ c main_arg2 (by decide)
    _ = B1 m ρ c (Proc.devRef .tc main_arg2) := StableHlo.after_of_writes_sub _ _ opsB_writes (by decide)
    _ = B0 m ρ c (Proc.devRef .tc main_arg2) := StableHlo.after_of_writes_sub _ _ opsA_writes (by decide)
    _ = m ((c : Thread nD τ).loc main_arg2) := rfl

theorem kept_main_arg3 (c : Dev nD) : B6 m ρ c (Proc.devRef .tc main_arg3) = m ((c : Thread nD τ).loc main_arg3) :=
  calc B6 m ρ c (Proc.devRef .tc main_arg3)
    _ = B5 m ρ c (Proc.devRef .tc main_arg3) := StableHlo.after_of_writes_sub _ _ opsD_writes (by decide)
    _ = B4 m ρ c (Proc.devRef .tc main_arg3) := (B5_arr m ρ c 0).trans (((Mask.dat (E4 m ρ) c).arrAt_in 0 rfl _).trans (Mask.dat_A (E4 m ρ) c 0))
    _ = B3 m ρ c (Proc.devRef .tc main_arg3) := StableHlo.after_of_writes_sub _ _ opsC_writes (by decide)
    _ = B2 m ρ c (Proc.devRef .tc main_arg3) := B3_of_ne m ρ c main_arg3 (by decide)
    _ = B1 m ρ c (Proc.devRef .tc main_arg3) := StableHlo.after_of_writes_sub _ _ opsB_writes (by decide)
    _ = B0 m ρ c (Proc.devRef .tc main_arg3) := StableHlo.after_of_writes_sub _ _ opsA_writes (by decide)
    _ = m ((c : Thread nD τ).loc main_arg3) := rfl

theorem kept_main_arg4 (c : Dev nD) : B6 m ρ c (Proc.devRef .tc main_arg4) = m ((c : Thread nD τ).loc main_arg4) :=
  calc B6 m ρ c (Proc.devRef .tc main_arg4)
    _ = B5 m ρ c (Proc.devRef .tc main_arg4) := StableHlo.after_of_writes_sub _ _ opsD_writes (by decide)
    _ = B4 m ρ c (Proc.devRef .tc main_arg4) := B5_of_ne m ρ c main_arg4 (by decide)
    _ = B3 m ρ c (Proc.devRef .tc main_arg4) := StableHlo.after_of_writes_sub _ _ opsC_writes (by decide)
    _ = B2 m ρ c (Proc.devRef .tc main_arg4) := B3_of_ne m ρ c main_arg4 (by decide)
    _ = B1 m ρ c (Proc.devRef .tc main_arg4) := StableHlo.after_of_writes_sub _ _ opsB_writes (by decide)
    _ = B0 m ρ c (Proc.devRef .tc main_arg4) := StableHlo.after_of_writes_sub _ _ opsA_writes (by decide)
    _ = m ((c : Thread nD τ).loc main_arg4) := rfl

theorem kept_main_arg5 (c : Dev nD) : B6 m ρ c (Proc.devRef .tc main_arg5) = m ((c : Thread nD τ).loc main_arg5) :=
  calc B6 m ρ c (Proc.devRef .tc main_arg5)
    _ = B5 m ρ c (Proc.devRef .tc main_arg5) := StableHlo.after_of_writes_sub _ _ opsD_writes (by decide)
    _ = B4 m ρ c (Proc.devRef .tc main_arg5) := B5_of_ne m ρ c main_arg5 (by decide)
    _ = B3 m ρ c (Proc.devRef .tc main_arg5) := StableHlo.after_of_writes_sub _ _ opsC_writes (by decide)
    _ = B2 m ρ c (Proc.devRef .tc main_arg5) := B3_of_ne m ρ c main_arg5 (by decide)
    _ = B1 m ρ c (Proc.devRef .tc main_arg5) := StableHlo.after_of_writes_sub _ _ opsB_writes (by decide)
    _ = B0 m ρ c (Proc.devRef .tc main_arg5) := StableHlo.after_of_writes_sub _ _ opsA_writes (by decide)
    _ = m ((c : Thread nD τ).loc main_arg5) := rfl

theorem kept_main_arg6 (c : Dev nD) : B6 m ρ c (Proc.devRef .tc main_arg6) = m ((c : Thread nD τ).loc main_arg6) :=
  calc B6 m ρ c (Proc.devRef .tc main_arg6)
    _ = B5 m ρ c (Proc.devRef .tc main_arg6) := StableHlo.after_of_writes_sub _ _ opsD_writes (by decide)
    _ = B4 m ρ c (Proc.devRef .tc main_arg6) := B5_of_ne m ρ c main_arg6 (by decide)
    _ = B3 m ρ c (Proc.devRef .tc main_arg6) := StableHlo.after_of_writes_sub _ _ opsC_writes (by decide)
    _ = B2 m ρ c (Proc.devRef .tc main_arg6) := B3_of_ne m ρ c main_arg6 (by decide)
    _ = B1 m ρ c (Proc.devRef .tc main_arg6) := StableHlo.after_of_writes_sub _ _ opsB_writes (by decide)
    _ = B0 m ρ c (Proc.devRef .tc main_arg6) := StableHlo.after_of_writes_sub _ _ opsA_writes (by decide)
    _ = m ((c : Thread nD τ).loc main_arg6) := rfl

theorem kept_main_arg7 (c : Dev nD) : B6 m ρ c (Proc.devRef .tc main_arg7) = m ((c : Thread nD τ).loc main_arg7) :=
  calc B6 m ρ c (Proc.devRef .tc main_arg7)
    _ = B5 m ρ c (Proc.devRef .tc main_arg7) := StableHlo.after_of_writes_sub _ _ opsD_writes (by decide)
    _ = B4 m ρ c (Proc.devRef .tc main_arg7) := B5_of_ne m ρ c main_arg7 (by decide)
    _ = B3 m ρ c (Proc.devRef .tc main_arg7) := StableHlo.after_of_writes_sub _ _ opsC_writes (by decide)
    _ = B2 m ρ c (Proc.devRef .tc main_arg7) := B3_of_ne m ρ c main_arg7 (by decide)
    _ = B1 m ρ c (Proc.devRef .tc main_arg7) := StableHlo.after_of_writes_sub _ _ opsB_writes (by decide)
    _ = B0 m ρ c (Proc.devRef .tc main_arg7) := StableHlo.after_of_writes_sub _ _ opsA_writes (by decide)
    _ = m ((c : Thread nD τ).loc main_arg7) := rfl

theorem kept_main_arg8 (c : Dev nD) : B6 m ρ c (Proc.devRef .tc main_arg8) = m ((c : Thread nD τ).loc main_arg8) :=
  calc B6 m ρ c (Proc.devRef .tc main_arg8)
    _ = B5 m ρ c (Proc.devRef .tc main_arg8) := StableHlo.after_of_writes_sub _ _ opsD_writes (by decide)
    _ = B4 m ρ c (Proc.devRef .tc main_arg8) := B5_of_ne m ρ c main_arg8 (by decide)
    _ = B3 m ρ c (Proc.devRef .tc main_arg8) := StableHlo.after_of_writes_sub _ _ opsC_writes (by decide)
    _ = B2 m ρ c (Proc.devRef .tc main_arg8) := B3_of_ne m ρ c main_arg8 (by decide)
    _ = B1 m ρ c (Proc.devRef .tc main_arg8) := StableHlo.after_of_writes_sub _ _ opsB_writes (by decide)
    _ = B0 m ρ c (Proc.devRef .tc main_arg8) := StableHlo.after_of_writes_sub _ _ opsA_writes (by decide)
    _ = m ((c : Thread nD τ).loc main_arg8) := rfl

/-! ## The proof data of both pipelines and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Proj.dat (E2 m ρ) c
  | ⟨1, _⟩ => fun c => Mask.dat (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tend (c : Dev nD) : sProp 𝕄 := iprop(StableHlo.held (c : Thread nD τ) (Pipeline.ucRefs τ sig) (B6 m ρ c) ∗ ∃ r, prngReg c r)

/-! ## The regions as segments -/

set_option backward.isDefEq.respectTransparency.types false in
/-- Region 0 over the thread state: its operands' arrays are split out of the unscoped buffers on entry and put
    back, at what the write-backs leave, on exit; the generator register goes into the invariant and comes back;
    nothing is owed; the kernel has no semaphore of its own. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E2 m ρ) c).loose
  hwaits := Pipeline.hwaits_of_owed_zero _ _ _ _ L lv 0 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec0 c (E2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E2 m ρ c) (X3 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its operands' arrays are split out of the unscoped buffers on entry and put
    back, at what the write-backs leave, on exit; the generator register goes into the invariant and comes back;
    nothing is owed; the kernel has no semaphore of its own. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Mask.body_obligation (E4 m ρ) c).loose
  hwaits := Pipeline.hwaits_of_owed_zero _ _ _ _ L lv 1 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec1 c (E4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E4 m ρ c) (X5 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (stretch main_part0_ops0 main_part0_ops0_sub opsA_fresh (B0 m ρ)),
    .host (stretch main_part1_ops0 main_part1_ops0_sub opsB_fresh (B1 m ρ)),
    .region (region0 m ρ),
    .host (stretch main_part1_ops1 main_part1_ops1_sub opsC_fresh (B3 m ρ)),
    .region (region1 m ρ),
    .host (stretch main_part1_ops2 main_part1_ops2_sub opsD_fresh (B5 m ρ)) ]
/-- @main is the run of these segments. -/
theorem main_is_segs (c : Dev nD) : main (F := F) c = Pipeline.Seg.run (segs m ρ) := (main_chain_windows c).trans (by chain_rfl)

set_option backward.isDefEq.respectTransparency.types false in
/-- Every weakly fair execution of @main from `m` with zero counters terminates without fault, and in every final state
    each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl, fun _ => .rfl, fun c => by
      show iprop(StableHlo.held (c : Thread nD τ) (Pipeline.ucRefs τ sig) (B6 m ρ c) ∗ R c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c => h c)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (kept_main_arg0 m ρ c),
     (h c _ (mem_uc main_arg1 (by decide))).trans (kept_main_arg1 m ρ c),
     (h c _ (mem_uc main_arg2 (by decide))).trans (kept_main_arg2 m ρ c),
     (h c _ (mem_uc main_arg3 (by decide))).trans (kept_main_arg3 m ρ c),
     (h c _ (mem_uc main_arg4 (by decide))).trans (kept_main_arg4 m ρ c),
     (h c _ (mem_uc main_arg5 (by decide))).trans (kept_main_arg5 m ρ c),
     (h c _ (mem_uc main_arg6 (by decide))).trans (kept_main_arg6 m ρ c),
     (h c _ (mem_uc main_arg7 (by decide))).trans (kept_main_arg7 m ρ c),
     (h c _ (mem_uc main_arg8 (by decide))).trans (kept_main_arg8 m ρ c)⟩) (run_all m ρ)

end Cert.Kernel.Whole

end
-- ==== Proof.ProjPoint.lean ====
/-
  The projection region, one grid point at a time, at any float instance.
  A grid point reads a block of 3072 rows of each of the three gathered operands, the three 768x768 weight
  blocks and the bias row, and stores one 3072x768 block of the result: the sum of the three products plus the
  bias. Stated here: what the point leaves in the result's staging buffer as a function of the blocks it read,
  that the body runs without fault on whole staging buffers, and the pipeline's proof data built from that,
  at a parameter `V` for the buffer contents on entry to the region.
-/
import proofs.«164025_j25692494364677_2_alg».proof.Proof.Gen.KernelIdeal.Launch
import proofs.«164025_j25692494364677_2_alg».proof.Proof.Gen.KernelIdeal.Skeleton
import proofs.«164025_j25692494364677_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The block of operand `w` that grid point `t` works on, cut out of the operand's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0 is only read: whatever point `t` finds in its staging buffer is the operand's block at `t`,
    whether the block was copied in at `t` or earlier (its index has then not moved). -/
theorem found0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Operand 1 is only read: whatever point `t` finds in its staging buffer is the operand's block at `t`,
    whether the block was copied in at `t` or earlier (its index has then not moved). -/
theorem found1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Operand 2 is only read: whatever point `t` finds in its staging buffer is the operand's block at `t`,
    whether the block was copied in at `t` or earlier (its index has then not moved). -/
theorem found2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Operand 3 is only read: whatever point `t` finds in its staging buffer is the operand's block at `t`,
    whether the block was copied in at `t` or earlier (its index has then not moved). -/
theorem found3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Operand 4 is only read: whatever point `t` finds in its staging buffer is the operand's block at `t`,
    whether the block was copied in at `t` or earlier (its index has then not moved). -/
theorem found4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Operand 5 is only read: whatever point `t` finds in its staging buffer is the operand's block at `t`,
    whether the block was copied in at `t` or earlier (its index has then not moved). -/
theorem found5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Operand 6 is only read: whatever point `t` finds in its staging buffer is the operand's block at `t`,
    whether the block was copied in at `t` or earlier (its index has then not moved). -/
theorem found6_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-- What one grid point leaves in the result's staging buffer, as a function of the operand blocks it read: the
    body's single store, over the whole buffer, of the payload of its loads. -/
def stored (x0 : Vec F S3072x768 .bf16) (x1 : Vec F S3072x768 .bf16) (x2 : Vec F S3072x768 .bf16) (x3 : Vec F S768x768 .bf16) (x4 : Vec F S768x768 .bf16) (x5 : Vec F S768x768 .bf16) (x6 : Vec F S1x768 .f32) : Vec F S3072x768 .f32 :=
  View.canon [⟨(Rect.unit (s := S3072x768) ![0, 0] S3072x768.size inb_S3072x768_S3072x768_0_0), k0_pay1 (View.ld x0 (Rect.unit (s := S3072x768) ![0, 0] S3072x768.size inb_S3072x768_S3072x768_0_0)) (View.ld x3 (Rect.unit (s := S768x768) ![0, 0] S768x768.size inb_S768x768_S768x768_0_0)) (View.ld x1 (Rect.unit (s := S3072x768) ![0, 0] S3072x768.size inb_S3072x768_S3072x768_0_0)) (View.ld x4 (Rect.unit (s := S768x768) ![0, 0] S768x768.size inb_S768x768_S768x768_0_0)) (View.ld x2 (Rect.unit (s := S3072x768) ![0, 0] S3072x768.size inb_S3072x768_S3072x768_0_0)) (View.ld x5 (Rect.unit (s := S768x768) ![0, 0] S768x768.size inb_S768x768_S768x768_0_0)) (View.ld x6 (Rect.unit (s := S1x768) ![0, 0] S1x768.size inb_S1x768_S1x768_0_0))⟩]

/-- That one store covers the buffer. -/
theorem stored_covers (p0 : Vec F S3072x768 .f32) (y : S3072x768.Idx) :
    ∃ pc ∈ ([⟨(Rect.unit (s := S3072x768) ![0, 0] S3072x768.size inb_S3072x768_S3072x768_0_0), p0⟩] : List (View.Piece (Elt F) S3072x768 .f32)), y ∈ pc.1.set :=
  View.cover_of_tiled [⟨(Rect.unit (s := S3072x768) ![0, 0] S3072x768.size inb_S3072x768_S3072x768_0_0), p0⟩] S3072x768.size (by rfl) y

set_option maxHeartbeats 4000000 in
/-- The body on whole staging buffers: with the operand buffers at `x…` and the result buffer at anything, it runs
    without fault, leaves the operand buffers as they were and the result buffer at `stored` of them. -/
theorem body_runs (c : Dev nD) (E : Set ℕ) (i : grid0.Coords) (a0 : Memref sig .tc .vmem S3072x768 .bf16) (ha0 : a0.IsWhole) (a1 : Memref sig .tc .vmem S3072x768 .bf16) (ha1 : a1.IsWhole) (a2 : Memref sig .tc .vmem S3072x768 .bf16) (ha2 : a2.IsWhole) (a3 : Memref sig .tc .vmem S768x768 .bf16) (ha3 : a3.IsWhole) (a4 : Memref sig .tc .vmem S768x768 .bf16) (ha4 : a4.IsWhole) (a5 : Memref sig .tc .vmem S768x768 .bf16) (ha5 : a5.IsWhole) (a6 : Memref sig .tc .vmem S1x768 .f32) (ha6 : a6.IsWhole) (a7 : Memref sig .tc .vmem S3072x768 .f32) (ha7 : a7.IsWhole)
    (x0 : Vec F S3072x768 .bf16) (x1 : Vec F S3072x768 .bf16) (x2 : Vec F S3072x768 .bf16) (x3 : Vec F S768x768 .bf16) (x4 : Vec F S768x768 .bf16) (x5 : Vec F S768x768 .bf16) (x6 : Vec F S1x768 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (stored x0 x1 x2 x3 x4 x5 x6)) -∗ K ⟨⟩))
      ⊢ wp frame (wpE (defs₀ (F := F)) Variants.none c none) E (cc0__proj_kernel i a0 ha0 a1 ha1 a2 ha2 a3 ha3 a4 ha4 a5 ha5 a6 ha6 a7 ha7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_covers _)

/-- The pipeline's proof data on core `c`: the operands' arrays as the region finds them; after the body at point
    `t` each operand buffer still at its block and the result buffer at `stored` of the blocks; the invariant holds only
    what the body never touches; nothing owed, full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => stored (blockAt V c 0 t) (blockAt V c 1 t) (blockAt V c 2 t) (blockAt V c 3 t) (blockAt V c 4 t) (blockAt V c 5 t) (blockAt V c 6 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) : (dat V c).after 3 t = blockAt V c 3 t := by dsimp only [dat]
theorem after4 (c : Dev nD) (t : Fin cfg0.N) : (dat V c).after 4 t = blockAt V c 4 t := by dsimp only [dat]
theorem after5 (c : Dev nD) (t : Fin cfg0.N) : (dat V c).after 5 t = blockAt V c 5 t := by dsimp only [dat]
theorem after6 (c : Dev nD) (t : Fin cfg0.N) : (dat V c).after 6 t = blockAt V c 6 t := by dsimp only [dat]
theorem after7 (c : Dev nD) (t : Fin cfg0.N) : (dat V c).after 7 t = stored (blockAt V c 0 t) (blockAt V c 1 t) (blockAt V c 2 t) (blockAt V c 3 t) (blockAt V c 4 t) (blockAt V c 5 t) (blockAt V c 6 t) := by dsimp only [dat]

theorem found0 (c : Dev nD) (t : Fin cfg0.N) (d) : (dat V c).before 0 t d = blockAt V c 0 t :=
  found0_of V (dat V c) (dat_A V c 0) (after0 V c) t d
theorem found1 (c : Dev nD) (t : Fin cfg0.N) (d) : (dat V c).before 1 t d = blockAt V c 1 t :=
  found1_of V (dat V c) (dat_A V c 1) (after1 V c) t d
theorem found2 (c : Dev nD) (t : Fin cfg0.N) (d) : (dat V c).before 2 t d = blockAt V c 2 t :=
  found2_of V (dat V c) (dat_A V c 2) (after2 V c) t d
theorem found3 (c : Dev nD) (t : Fin cfg0.N) (d) : (dat V c).before 3 t d = blockAt V c 3 t :=
  found3_of V (dat V c) (dat_A V c 3) (after3 V c) t d
theorem found4 (c : Dev nD) (t : Fin cfg0.N) (d) : (dat V c).before 4 t d = blockAt V c 4 t :=
  found4_of V (dat V c) (dat_A V c 4) (after4 V c) t d
theorem found5 (c : Dev nD) (t : Fin cfg0.N) (d) : (dat V c).before 5 t d = blockAt V c 5 t :=
  found5_of V (dat V c) (dat_A V c 5) (after5 V c) t d
theorem found6 (c : Dev nD) (t : Fin cfg0.N) (d) : (dat V c).before 6 t d = blockAt V c 6 t :=
  found6_of V (dat V c) (dat_A V c 6) (after6 V c) t d

/-- What the body is handed at point `t`, window by window, -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it hands back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 2000000 in
/-- The body at any point: the operand buffers hold their blocks, so `body_runs` applies; the invariant and the
    core's debts pass through untouched. -/
theorem body_at (c : Dev nD) (t : Fin cfg0.N) :
    handed V c t ⊢ wp frame (wpE (defs₀ (F := F)) Variants.none c none) Set.univ (bodyAt0 t) (fun _ => returned V c t) := by
  unfold handed returned bodyAt0
  simp only [found0, found1, found2, found3, found4, found5, found6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ _ _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's obligation on the body, at every point. -/
theorem body_obligation (c : Dev nD) : BodyObligation (dat (F := F) V c) (defs₀ (F := F)) Variants.none () Set.univ := fun t => by
  rw [bigSep_W0, bigSep_W0]
  exact body_at V c t

end Cert.KernelIdeal.Proj

end
-- ==== Proof.MaskPoint.lean ====
/-
  The membership-mask region, one grid point at a time, at any float instance.
  A grid point reads the whole 8x64 table of sentence ids and a block of 4096 head ids and 4096 tail ids, and
  stores the 8x4096 block of flags "some id of sentence b equals the head id or the tail id of triple q".
  Stated here: what the point leaves in the result's staging buffer as a function of the blocks it read, that the
  body runs without fault on whole staging buffers, and the pipeline's proof data built from that, at a
  parameter `V` for the buffer contents on entry to the region.
-/
import proofs.«164025_j25692494364677_2_alg».proof.Proof.Gen.KernelIdeal.Launch
import proofs.«164025_j25692494364677_2_alg».proof.Proof.Gen.KernelIdeal.Skeleton
import proofs.«164025_j25692494364677_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mask

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The block of operand `w` that grid point `t` works on, cut out of the operand's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand 0 is only read: whatever point `t` finds in its staging buffer is the operand's block at `t`,
    whether the block was copied in at `t` or earlier (its index has then not moved). -/
theorem found0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Operand 1 is only read: whatever point `t` finds in its staging buffer is the operand's block at `t`,
    whether the block was copied in at `t` or earlier (its index has then not moved). -/
theorem found1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Operand 2 is only read: whatever point `t` finds in its staging buffer is the operand's block at `t`,
    whether the block was copied in at `t` or earlier (its index has then not moved). -/
theorem found2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- What one grid point leaves in the result's staging buffer, as a function of the operand blocks it read: the
    body's single store, over the whole buffer, of the payload of its loads. -/
def stored (x0 : Vec F S8x64 .i32) (x1 : Vec F S1x4096 .i32) (x2 : Vec F S1x4096 .i32) : Vec F S8x4096 .i32 :=
  View.canon [⟨(Rect.unit (s := S8x4096) ![0, 0] S8x4096.size inb_S8x4096_S8x4096_0_0), k1_pay1 (View.ld x0 (Rect.unit (s := S8x64) ![0, 0] S8x64.size inb_S8x64_S8x64_0_0)) (View.ld x1 (Rect.unit (s := S1x4096) ![0, 0] S1x4096.size inb_S1x4096_S1x4096_0_0)) (View.ld x2 (Rect.unit (s := S1x4096) ![0, 0] S1x4096.size inb_S1x4096_S1x4096_0_0))⟩]

/-- That one store covers the buffer. -/
theorem stored_covers (p0 : Vec F S8x4096 .i32) (y : S8x4096.Idx) :
    ∃ pc ∈ ([⟨(Rect.unit (s := S8x4096) ![0, 0] S8x4096.size inb_S8x4096_S8x4096_0_0), p0⟩] : List (View.Piece (Elt F) S8x4096 .i32)), y ∈ pc.1.set :=
  View.cover_of_tiled [⟨(Rect.unit (s := S8x4096) ![0, 0] S8x4096.size inb_S8x4096_S8x4096_0_0), p0⟩] S8x4096.size (by rfl) y

set_option maxHeartbeats 4000000 in
/-- The body on whole staging buffers: with the operand buffers at `x…` and the result buffer at anything, it runs
    without fault, leaves the operand buffers as they were and the result buffer at `stored` of them. -/
theorem body_runs (c : Dev nD) (E : Set ℕ) (i : grid1.Coords) (a0 : Memref sig .tc .vmem S8x64 .i32) (ha0 : a0.IsWhole) (a1 : Memref sig .tc .vmem S1x4096 .i32) (ha1 : a1.IsWhole) (a2 : Memref sig .tc .vmem S1x4096 .i32) (ha2 : a2.IsWhole) (a3 : Memref sig .tc .vmem S8x4096 .i32) (ha3 : a3.IsWhole)
    (x0 : Vec F S8x64 .i32) (x1 : Vec F S1x4096 .i32) (x2 : Vec F S1x4096 .i32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored x0 x1 x2)) -∗ K ⟨⟩))
      ⊢ wp frame (wpE (defs₀ (F := F)) Variants.none c none) E (cc1__mask_kernel i a0 ha0 a1 ha1 a2 ha2 a3 ha3) K := by
  simp only [cc1__mask_kernel_eq_skeleton]; unfold cc1__mask_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-- The pipeline's proof data on core `c`: the operands' arrays as the region finds them; after the body at point
    `t` each operand buffer still at its block and the result buffer at `stored` of the blocks; the invariant holds only
    what the body never touches; nothing owed, full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = stored (blockAt V c 0 t) (blockAt V c 1 t) (blockAt V c 2 t) := by dsimp only [dat]

theorem found0 (c : Dev nD) (t : Fin cfg1.N) (d) : (dat V c).before 0 t d = blockAt V c 0 t :=
  found0_of V (dat V c) (dat_A V c 0) (after0 V c) t d
theorem found1 (c : Dev nD) (t : Fin cfg1.N) (d) : (dat V c).before 1 t d = blockAt V c 1 t :=
  found1_of V (dat V c) (dat_A V c 1) (after1 V c) t d
theorem found2 (c : Dev nD) (t : Fin cfg1.N) (d) : (dat V c).before 2 t d = blockAt V c 2 t :=
  found2_of V (dat V c) (dat_A V c 2) (after2 V c) t d

/-- What the body is handed at point `t`, window by window, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it hands back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

set_option maxHeartbeats 2000000 in
/-- The body at any point: the operand buffers hold their blocks, so `body_runs` applies; the invariant and the
    core's debts pass through untouched. -/
theorem body_at (c : Dev nD) (t : Fin cfg1.N) :
    handed V c t ⊢ wp frame (wpE (defs₀ (F := F)) Variants.none c none) Set.univ (bodyAt1 t) (fun _ => returned V c t) := by
  unfold handed returned bodyAt1
  simp only [found0, found1, found2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_runs c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's obligation on the body, at every point. -/
theorem body_obligation (c : Dev nD) : BodyObligation (dat (F := F) V c) (defs₀ (F := F)) Variants.none () Set.univ := fun t => by
  rw [bigSep_W1, bigSep_W1]
  exact body_at V c t

end Cert.KernelIdeal.Mask

end
-- ==== Proof.WholeRun.lean ====
/-
  The whole run of @main, at any float instance: a first stretch of host operations (the gathers, the
  concatenations, the weight slices), the projection region, a second stretch (the id gathers and the triple-id
  table), the mask region, and the closing comparison. The buffer contents at each boundary are named as a fold from
  the launch memory: a host stretch applies its operations' functions, a region replaces its operands' arrays by
  what its write-backs leave and keeps every other buffer. The launch theorem then says that every weakly fair
  execution terminates without fault in a state whose unscoped buffers are the last boundary's contents.
-/
import proofs.«164025_j25692494364677_2_alg».proof.Proof.ProjPoint
import proofs.«164025_j25692494364677_2_alg».proof.Proof.MaskPoint

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first sixty host operations. -/
abbrev B1 : Dev nD → Valuation τ sig (Elt F) := fun c => StableHlo.after main_part0_ops0 (B0 m ρ c)
/-- After the next eight: what the projection region is entered from. -/
abbrev B2 : Dev nD → Valuation τ sig (Elt F) := fun c => StableHlo.after main_part1_ops0 (B1 m ρ c)
abbrev E2 : (c : Dev nD) → (b : Ref sig .tc) → Buf (Elt F) ((c : Thread nD τ).loc b) := fun c b => B2 m ρ c b
/-- When the projection region is left: its operands' arrays at what the write-backs leave, every other buffer as
    entered. -/
def B3 (c : Dev nD) : Valuation τ sig (Elt F) :=
  Pipeline.withArrays spec0 c (B2 m ρ c) fun w => (Proj.dat (E2 m ρ) c).arrAt w cfg0.N
theorem B3_arr (c : Dev nD) (w : Fin cfg0.W) :
    B3 m ρ c (Proc.devRef .tc (Pipeline.arrRef spec0 w)) = (Proj.dat (E2 m ρ) c).arrAt w cfg0.N := by
  unfold B3; exact Pipeline.withArrays_arr spec0 launch0.win.arr_inj c _ _ w
theorem B3_of_ne (c : Dev nD) (b : Ref sig .tc) (hb : ∀ w, Pipeline.arrRef spec0 w ≠ b) :
    B3 m ρ c (Proc.devRef .tc b) = B2 m ρ c (Proc.devRef .tc b) := by
  unfold B3; exact Pipeline.withArrays_of_ne spec0 c _ _ b hb
abbrev X3 : (c : Dev nD) → (b : Ref sig .tc) → Buf (Elt F) ((c : Thread nD τ).loc b) := fun c b => B3 m ρ c b
theorem left0 (c : Dev nD) (w : Fin cfg0.W) : (Proj.dat (E2 m ρ) c).arrAt w cfg0.N = X3 m ρ c (Pipeline.arrRef spec0 w) :=
  (B3_arr m ρ c w).symm
theorem rest0 (c : Dev nD) : ∀ b, b ∉ Finset.univ.image (Pipeline.arrRef spec0) → X3 m ρ c b = E2 m ρ c b :=
  fun b hb => B3_of_ne m ρ c b fun w e => hb (Finset.mem_image.mpr ⟨w, Finset.mem_univ _, e⟩)
/-- After the second stretch: what the mask region is entered from. -/
abbrev B4 : Dev nD → Valuation τ sig (Elt F) := fun c => StableHlo.after main_part1_ops1 (B3 m ρ c)
abbrev E4 : (c : Dev nD) → (b : Ref sig .tc) → Buf (Elt F) ((c : Thread nD τ).loc b) := fun c b => B4 m ρ c b
/-- When the mask region is left. -/
def B5 (c : Dev nD) : Valuation τ sig (Elt F) :=
  Pipeline.withArrays spec1 c (B4 m ρ c) fun w => (Mask.dat (E4 m ρ) c).arrAt w cfg1.N
theorem B5_arr (c : Dev nD) (w : Fin cfg1.W) :
    B5 m ρ c (Proc.devRef .tc (Pipeline.arrRef spec1 w)) = (Mask.dat (E4 m ρ) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m ρ c (Proc.devRef .tc b) = B4 m ρ c (Proc.devRef .tc b) := by
  unfold B5; exact Pipeline.withArrays_of_ne spec1 c _ _ b hb
abbrev X5 : (c : Dev nD) → (b : Ref sig .tc) → Buf (Elt F) ((c : Thread nD τ).loc b) := fun c b => B5 m ρ c b
theorem left1 (c : Dev nD) (w : Fin cfg1.W) : (Mask.dat (E4 m ρ) c).arrAt w cfg1.N = X5 m ρ c (Pipeline.arrRef spec1 w) :=
  (B5_arr m ρ c w).symm
theorem rest1 (c : Dev nD) : ∀ b, b ∉ Finset.univ.image (Pipeline.arrRef spec1) → X5 m ρ c b = E4 m ρ c b :=
  fun b hb => B5_of_ne m ρ c b fun w e => hb (Finset.mem_image.mpr ⟨w, Finset.mem_univ _, e⟩)
/-- After the closing comparison: what @main returns from. -/
abbrev B6 : Dev nD → Valuation τ sig (Elt F) := fun c => StableHlo.after main_part1_ops2 (B5 m ρ c)

/-! ## What each stretch writes -/

/-- The buffers the stretch writes, as a list of references. -/
abbrev opsA_written : List (Ref sig .tc) := [main_c, main_v0, main_v1, main_c_0, main_v2, main_v3, main_v4, main_v5, main_v6, main_v7, main_v8, main_v9, main_v10, main_v11, main_v12, main_v13, main_c_1, main_v14, main_v15, main_c_2, main_v16, main_v17, main_v18, main_v19, main_v20, main_v21, main_v22, main_v23, main_v24, main_v25, main_v26, main_v27, main_v28, main_v29, main_v30, main_v31, main_c_3, main_v32, main_v33, main_v34, main_v35, main_v36, main_v37, main_c_4, main_v38, main_v39, main_c_5, main_v40, main_v41, main_v42, main_v43, main_v44, main_c_6, main_v45, main_v46, main_c_7, main_v47, main_v48, main_v49, main_v50]
theorem opsA_writes : (main_part0_ops0 : List (HloOp τ sig (Elt F))).Forall fun op => op.writes ⊆ ((opsA_written).map (Proc.devRef (τ := τ) .tc)).toFinset := by
  simp only [main_part0_ops0, List.Forall, StableHlo.nullary_writes, StableHlo.unary_writes, StableHlo.binary_writes, StableHlo.ternary_writes,
    StableHlo.reshape_writes, StableHlo.nary_writes, Finset.singleton_subset_iff]
  repeat' apply And.intro
  all_goals exact List.mem_toFinset.mpr (List.mem_map_of_mem (by decide))
/-- No operation of the stretch allocates a buffer. -/
theorem opsA_fresh : (main_part0_ops0 : List (HloOp τ sig (Elt F))).Forall fun op => op.fresh = ∅ := by
  simp only [List.Forall]; repeat' constructor

/-- The buffers the stretch writes, as a list of references. -/
abbrev opsB_written : List (Ref sig .tc) := [main_v51, main_v52, main_v53, main_v54, main_v55, main_v56, main_v57, main_v58]
theorem opsB_writes : (main_part1_ops0 : List (HloOp τ sig (Elt F))).Forall fun op => op.writes ⊆ ((opsB_written).map (Proc.devRef (τ := τ) .tc)).toFinset := by
  simp only [main_part1_ops0, List.Forall, StableHlo.nullary_writes, StableHlo.unary_writes, StableHlo.binary_writes, StableHlo.ternary_writes,
    StableHlo.reshape_writes, StableHlo.nary_writes, Finset.singleton_subset_iff]
  repeat' apply And.intro
  all_goals exact List.mem_toFinset.mpr (List.mem_map_of_mem (by decide))
/-- No operation of the stretch allocates a buffer. -/
theorem opsB_fresh : (main_part1_ops0 : List (HloOp τ sig (Elt F))).Forall fun op => op.fresh = ∅ := by
  simp only [List.Forall]; repeat' constructor

/-- The buffers the stretch writes, as a list of references. -/
abbrev opsC_written : List (Ref sig .tc) := [main_c_8, main_v60, main_v61, main_c_9, main_v62, main_v63, main_v64, main_v65, main_v66, main_c_10, main_v67, main_v68, main_c_11, main_v69, main_v70, main_v71, main_v72, main_v73, main_v74, main_v75, main_v76, main_v77, main_v78, main_v79]
theorem opsC_writes : (main_part1_ops1 : List (HloOp τ sig (Elt F))).Forall fun op => op.writes ⊆ ((opsC_written).map (Proc.devRef (τ := τ) .tc)).toFinset := by
  simp only [main_part1_ops1, List.Forall, StableHlo.nullary_writes, StableHlo.unary_writes, StableHlo.binary_writes, StableHlo.ternary_writes,
    StableHlo.reshape_writes, StableHlo.nary_writes, Finset.singleton_subset_iff]
  repeat' apply And.intro
  all_goals exact List.mem_toFinset.mpr (List.mem_map_of_mem (by decide))
/-- No operation of the stretch allocates a buffer. -/
theorem opsC_fresh : (main_part1_ops1 : List (HloOp τ sig (Elt F))).Forall fun op => op.fresh = ∅ := by
  simp only [List.Forall]; repeat' constructor

/-- The buffers the stretch writes, as a list of references. -/
abbrev opsD_written : List (Ref sig .tc) := [main_c_12, main_v81, main_v82, main_v83]
theorem opsD_writes : (main_part1_ops2 : List (HloOp τ sig (Elt F))).Forall fun op => op.writes ⊆ ((opsD_written).map (Proc.devRef (τ := τ) .tc)).toFinset := by
  simp only [main_part1_ops2, List.Forall, StableHlo.nullary_writes, StableHlo.unary_writes, StableHlo.binary_writes, StableHlo.ternary_writes,
    StableHlo.reshape_writes, StableHlo.nary_writes, Finset.singleton_subset_iff]
  repeat' apply And.intro
  all_goals exact List.mem_toFinset.mpr (List.mem_map_of_mem (by decide))
/-- No operation of the stretch allocates a buffer. -/
theorem opsD_fresh : (main_part1_ops2 : List (HloOp τ sig (Elt F))).Forall fun op => op.fresh = ∅ := by
  simp only [List.Forall]; repeat' constructor

/-! ## The arguments end as launched: no stretch writes one, and a region only reads the one it is handed -/

theorem kept_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := StableHlo.after_of_writes_sub _ _ opsD_writes (by decide)
    _ = B4 m ρ c (Proc.devRef .tc main_arg0) := B5_of_ne m ρ c main_arg0 (by decide)
    _ = B3 m ρ c (Proc.devRef .tc main_arg0) := StableHlo.after_of_writes_sub _ _ opsC_writes (by decide)
    _ = B2 m ρ c (Proc.devRef .tc main_arg0) := B3_of_ne m ρ c main_arg0 (by decide)
    _ = B1 m ρ c (Proc.devRef .tc main_arg0) := StableHlo.after_of_writes_sub _ _ opsB_writes (by decide)
    _ = B0 m ρ c (Proc.devRef .tc main_arg0) := StableHlo.after_of_writes_sub _ _ opsA_writes (by decide)
    _ = m ((c : Thread nD τ).loc main_arg0) := rfl

theorem kept_main_arg1 (c : Dev nD) : B6 m ρ c (Proc.devRef .tc main_arg1) = m ((c : Thread nD τ).loc main_arg1) :=
  calc B6 m ρ c (Proc.devRef .tc main_arg1)
    _ = B5 m ρ c (Proc.devRef .tc main_arg1) := StableHlo.after_of_writes_sub _ _ opsD_writes (by decide)
    _ = B4 m ρ c (Proc.devRef .tc main_arg1) := B5_of_ne m ρ c main_arg1 (by decide)
    _ = B3 m ρ c (Proc.devRef .tc main_arg1) := StableHlo.after_of_writes_sub _ _ opsC_writes (by decide)
    _ = B2 m ρ c (Proc.devRef .tc main_arg1) := B3_of_ne m ρ c main_arg1 (by decide)
    _ = B1 m ρ c (Proc.devRef .tc main_arg1) := StableHlo.after_of_writes_sub _ _ opsB_writes (by decide)
    _ = B0 m ρ c (Proc.devRef .tc main_arg1) := StableHlo.after_of_writes_sub _ _ opsA_writes (by decide)
    _ = m ((c : Thread nD τ).loc main_arg1) := rfl

theorem kept_main_arg2 (c : Dev nD) : B6 m ρ c (Proc.devRef .tc main_arg2) = m ((c : Thread nD τ).loc main_arg2) :=
  calc B6 m ρ c (Proc.devRef .tc main_arg2)
    _ = B5 m ρ c (Proc.devRef .tc main_arg2) := StableHlo.after_of_writes_sub _ _ opsD_writes (by decide)
    _ = B4 m ρ c (Proc.devRef .tc main_arg2) := B5_of_ne m ρ c main_arg2 (by decide)
    _ = B3 m ρ c (Proc.devRef .tc main_arg2) := StableHlo.after_of_writes_sub _ _ opsC_writes (by decide)
    _ = B2 m ρ c (Proc.devRef .tc main_arg2) := B3_of_ne m ρ c main_arg2 (by decide)
    _ = B1 m ρ c (Proc.devRef .tc main_arg2) := StableHlo.after_of_writes_sub _ _ opsB_writes (by decide)
    _ = B0 m ρ c (Proc.devRef .tc main_arg2) := StableHlo.after_of_writes_sub _ _ opsA_writes (by decide)
    _ = m ((c : Thread nD τ).loc main_arg2) := rfl

theorem kept_main_arg3 (c : Dev nD) : B6 m ρ c (Proc.devRef .tc main_arg3) = m ((c : Thread nD τ).loc main_arg3) :=
  calc B6 m ρ c (Proc.devRef .tc main_arg3)
    _ = B5 m ρ c (Proc.devRef .tc main_arg3) := StableHlo.after_of_writes_sub _ _ opsD_writes (by decide)
    _ = B4 m ρ c (Proc.devRef .tc main_arg3) := (B5_arr m ρ c 0).trans (((Mask.dat (E4 m ρ) c).arrAt_in 0 rfl _).trans (Mask.dat_A (E4 m ρ) c 0))
    _ = B3 m ρ c (Proc.devRef .tc main_arg3) := StableHlo.after_of_writes_sub _ _ opsC_writes (by decide)
    _ = B2 m ρ c (Proc.devRef .tc main_arg3) := B3_of_ne m ρ c main_arg3 (by decide)
    _ = B1 m ρ c (Proc.devRef .tc main_arg3) := StableHlo.after_of_writes_sub _ _ opsB_writes (by decide)
    _ = B0 m ρ c (Proc.devRef .tc main_arg3) := StableHlo.after_of_writes_sub _ _ opsA_writes (by decide)
    _ = m ((c : Thread nD τ).loc main_arg3) := rfl

theorem kept_main_arg4 (c : Dev nD) : B6 m ρ c (Proc.devRef .tc main_arg4) = m ((c : Thread nD τ).loc main_arg4) :=
  calc B6 m ρ c (Proc.devRef .tc main_arg4)
    _ = B5 m ρ c (Proc.devRef .tc main_arg4) := StableHlo.after_of_writes_sub _ _ opsD_writes (by decide)
    _ = B4 m ρ c (Proc.devRef .tc main_arg4) := B5_of_ne m ρ c main_arg4 (by decide)
    _ = B3 m ρ c (Proc.devRef .tc main_arg4) := StableHlo.after_of_writes_sub _ _ opsC_writes (by decide)
    _ = B2 m ρ c (Proc.devRef .tc main_arg4) := B3_of_ne m ρ c main_arg4 (by decide)
    _ = B1 m ρ c (Proc.devRef .tc main_arg4) := StableHlo.after_of_writes_sub _ _ opsB_writes (by decide)
    _ = B0 m ρ c (Proc.devRef .tc main_arg4) := StableHlo.after_of_writes_sub _ _ opsA_writes (by decide)
    _ = m ((c : Thread nD τ).loc main_arg4) := rfl

theorem kept_main_arg5 (c : Dev nD) : B6 m ρ c (Proc.devRef .tc main_arg5) = m ((c : Thread nD τ).loc main_arg5) :=
  calc B6 m ρ c (Proc.devRef .tc main_arg5)
    _ = B5 m ρ c (Proc.devRef .tc main_arg5) := StableHlo.after_of_writes_sub _ _ opsD_writes (by decide)
    _ = B4 m ρ c (Proc.devRef .tc main_arg5) := B5_of_ne m ρ c main_arg5 (by decide)
    _ = B3 m ρ c (Proc.devRef .tc main_arg5) := StableHlo.after_of_writes_sub _ _ opsC_writes (by decide)
    _ = B2 m ρ c (Proc.devRef .tc main_arg5) := B3_of_ne m ρ c main_arg5 (by decide)
    _ = B1 m ρ c (Proc.devRef .tc main_arg5) := StableHlo.after_of_writes_sub _ _ opsB_writes (by decide)
    _ = B0 m ρ c (Proc.devRef .tc main_arg5) := StableHlo.after_of_writes_sub _ _ opsA_writes (by decide)
    _ = m ((c : Thread nD τ).loc main_arg5) := rfl

theorem kept_main_arg6 (c : Dev nD) : B6 m ρ c (Proc.devRef .tc main_arg6) = m ((c : Thread nD τ).loc main_arg6) :=
  calc B6 m ρ c (Proc.devRef .tc main_arg6)
    _ = B5 m ρ c (Proc.devRef .tc main_arg6) := StableHlo.after_of_writes_sub _ _ opsD_writes (by decide)
    _ = B4 m ρ c (Proc.devRef .tc main_arg6) := B5_of_ne m ρ c main_arg6 (by decide)
    _ = B3 m ρ c (Proc.devRef .tc main_arg6) := StableHlo.after_of_writes_sub _ _ opsC_writes (by decide)
    _ = B2 m ρ c (Proc.devRef .tc main_arg6) := B3_of_ne m ρ c main_arg6 (by decide)
    _ = B1 m ρ c (Proc.devRef .tc main_arg6) := StableHlo.after_of_writes_sub _ _ opsB_writes (by decide)
    _ = B0 m ρ c (Proc.devRef .tc main_arg6) := StableHlo.after_of_writes_sub _ _ opsA_writes (by decide)
    _ = m ((c : Thread nD τ).loc main_arg6) := rfl

theorem kept_main_arg7 (c : Dev nD) : B6 m ρ c (Proc.devRef .tc main_arg7) = m ((c : Thread nD τ).loc main_arg7) :=
  calc B6 m ρ c (Proc.devRef .tc main_arg7)
    _ = B5 m ρ c (Proc.devRef .tc main_arg7) := StableHlo.after_of_writes_sub _ _ opsD_writes (by decide)
    _ = B4 m ρ c (Proc.devRef .tc main_arg7) := B5_of_ne m ρ c main_arg7 (by decide)
    _ = B3 m ρ c (Proc.devRef .tc main_arg7) := StableHlo.after_of_writes_sub _ _ opsC_writes (by decide)
    _ = B2 m ρ c (Proc.devRef .tc main_arg7) := B3_of_ne m ρ c main_arg7 (by decide)
    _ = B1 m ρ c (Proc.devRef .tc main_arg7) := StableHlo.after_of_writes_sub _ _ opsB_writes (by decide)
    _ = B0 m ρ c (Proc.devRef .tc main_arg7) := StableHlo.after_of_writes_sub _ _ opsA_writes (by decide)
    _ = m ((c : Thread nD τ).loc main_arg7) := rfl

theorem kept_main_arg8 (c : Dev nD) : B6 m ρ c (Proc.devRef .tc main_arg8) = m ((c : Thread nD τ).loc main_arg8) :=
  calc B6 m ρ c (Proc.devRef .tc main_arg8)
    _ = B5 m ρ c (Proc.devRef .tc main_arg8) := StableHlo.after_of_writes_sub _ _ opsD_writes (by decide)
    _ = B4 m ρ c (Proc.devRef .tc main_arg8) := B5_of_ne m ρ c main_arg8 (by decide)
    _ = B3 m ρ c (Proc.devRef .tc main_arg8) := StableHlo.after_of_writes_sub _ _ opsC_writes (by decide)
    _ = B2 m ρ c (Proc.devRef .tc main_arg8) := B3_of_ne m ρ c main_arg8 (by decide)
    _ = B1 m ρ c (Proc.devRef .tc main_arg8) := StableHlo.after_of_writes_sub _ _ opsB_writes (by decide)
    _ = B0 m ρ c (Proc.devRef .tc main_arg8) := StableHlo.after_of_writes_sub _ _ opsA_writes (by decide)
    _ = m ((c : Thread nD τ).loc main_arg8) := rfl

/-! ## The proof data of both pipelines and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Proj.dat (E2 m ρ) c
  | ⟨1, _⟩ => fun c => Mask.dat (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tend (c : Dev nD) : sProp 𝕄 := iprop(StableHlo.held (c : Thread nD τ) (Pipeline.ucRefs τ sig) (B6 m ρ c) ∗ ∃ r, prngReg c r)

/-! ## The regions as segments -/

set_option backward.isDefEq.respectTransparency.types false in
/-- Region 0 over the thread state: its operands' arrays are split out of the unscoped buffers on entry and put
    back, at what the write-backs leave, on exit; the generator register goes into the invariant and comes back;
    nothing is owed; the kernel has no semaphore of its own. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E2 m ρ) c).loose
  hwaits := Pipeline.hwaits_of_owed_zero _ _ _ _ L lv 0 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec0 c (E2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E2 m ρ c) (X3 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its operands' arrays are split out of the unscoped buffers on entry and put
    back, at what the write-backs leave, on exit; the generator register goes into the invariant and comes back;
    nothing is owed; the kernel has no semaphore of its own. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Mask.body_obligation (E4 m ρ) c).loose
  hwaits := Pipeline.hwaits_of_owed_zero _ _ _ _ L lv 1 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec1 c (E4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E4 m ρ c) (X5 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (stretch main_part0_ops0 main_part0_ops0_sub opsA_fresh (B0 m ρ)),
    .host (stretch main_part1_ops0 main_part1_ops0_sub opsB_fresh (B1 m ρ)),
    .region (region0 m ρ),
    .host (stretch main_part1_ops1 main_part1_ops1_sub opsC_fresh (B3 m ρ)),
    .region (region1 m ρ),
    .host (stretch main_part1_ops2 main_part1_ops2_sub opsD_fresh (B5 m ρ)) ]
/-- @main is the run of these segments. -/
theorem main_is_segs (c : Dev nD) : main (F := F) c = Pipeline.Seg.run (segs m ρ) := (main_chain_windows c).trans (by chain_rfl)

set_option backward.isDefEq.respectTransparency.types false in
/-- Every weakly fair execution of @main from `m` with zero counters terminates without fault, and in every final state
    each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl, fun _ => .rfl, fun c => by
      show iprop(StableHlo.held (c : Thread nD τ) (Pipeline.ucRefs τ sig) (B6 m ρ c) ∗ R c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c => h c)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (kept_main_arg0 m ρ c),
     (h c _ (mem_uc main_arg1 (by decide))).trans (kept_main_arg1 m ρ c),
     (h c _ (mem_uc main_arg2 (by decide))).trans (kept_main_arg2 m ρ c),
     (h c _ (mem_uc main_arg3 (by decide))).trans (kept_main_arg3 m ρ c),
     (h c _ (mem_uc main_arg4 (by decide))).trans (kept_main_arg4 m ρ c),
     (h c _ (mem_uc main_arg5 (by decide))).trans (kept_main_arg5 m ρ c),
     (h c _ (mem_uc main_arg6 (by decide))).trans (kept_main_arg6 m ρ c),
     (h c _ (mem_uc main_arg7 (by decide))).trans (kept_main_arg7 m ρ c),
     (h c _ (mem_uc main_arg8 (by decide))).trans (kept_main_arg8 m ρ c)⟩) (run_all m ρ)

end Cert.KernelIdeal.Whole

end
-- ==== Proof.ProjectionEntry.lean ====
/- The projection kernel's stored value, one entry at a time: three [3072,768] x [768,768] products
   accumulated from zero, summed, plus the bias row broadcast down the rows. At the ideal values entry
   (r, k) is the three inner products over the 768 contraction coordinates plus the bias at k. -/
import proofs.«164025_j25692494364677_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ProjectionEntry

open Cert.KernelIdeal Cert.KernelIdeal.Gen Idealize.ShloMosaic Idealize.SL.Sem Idealize.ShloMosaic.ValueIdx

/-- The left operand's row coordinate is the output's row. -/
theorem lhs_row (i : S3072x768.Idx) (q : dot_S3072x768_S768x768_S3072x768_1_0_0_1_n_n.contr.Idx) :
    (dot_S3072x768_S768x768_S3072x768_1_0_0_1_n_n.lhsIdx i q 0).val = (i 0).val := by
  unfold DotDims.lhsIdx
  rw [dif_neg (show ¬(0 : Fin S3072x768.rank) ∈ dot_S3072x768_S768x768_S3072x768_1_0_0_1_n_n.lhsBatch by decide), dif_pos (show (0 : Fin S3072x768.rank) ∈ dot_S3072x768_S768x768_S3072x768_1_0_0_1_n_n.lhsNonContracting by decide)]
  rfl
/-- The left operand's column coordinate is the contraction coordinate. -/
theorem lhs_col (i : S3072x768.Idx) (q : dot_S3072x768_S768x768_S3072x768_1_0_0_1_n_n.contr.Idx) :
    (dot_S3072x768_S768x768_S3072x768_1_0_0_1_n_n.lhsIdx i q 1).val = (q ⟨0, by decide⟩).val :=
  dot_S3072x768_S768x768_S3072x768_1_0_0_1_n_n.lhsIdx_val_of_single rfl i q
/-- The right operand's row coordinate is the contraction coordinate. -/
theorem rhs_row (i : S3072x768.Idx) (q : dot_S3072x768_S768x768_S3072x768_1_0_0_1_n_n.contr.Idx) :
    (dot_S3072x768_S768x768_S3072x768_1_0_0_1_n_n.rhsIdx i q 0).val = (q ⟨0, by decide⟩).val :=
  dot_S3072x768_S768x768_S3072x768_1_0_0_1_n_n.rhsIdx_val_of_single rfl i q
/-- The right operand's column coordinate is the output's column. -/
theorem rhs_col (i : S3072x768.Idx) (q : dot_S3072x768_S768x768_S3072x768_1_0_0_1_n_n.contr.Idx) :
    (dot_S3072x768_S768x768_S3072x768_1_0_0_1_n_n.rhsIdx i q 1).val = (i 1).val := by
  unfold DotDims.rhsIdx
  rw [dif_neg (show ¬(1 : Fin S768x768.rank) ∈ dot_S3072x768_S768x768_S3072x768_1_0_0_1_n_n.rhsBatch by decide), dif_pos (show (1 : Fin S768x768.rank) ∈ dot_S3072x768_S768x768_S3072x768_1_0_0_1_n_n.rhsNonContracting by decide)]
  rfl

/-- One product accumulated from the zero splat, at entry (r, k): the inner product of row r and column k. -/
theorem matmul_zero_entry (x : FVec Ideal S3072x768 .bf16) (w : FVec Ideal S768x768 .bf16) (r : Fin 3072) (k : Fin 768) :
    matmul dot_S3072x768_S768x768_S3072x768_1_0_0_1_n_n none x w (constant (F := Ideal) S3072x768 .f32 0x00000000#32) (ix2 r k)
      = ∑ j : Fin 768, x (ix2 r j) * w (ix2 j k) := by
  simp only [matmul]
  rw [Ideal.matmul_constant_zero_apply, ← Equiv.sum_comp (ValueIdx.contrEquiv1 dot_S3072x768_S768x768_S3072x768_1_0_0_1_n_n 768 rfl rfl).symm]
  refine Finset.sum_congr rfl fun j _ => ?_
  have hj := ValueIdx.contrEquiv1_symm_val dot_S3072x768_S768x768_S3072x768_1_0_0_1_n_n 768 rfl rfl j
  have el : dot_S3072x768_S768x768_S3072x768_1_0_0_1_n_n.lhsIdx (ix2 r k) ((ValueIdx.contrEquiv1 dot_S3072x768_S768x768_S3072x768_1_0_0_1_n_n 768 rfl rfl).symm j) = ix2 r j := funext fun a => Fin.ext (by
    match a with
    | ⟨0, _⟩ => exact lhs_row _ _
    | ⟨1, _⟩ => exact (lhs_col _ _).trans hj)
  have er : dot_S3072x768_S768x768_S3072x768_1_0_0_1_n_n.rhsIdx (ix2 r k) ((ValueIdx.contrEquiv1 dot_S3072x768_S768x768_S3072x768_1_0_0_1_n_n 768 rfl rfl).symm j) = ix2 j k := funext fun a => Fin.ext (by
    match a with
    | ⟨0, _⟩ => exact (rhs_row _ _).trans hj
    | ⟨1, _⟩ => exact rhs_col _ _)
  rw [el, er]

/-- The bias row broadcast down the 3072 rows reads, at (r, k), the row's entry k. -/
theorem bias_broadcast_entry (v : FVec Ideal S1x768 .f32) (r : Fin 3072) (k : Fin 768) :
    broadcastTo S3072x768 v broadcasts_S1x768_S3072x768 (ix2 r k) = v (ix2 (0 : Fin 1) k) :=
  broadcastTo_apply v broadcasts_S1x768_S3072x768 (ix2 r k) (ix2 (0 : Fin 1) k) (fun a => match a with
    | ⟨0, _⟩ => by show 0 = if (1 : Nat) = 1 then 0 else r.val; rw [if_pos rfl]
    | ⟨1, _⟩ => by show k.val = if (768 : Nat) = 1 then 0 else k.val; rw [if_neg (by decide)])

/-- THE PROJECTION PAYLOAD AT AN ENTRY: the three inner products over the contraction coordinate, summed in the
    kernel's order, plus the bias at the column. -/
theorem k0_pay1_entry (v0 v5 v11 : Vec Ideal S3072x768 .bf16) (v2 v7 v13 : Vec Ideal S768x768 .bf16) (v17 : Vec Ideal S1x768 .f32)
    (r : Fin 3072) (k : Fin 768) :
    k0_pay1 (F := Ideal) v0 v2 v5 v7 v11 v13 v17 (ix2 r k)
      = ((∑ j : Fin 768, v0 (ix2 r j) * v2 (ix2 j k)) + (∑ j : Fin 768, v5 (ix2 r j) * v7 (ix2 j k)))
          + (∑ j : Fin 768, v11 (ix2 r j) * v13 (ix2 j k)) + v17 (ix2 (0 : Fin 1) k) := by
  unfold k0_pay1
  simp only [shapeCast_self]
  rw [addf_apply, addf_apply, addf_apply, matmul_zero_entry, matmul_zero_entry, matmul_zero_entry, bias_broadcast_entry]

end Cert.KernelIdeal.ProjectionEntry

end
-- ==== Proof.ProjArray.lean ====
/-
  The projection result as one array, at the extended reals.
  Grid point t of the projection region writes back rows 3072·t … 3072·t + 3071 of the result; its three gathered
  operands are cut the same way, and the weights and the bias row are taken whole. So entry (n, k) of the result,
  whichever point wrote it, is Σ_j xh(n, j)·w₁(j, k) + Σ_j ea(n, j)·w₂(j, k) + Σ_j xt(n, j)·w₃(j, k) + b(0, k) of the arrays the
  region was entered with; and the 24 blocks of 3072 rows cover all 73728 rows.
-/
import proofs.«164025_j25692494364677_2_alg».proof.Proof.ProjPoint
import proofs.«164025_j25692494364677_2_alg».proof.Proof.ProjectionEntry

set_option maxRecDepth 16384

noncomputable section

namespace Cert.KernelIdeal.ProjArray

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Row n of the three operands against the three weight blocks, plus the bias row. -/
def rowsTimes (xh ea xt : Vec Ideal S73728x768 .bf16) (w1 w2 w3 : Vec Ideal S768x768 .bf16) (b2 : Vec Ideal S1x768 .f32) :
    Vec Ideal S73728x768 .f32 := fun i =>
  ((∑ j : Fin 768, xh (ix2 (i 0) j) * w1 (ix2 j (i 1))) + (∑ j : Fin 768, ea (ix2 (i 0) j) * w2 (ix2 j (i 1))))
    + (∑ j : Fin 768, xt (ix2 (i 0) j) * w3 (ix2 j (i 1))) + b2 (ix2 (0 : Fin 1) (i 1))

theorem zero_offsets : (![0, 0] : Fin 2 → Nat) = fun _ => 0 := funext fun a => by fin_cases a <;> rfl

/-- The printed index maps over the 24 points: the three row-blocked operands move with the result along the rows,
    everything sits at column block 0, and the weights and the bias stay at block (0, 0). -/
theorem block_indices : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) = t.val :=
  (by decide +kernel : ∀ t : Fin grid0.N, _)

/-- One entry of the body's payload on blocks against one entry of `rowsTimes` on the whole arrays, when the blocks'
    rows and columns are the wholes' at the matching places. -/
theorem block_entry (xh ea xt : Vec Ideal S73728x768 .bf16) (w1 w2 w3 : Vec Ideal S768x768 .bf16) (b2 : Vec Ideal S1x768 .f32)
    (x0 x1 x2 : Vec Ideal S3072x768 .bf16) (y3 y4 y5 : Vec Ideal S768x768 .bf16) (y6 : Vec Ideal S1x768 .f32)
    (n : Fin 73728) (r : Fin 3072) (k : Fin 768)
    (h0 : ∀ j : Fin 768, x0 (ix2 r j) = xh (ix2 n j)) (h1 : ∀ j : Fin 768, x1 (ix2 r j) = ea (ix2 n j))
    (h2 : ∀ j : Fin 768, x2 (ix2 r j) = xt (ix2 n j))
    (h3 : ∀ j : Fin 768, y3 (ix2 j k) = w1 (ix2 j k)) (h4 : ∀ j : Fin 768, y4 (ix2 j k) = w2 (ix2 j k))
    (h5 : ∀ j : Fin 768, y5 (ix2 j k) = w3 (ix2 j k)) (h6 : y6 (ix2 (0 : Fin 1) k) = b2 (ix2 (0 : Fin 1) k)) :
    k0_pay1 (F := Ideal) x0 y3 x1 y4 x2 y5 y6 (ix2 r k) = rowsTimes xh ea xt w1 w2 w3 b2 (ix2 n k) := by
  rw [ProjectionEntry.k0_pay1_entry]
  show _ = ((∑ j : Fin 768, xh (ix2 n j) * w1 (ix2 j k)) + (∑ j : Fin 768, ea (ix2 n j) * w2 (ix2 j k)))
    + (∑ j : Fin 768, xt (ix2 n j) * w3 (ix2 j k)) + b2 (ix2 (0 : Fin 1) k)
  simp only [h0, h1, h2, h3, h4, h5, h6]

set_option maxHeartbeats 4000000 in
/-- What point `t` writes back is block `t` of `rowsTimes` of the arrays the region was entered with. -/
theorem written_back (c : Dev nD) (t : Fin cfg0.N) :
    (Proj.dat V c).flushed 7 t = ((cfg0.win 7).blk t).view.read (Elt Ideal)
      (rowsTimes (V c main_v44) (V c main_v31) (V c main_v51) (V c main_v53) (V c main_v55) (V c main_v57) (V c main_v58)) := by
  show (cfg0.win 7).cut (grid0.coords t) ((Proj.dat V c).after 7 t) = _
  rw [Proj.after7]
  unfold Proj.stored
  rw [View.canon_unit_zero zero_offsets]
  simp only [View.ld_unit_zero (S := S3072x768) zero_offsets, View.ld_unit_zero (S := S768x768) zero_offsets,
    View.ld_unit_zero (S := S1x768) zero_offsets]
  obtain ⟨e00, e01, e10, e11, e20, e21, e30, e31, e40, e41, e50, e51, e60, e61, e71, e70⟩ := block_indices t
  have ht : t.val < 24 := lt_of_lt_of_eq t.isLt N_0
  funext y
  obtain ⟨r, k, rfl⟩ : ∃ (r : Fin 3072) (k : Fin 768), y = ix2 r k := ⟨y 0, y 1, eq_ix2 y⟩
  have hr : r.val < 3072 := r.isLt
  have he : ((cfg0.win 7).blk t).view.emb (ix2 r k) = ix2 (⟨t.val * 3072 + r.val, by omega⟩ : Fin 73728) k := by
    funext a; apply Fin.ext
    match a with
    | ⟨0, _⟩ => show win0_7.index t (0 : Fin 2) * 3072 + 1 * r.val = t.val * 3072 + r.val; omega
    | ⟨1, _⟩ => show win0_7.index t (1 : Fin 2) * 768 + 1 * k.val = k.val; omega
  show k0_pay1 (F := Ideal) _ _ _ _ _ _ _ (ix2 r k)
    = rowsTimes (V c main_v44) (V c main_v31) (V c main_v51) (V c main_v53) (V c main_v55) (V c main_v57) (V c main_v58)
        (((cfg0.win 7).blk t).view.emb (ix2 r k))
  rw [he]
  refine block_entry _ _ _ _ _ _ _ _ _ _ _ _ _ _ _ r k (fun j => ?_) (fun j => ?_) (fun j => ?_) (fun j => ?_) (fun j => ?_) (fun j => ?_) ?_
  · show V c main_v44 (((cfg0.win 0).blk t).view.emb (ix2 r j)) = V c main_v44 (ix2 _ j)
    congr 1; funext a; apply Fin.ext
    match a with
    | ⟨0, _⟩ => show win0_0.index t (0 : Fin 2) * 3072 + 1 * r.val = t.val * 3072 + r.val; omega
    | ⟨1, _⟩ => show win0_0.index t (1 : Fin 2) * 768 + 1 * j.val = j.val; omega
  · show V c main_v31 (((cfg0.win 1).blk t).view.emb (ix2 r j)) = V c main_v31 (ix2 _ j)
    congr 1; funext a; apply Fin.ext
    match a with
    | ⟨0, _⟩ => show win0_1.index t (0 : Fin 2) * 3072 + 1 * r.val = t.val * 3072 + r.val; omega
    | ⟨1, _⟩ => show win0_1.index t (1 : Fin 2) * 768 + 1 * j.val = j.val; omega
  · show V c main_v51 (((cfg0.win 2).blk t).view.emb (ix2 r j)) = V c main_v51 (ix2 _ j)
    congr 1; funext a; apply Fin.ext
    match a with
    | ⟨0, _⟩ => show win0_2.index t (0 : Fin 2) * 3072 + 1 * r.val = t.val * 3072 + r.val; omega
    | ⟨1, _⟩ => show win0_2.index t (1 : Fin 2) * 768 + 1 * j.val = j.val; omega
  · show V c main_v53 (((cfg0.win 3).blk t).view.emb (ix2 j k)) = V c main_v53 (ix2 j k)
    congr 1; funext a; apply Fin.ext
    match a with
    | ⟨0, _⟩ => show win0_3.index t (0 : Fin 2) * 768 + 1 * j.val = j.val; omega
    | ⟨1, _⟩ => show win0_3.index t (1 : Fin 2) * 768 + 1 * k.val = k.val; omega
  · show V c main_v55 (((cfg0.win 4).blk t).view.emb (ix2 j k)) = V c main_v55 (ix2 j k)
    congr 1; funext a; apply Fin.ext
    match a with
    | ⟨0, _⟩ => show win0_4.index t (0 : Fin 2) * 768 + 1 * j.val = j.val; omega
    | ⟨1, _⟩ => show win0_4.index t (1 : Fin 2) * 768 + 1 * k.val = k.val; omega
  · show V c main_v57 (((cfg0.win 5).blk t).view.emb (ix2 j k)) = V c main_v57 (ix2 j k)
    congr 1; funext a; apply Fin.ext
    match a with
    | ⟨0, _⟩ => show win0_5.index t (0 : Fin 2) * 768 + 1 * j.val = j.val; omega
    | ⟨1, _⟩ => show win0_5.index t (1 : Fin 2) * 768 + 1 * k.val = k.val; omega
  · show V c main_v58 (((cfg0.win 6).blk t).view.emb (ix2 (0 : Fin 1) k)) = V c main_v58 (ix2 (0 : Fin 1) k)
    congr 1; funext a; apply Fin.ext
    match a with
    | ⟨0, _⟩ => show win0_6.index t (0 : Fin 2) * 1 + 1 * 0 = 0; omega
    | ⟨1, _⟩ => show win0_6.index t (1 : Fin 2) * 768 + 1 * k.val = k.val; omega

/-- An index of the result is in point `t`'s block iff each coordinate is in the block's range on its axis. -/
theorem in_block (t : Fin cfg0.N) (i : S73728x768.Idx) :
    i ∈ ((cfg0.win 7).blk t).view.set ↔ ∀ a : Fin 2, win0_7.index t a * S3072x768.size a ≤ (i a).val ∧ (i a).val < win0_7.index t a * S3072x768.size a + S3072x768.size a := by
  show i ∈ ((View.whole main_v59).slice (win0_7.rect t)).set ↔ _
  rw [View.set_slice_whole, Rect.mem_set_unit]
  exact Iff.rfl

/-- Every entry of the result lies in the block of the point numbered by its row divided by 3072. -/
theorem every_entry_written (i : S73728x768.Idx) :
    ∃ t : Fin cfg0.N, (cfg0.win 7).flush t = true ∧ i ∈ ((cfg0.win 7).blk t).view.set := by
  have hi0 : (i 0).val < 73728 := (i 0).isLt
  have hi1 : (i 1).val < 768 := (i 1).isLt
  let t : Fin cfg0.N := ⟨(i 0).val / 3072, by show (i 0).val / 3072 < grid0.N; rw [N_0]; omega⟩
  obtain ⟨_, _, _, _, _, _, _, _, _, _, _, _, _, _, e71, e70⟩ := block_indices t
  have ht : t.val = (i 0).val / 3072 := rfl
  refine ⟨t, flush0_7 t, ?_⟩
  rw [in_block]
  intro a
  match a with
  | ⟨0, _⟩ => show win0_7.index t (0 : Fin 2) * 3072 ≤ (i 0).val ∧ (i 0).val < win0_7.index t (0 : Fin 2) * 3072 + 3072; omega
  | ⟨1, _⟩ => show win0_7.index t (1 : Fin 2) * 768 ≤ (i 1).val ∧ (i 1).val < win0_7.index t (1 : Fin 2) * 768 + 768; omega

/-- The result array when the region is left. -/
theorem result_array (c : Dev nD) : (Proj.dat V c).arrAt 7 cfg0.N
    = rowsTimes (V c main_v44) (V c main_v31) (V c main_v51) (V c main_v53) (V c main_v55) (V c main_v57) (V c main_v58) :=
  (Proj.dat V c).arrAt_eq_of_cover 7 _ (fun t _ => written_back V c t) every_entry_written

end Cert.KernelIdeal.ProjArray

end
-- ==== Proof.MaskEntry.lean ====
/- The mask kernel's stored value, one entry at a time. For each of the two id rows the kernel marks, with
   1.0 or 0.0, where a sentence's id equals the triple's id, takes the maximum of the marks over the 64
   sentence positions starting from minus infinity, and asks whether it is above zero; the two answers are
   or-ed and widened to 32 bits. The maximum of 0/1 marks is above zero exactly when some mark is 1, so entry
   (b, q) is 1 exactly when some position of sentence b holds the first row's id at q or the second row's. -/
import proofs.«164025_j25692494364677_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.MaskEntry

open Cert.KernelIdeal Cert.KernelIdeal.Gen Idealize.ShloMosaic Idealize.SL.Sem Idealize.ShloMosaic.ValueIdx

/-! ## Words and the order -/

/-- The f32 pattern of minus infinity is the bottom of the extended reals. -/
theorem ofBits_neg_inf_f32 : Ideal.ofBits .f32 0xFF800000#32 = ⊥ := by simp [Ideal.ofBits, Ideal.ieee]

/-- The maximum, started at minus infinity, of a finite family of 0/1 marks is above zero exactly when some mark is 1. -/
theorem zero_lt_fold_max_mark {n : Nat} (P : Fin n → Prop) [DecidablePred P] :
    (0 : EReal) < (Finset.univ : Finset (Fin n)).fold max (⊥ : EReal) (fun s => if P s then (1 : EReal) else 0) ↔ ∃ s, P s := by
  rw [Finset.lt_fold_max]
  constructor
  · rintro (h | ⟨s, _, hs⟩)
    · exact absurd h not_lt_bot
    · by_cases hp : P s
      · exact ⟨s, hp⟩
      · rw [if_neg hp] at hs; exact absurd hs (lt_irrefl _)
  · rintro ⟨s, hp⟩
    exact Or.inr ⟨s, Finset.mem_univ _, by rw [if_pos hp]; exact zero_lt_one⟩

/-- Two decided bits or-ed and widened to 32 bits: 1 exactly when one of them holds. -/
theorem ori_bits_widen (A B : Prop) [Decidable A] [Decidable B] :
    (IntOp.ori (if A then 1#1 else 0#1) (if B then 1#1 else 0#1)).setWidth 32 = if A ∨ B then 1#32 else 0#32 := by
  by_cases hA : A
  · rw [if_pos hA, if_pos (Or.inl hA)]
    by_cases hB : B
    · rw [if_pos hB]; decide
    · rw [if_neg hB]; decide
  · rw [if_neg hA]
    by_cases hB : B
    · rw [if_pos hB, if_pos (Or.inr hB)]; decide
    · rw [if_neg hB, if_neg (not_or.mpr ⟨hA, hB⟩)]; decide

/-- A select on an equality test of two 32-bit words is the `if` on their equality. -/
theorem select_cmpi_eq {α : Type} (x y : BitVec 32) (a c : α) :
    Scalar.select (IntOp.cmpi .eq x y) a c = if x = y then a else c := by
  show (if BitVec.ofBool (x == y) = 1#1 then a else c) = _
  by_cases h : x = y
  · rw [if_pos h, beq_iff_eq.mpr h]; exact if_pos rfl
  · rw [if_neg h, beq_eq_false_iff_ne.mpr h]; exact if_neg (by decide)

/-! ## The two operands spread over [8, 64, 4096] -/

/-- The sentence ids, given a trailing unit axis and broadcast along it, read (b, s) at every (b, s, q). -/
theorem sent_spread_entry {α : Type} (v0 : S8x64.Idx → α) (b : Fin 8) (s : Fin 64) (q : Fin 4096) :
    broadcastTo S8x64x4096 (shapeCast S8x64x1 v0 shapeCasts_S8x64_S8x64x1) broadcasts_S8x64x1_S8x64x4096 (ix3 b s q)
      = v0 (ix2 b s) := by
  refine (broadcastTo_apply _ broadcasts_S8x64x1_S8x64x4096 (ix3 b s q) (ix3 b s (0 : Fin 1)) (fun a => match a with
    | ⟨0, _⟩ => by show b.val = if (8 : Nat) = 1 then 0 else b.val; rw [if_neg (by decide)]
    | ⟨1, _⟩ => by show s.val = if (64 : Nat) = 1 then 0 else s.val; rw [if_neg (by decide)]
    | ⟨2, _⟩ => by show 0 = if (1 : Nat) = 1 then 0 else q.val; rw [if_pos rfl])).trans ?_
  exact shapeCast_apply v0 shapeCasts_S8x64_S8x64x1 (ix3 b s (0 : Fin 1)) (ix2 b s) (by
    rw [Shape.rowMajor_val_two, Shape.rowMajor_val_three]
    show b.val * 64 + s.val = (b.val * 64 + s.val) * 1 + 0
    omega)

/-- A row of triple ids, given two leading unit axes and broadcast along them, reads (0, q) at every (b, s, q). -/
theorem ids_spread_entry {α : Type} (v : S1x4096.Idx → α) (b : Fin 8) (s : Fin 64) (q : Fin 4096) :
    broadcastTo S8x64x4096 (shapeCast S1x1x4096 (shapeCast S1x4096 v shapeCasts_S1x4096_S1x4096) shapeCasts_S1x4096_S1x1x4096)
        broadcasts_S1x1x4096_S8x64x4096 (ix3 b s q)
      = v (ix2 (0 : Fin 1) q) := by
  rw [shapeCast_self]
  refine (broadcastTo_apply _ broadcasts_S1x1x4096_S8x64x4096 (ix3 b s q) (ix3 (0 : Fin 1) (0 : Fin 1) q) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show q.val = if (4096 : Nat) = 1 then 0 else q.val; rw [if_neg (by decide)])).trans ?_
  exact shapeCast_ab_1ab_apply v shapeCasts_S1x4096_S1x1x4096 0 0 q

/-! ## The marks, their maximum over the sentence positions, and the payload -/

/-- The marks: 1.0 where sentence position (b, s) holds the id at q of the row, 0.0 elsewhere. -/
def marks (v0 : Vec Ideal S8x64 .i32) (v : Vec Ideal S1x4096 .i32) : FVec Ideal S8x64x4096 .f32 :=
  select
    (cmpi .eq (broadcastTo S8x64x4096 (shapeCast S8x64x1 v0 shapeCasts_S8x64_S8x64x1) broadcasts_S8x64x1_S8x64x4096)
      (broadcastTo S8x64x4096 (shapeCast S1x1x4096 (shapeCast S1x4096 v shapeCasts_S1x4096_S1x4096) shapeCasts_S1x4096_S1x1x4096)
        broadcasts_S1x1x4096_S8x64x4096))
    (broadcast S8x64x4096 (Scalar.ofBits (F := Ideal) .f32 0x3F800000#32))
    (broadcast S8x64x4096 (Scalar.ofBits (F := Ideal) .f32 0x00000000#32))

/-- The maximum of a row's marks over the sentence positions, started at minus infinity. -/
def maxMarks (v0 : Vec Ideal S8x64 .i32) (v : Vec Ideal S1x4096 .i32) : FVec Ideal S8x4096 .f32 :=
  multiReduction .maximumf [1] S8x4096 (marks v0 v) 0xFF800000#32 reduces_S8x64x4096_S8x4096 (.inl rfl) rfl

/-- Whether that maximum is above zero. -/
def anyMark (v0 : Vec Ideal S8x64 .i32) (v : Vec Ideal S1x4096 .i32) : IVec S8x4096 1 :=
  cmpf .ogt (maxMarks v0 v) (broadcast S8x4096 (Scalar.ofBits (F := Ideal) .f32 0x00000000#32))

/-- The payload is the two rows' answers or-ed and widened: by unfolding. -/
theorem k1_pay1_eq (v0 : Vec Ideal S8x64 .i32) (v1 v3 : Vec Ideal S1x4096 .i32) :
    k1_pay1 (F := Ideal) v0 v1 v3 = extui 32 (ori (anyMark v0 v1) (anyMark v0 v3)) natLt_1_32 := rfl

/-- A mark at (b, s, q): 1 when the sentence's id at (b, s) is the row's id at q, else 0. -/
theorem marks_entry (v0 : Vec Ideal S8x64 .i32) (v : Vec Ideal S1x4096 .i32) (b : Fin 8) (s : Fin 64) (q : Fin 4096) :
    marks v0 v (ix3 b s q) = if v0 (ix2 b s) = v (ix2 (0 : Fin 1) q) then (1 : EReal) else 0 := by
  unfold marks
  rw [select_apply, broadcast_apply, broadcast_apply]
  show Scalar.select (IntOp.cmpi .eq (broadcastTo S8x64x4096 (shapeCast S8x64x1 v0 shapeCasts_S8x64_S8x64x1) broadcasts_S8x64x1_S8x64x4096 (ix3 b s q))
      (broadcastTo S8x64x4096 (shapeCast S1x1x4096 (shapeCast S1x4096 v shapeCasts_S1x4096_S1x4096) shapeCasts_S1x4096_S1x1x4096)
        broadcasts_S1x1x4096_S8x64x4096 (ix3 b s q)))
    (Ideal.ofBits .f32 0x3F800000#32) (Ideal.ofBits .f32 0x00000000#32) = _
  rw [sent_spread_entry, ids_spread_entry, Ideal.ofBits_one_f32, Ideal.ofBits_zero_f32]
  exact select_cmpi_eq (v0 (ix2 b s)) (v (ix2 (0 : Fin 1) q)) (1 : EReal) 0

/-- The source index over (b, q) with sentence position s inserted is (b, s, q). -/
theorem lift_entry (b : Fin 8) (s : Fin 64) (q : Fin 4096) :
    reduces_S8x64x4096_S8x4096.lift (ix2 b q) s = ix3 b s q :=
  funext fun c => Fin.ext (by
    match c with
    | ⟨0, _⟩ => rfl
    | ⟨1, _⟩ => rfl
    | ⟨2, _⟩ => rfl)

/-- The marks over (b, q), position by position. -/
theorem marks_lift (v0 : Vec Ideal S8x64 .i32) (v : Vec Ideal S1x4096 .i32) (b : Fin 8) (q : Fin 4096) :
    (marks v0 v ∘ reduces_S8x64x4096_S8x4096.lift (ix2 b q))
      = fun s : Fin 64 => if v0 (ix2 b s) = v (ix2 (0 : Fin 1) q) then (1 : EReal) else 0 :=
  funext fun s => (congrArg (marks v0 v) (lift_entry b s q)).trans (marks_entry v0 v b s q)

/-- The maximum of a row's marks over the sentence positions, at (b, q): the maximum from minus infinity of the 64 marks. -/
theorem maxMarks_entry (v0 : Vec Ideal S8x64 .i32) (v : Vec Ideal S1x4096 .i32) (b : Fin 8) (q : Fin 4096) :
    maxMarks v0 v (ix2 b q)
      = (Finset.univ : Finset (Fin 64)).fold max (⊥ : EReal)
          (fun s : Fin 64 => if v0 (ix2 b s) = v (ix2 (0 : Fin 1) q) then (1 : EReal) else 0) := by
  unfold maxMarks
  refine (Ideal.multiReduction_maximumf_single (marks v0 v) 0xFF800000#32 reduces_S8x64x4096_S8x4096 (.inl rfl) rfl (ix2 b q)).trans ?_
  rw [marks_lift]
  exact congrArg (fun i : EReal => (Finset.univ : Finset (Fin 64)).fold max i
    (fun s : Fin 64 => if v0 (ix2 b s) = v (ix2 (0 : Fin 1) q) then (1 : EReal) else 0)) ofBits_neg_inf_f32

/-- A row's answer at (b, q): some position of sentence b holds the row's id at q. -/
theorem anyMark_entry (v0 : Vec Ideal S8x64 .i32) (v : Vec Ideal S1x4096 .i32) (b : Fin 8) (q : Fin 4096) :
    anyMark v0 v (ix2 b q) = if ∃ s : Fin 64, v0 (ix2 b s) = v (ix2 (0 : Fin 1) q) then 1#1 else 0#1 := by
  unfold anyMark
  rw [cmpf_apply, broadcast_apply, maxMarks_entry, Ideal.cmpf_def]
  show Ideal.cmp .ogt _ (Ideal.ofBits .f32 0x00000000#32) = _
  rw [Ideal.ofBits_zero_f32]
  have hiff := zero_lt_fold_max_mark (fun s : Fin 64 => v0 (ix2 b s) = v (ix2 (0 : Fin 1) q))
  by_cases h : ∃ s : Fin 64, v0 (ix2 b s) = v (ix2 (0 : Fin 1) q)
  · rw [if_pos h]
    simp [Ideal.cmp, hiff.mpr h]
  · rw [if_neg h]
    simp [Ideal.cmp, mt hiff.mp h]

/-- THE MASK PAYLOAD AT AN ENTRY: 1 exactly when some position of sentence b holds the first row's id at q or the
    second row's. -/
theorem k1_pay1_entry (v0 : Vec Ideal S8x64 .i32) (v1 v3 : Vec Ideal S1x4096 .i32) (b : Fin 8) (q : Fin 4096) :
    k1_pay1 (F := Ideal) v0 v1 v3 (ix2 b q)
      = if (∃ s : Fin 64, v0 (ix2 b s) = v1 (ix2 (0 : Fin 1) q)) ∨ (∃ s : Fin 64, v0 (ix2 b s) = v3 (ix2 (0 : Fin 1) q))
          then 1#32 else 0#32 := by
  rw [k1_pay1_eq, extui_apply]
  show (IntOp.ori (anyMark v0 v1 (ix2 b q)) (anyMark v0 v3 (ix2 b q))).setWidth 32 = _
  rw [anyMark_entry, anyMark_entry, ori_bits_widen]

end Cert.KernelIdeal.MaskEntry

end
-- ==== Proof.MaskArray.lean ====
/-
  The mask region's result as one array of 32-bit flags (read at the ideal instance: the body's intermediate 0/1
  indicators are extended reals there, its loads and its store are integer words).
  Grid point t of the mask region writes back columns 4096·t … 4096·t + 4095 of the 8 x 73728 table of flags; the head
  ids and the tail ids are cut the same way and the sentence ids are taken whole. So flag (b, n), whichever point wrote
  it, says whether some id of sentence b equals head id n or tail id n of the arrays the region was entered with; and the
  18 blocks of 4096 columns cover all 73728 columns.
-/
import proofs.«164025_j25692494364677_2_alg».proof.Proof.MaskPoint
import proofs.«164025_j25692494364677_2_alg».proof.Proof.MaskEntry

set_option maxRecDepth 16384

noncomputable section

namespace Cert.KernelIdeal.MaskArray

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Flag (b, n): some id of sentence b is head id n, or some id of sentence b is tail id n. -/
def flags (sent : Vec Ideal S8x64 .i32) (hd tl : Vec Ideal S1x73728 .i32) : Vec Ideal S8x73728 .i32 := fun i =>
  if (∃ s : Fin 64, sent (ix2 (i 0) s) = hd (ix2 (0 : Fin 1) (i 1))) ∨ (∃ s : Fin 64, sent (ix2 (i 0) s) = tl (ix2 (0 : Fin 1) (i 1)))
  then 1#32 else 0#32

theorem zero_offsets : (![0, 0] : Fin 2 → Nat) = fun _ => 0 := funext fun a => by fin_cases a <;> rfl

/-- The printed index maps over the 18 points: the head and tail ids move with the result along the columns, all in row
    block 0, and the sentence ids stay at block (0, 0). -/
theorem block_indices : ∀ t : Fin cfg1.N,
    win1_0.index t (0 : Fin 2) = 0 ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) = 0 ∧ win1_3.index t (1 : Fin 2) = t.val :=
  (by decide +kernel : ∀ t : Fin grid1.N, _)

set_option maxHeartbeats 4000000 in
/-- What point `t` writes back is block `t` of `flags` of the arrays the region was entered with. -/
theorem written_back (c : Dev nD) (t : Fin cfg1.N) :
    (Mask.dat V c).flushed 3 t = ((cfg1.win 3).blk t).view.read (Elt Ideal)
      (flags (V c main_arg3) (V c main_v78) (V c main_v79)) := by
  show (cfg1.win 3).cut (grid1.coords t) ((Mask.dat V c).after 3 t) = _
  rw [Mask.after3]
  unfold Mask.stored
  rw [View.canon_unit_zero zero_offsets]
  simp only [View.ld_unit_zero (S := S8x64) zero_offsets, View.ld_unit_zero (S := S1x4096) zero_offsets]
  obtain ⟨e00, e01, e10, e11, e20, e21, e30, e31⟩ := block_indices t
  funext y
  obtain ⟨b, q, rfl⟩ : ∃ (b : Fin 8) (q : Fin 4096), y = ix2 b q := ⟨y 0, y 1, eq_ix2 y⟩
  refine (MaskEntry.k1_pay1_entry _ _ _ b q).trans ?_
  show _ = flags (V c main_arg3) (V c main_v78) (V c main_v79) (((cfg1.win 3).blk t).view.emb (ix2 b q))
  unfold flags
  have hs : ∀ s : Fin 64, ((cfg1.win 0).blk t).view.emb (ix2 b s) = ix2 ((((cfg1.win 3).blk t).view.emb (ix2 b q)) 0) s := by
    intro s; funext a; apply Fin.ext
    match a with
    | ⟨0, _⟩ => show win1_0.index t (0 : Fin 2) * 8 + 1 * b.val = win1_3.index t (0 : Fin 2) * 8 + 1 * b.val; omega
    | ⟨1, _⟩ => show win1_0.index t (1 : Fin 2) * 64 + 1 * s.val = s.val; omega
  have hh : ((cfg1.win 1).blk t).view.emb (ix2 (0 : Fin 1) q) = ix2 (0 : Fin 1) ((((cfg1.win 3).blk t).view.emb (ix2 b q)) 1) := by
    funext a; apply Fin.ext
    match a with
    | ⟨0, _⟩ => show win1_1.index t (0 : Fin 2) * 1 + 1 * 0 = 0; omega
    | ⟨1, _⟩ => show win1_1.index t (1 : Fin 2) * 4096 + 1 * q.val = win1_3.index t (1 : Fin 2) * 4096 + 1 * q.val; omega
  have ht : ((cfg1.win 2).blk t).view.emb (ix2 (0 : Fin 1) q) = ix2 (0 : Fin 1) ((((cfg1.win 3).blk t).view.emb (ix2 b q)) 1) := by
    funext a; apply Fin.ext
    match a with
    | ⟨0, _⟩ => show win1_2.index t (0 : Fin 2) * 1 + 1 * 0 = 0; omega
    | ⟨1, _⟩ => show win1_2.index t (1 : Fin 2) * 4096 + 1 * q.val = win1_3.index t (1 : Fin 2) * 4096 + 1 * q.val; omega
  show (if (∃ s : Fin 64, (V c main_arg3 : Vec Ideal S8x64 .i32) (((cfg1.win 0).blk t).view.emb (ix2 b s)) = (V c main_v78 : Vec Ideal S1x73728 .i32) (((cfg1.win 1).blk t).view.emb (ix2 (0 : Fin 1) q)))
        ∨ (∃ s : Fin 64, (V c main_arg3 : Vec Ideal S8x64 .i32) (((cfg1.win 0).blk t).view.emb (ix2 b s)) = (V c main_v79 : Vec Ideal S1x73728 .i32) (((cfg1.win 2).blk t).view.emb (ix2 (0 : Fin 1) q)))
      then 1#32 else 0#32) = _
  simp only [hs, hh, ht]
  exact if_congr Iff.rfl rfl rfl

/-- An index of the result is in point `t`'s block iff each coordinate is in the block's range on its axis. -/
theorem in_block (t : Fin cfg1.N) (i : S8x73728.Idx) :
    i ∈ ((cfg1.win 3).blk t).view.set ↔ ∀ a : Fin 2, win1_3.index t a * S8x4096.size a ≤ (i a).val ∧ (i a).val < win1_3.index t a * S8x4096.size a + S8x4096.size a := by
  show i ∈ ((View.whole main_v80).slice (win1_3.rect t)).set ↔ _
  rw [View.set_slice_whole, Rect.mem_set_unit]
  exact Iff.rfl

/-- Every flag lies in the block of the point numbered by its column divided by 4096. -/
theorem every_entry_written (i : S8x73728.Idx) :
    ∃ t : Fin cfg1.N, (cfg1.win 3).flush t = true ∧ i ∈ ((cfg1.win 3).blk t).view.set := by
  have hi0 : (i 0).val < 8 := (i 0).isLt
  have hi1 : (i 1).val < 73728 := (i 1).isLt
  let t : Fin cfg1.N := ⟨(i 1).val / 4096, by show (i 1).val / 4096 < grid1.N; rw [N_1]; omega⟩
  obtain ⟨_, _, _, _, _, _, e30, e31⟩ := block_indices t
  have ht : t.val = (i 1).val / 4096 := rfl
  refine ⟨t, flush1_3 t, ?_⟩
  rw [in_block]
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 4096 ≤ (i 1).val ∧ (i 1).val < win1_3.index t (1 : Fin 2) * 4096 + 4096; omega

/-- The table of flags when the region is left. -/
theorem result_array (c : Dev nD) : (Mask.dat V c).arrAt 3 cfg1.N = flags (V c main_arg3) (V c main_v78) (V c main_v79) :=
  (Mask.dat V c).arrAt_eq_of_cover 3 _ (fun t _ => written_back V c t) every_entry_written

end Cert.KernelIdeal.MaskArray

end
-- ==== Proof.KernelResults.lean ====
/-
  The three results of the idealized kernel's @main, read off the last boundary of the run.
  The projection result is what the projection region's write-backs leave (no later operation writes it); the mask is
  the closing comparison "flag ≠ 0" of the table the mask region's write-backs leave; the triple-id table is written by
  the second host stretch from what the projection region leaves untouched.
-/
import proofs.«164025_j25692494364677_2_alg».proof.Proof.WholeRun
import proofs.«164025_j25692494364677_2_alg».proof.Proof.ProjArray
import proofs.«164025_j25692494364677_2_alg».proof.Proof.MaskArray

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The projection result at the end of the run: `rowsTimes` of the arrays the projection region was entered with. -/
theorem proj_result (c : Dev nD) : Whole.B6 m ρ c (Proc.devRef .tc main_v59)
    = ProjArray.rowsTimes (Whole.E2 m ρ c main_v44) (Whole.E2 m ρ c main_v31) (Whole.E2 m ρ c main_v51)
        (Whole.E2 m ρ c main_v53) (Whole.E2 m ρ c main_v55) (Whole.E2 m ρ c main_v57) (Whole.E2 m ρ c main_v58) :=
  calc Whole.B6 m ρ c (Proc.devRef .tc main_v59)
    _ = Whole.B5 m ρ c (Proc.devRef .tc main_v59) := StableHlo.after_of_writes_sub _ _ Whole.opsD_writes (by decide)
    _ = Whole.B4 m ρ c (Proc.devRef .tc main_v59) := Whole.B5_of_ne m ρ c main_v59 (by decide)
    _ = Whole.B3 m ρ c (Proc.devRef .tc main_v59) := StableHlo.after_of_writes_sub _ _ Whole.opsC_writes (by decide)
    _ = (Proj.dat (Whole.E2 m ρ) c).arrAt 7 cfg0.N := Whole.B3_arr m ρ c 7
    _ = _ := ProjArray.result_array (Whole.E2 m ρ) c

/-- The table of flags the mask region leaves. -/
theorem flags_left (c : Dev nD) : Whole.B5 m ρ c (Proc.devRef .tc main_v80)
    = MaskArray.flags (Whole.E4 m ρ c main_arg3) (Whole.E4 m ρ c main_v78) (Whole.E4 m ρ c main_v79) :=
  (Whole.B5_arr m ρ c 3).trans (MaskArray.result_array (Whole.E4 m ρ) c)

/-- The mask at the end of the run: the comparison of that table with zero. -/
theorem mask_result (c : Dev nD) : Whole.B6 m ρ c (Proc.devRef .tc main_v83)
    = cmpi .ne (Whole.B5 m ρ c (Proc.devRef .tc main_v80)) (broadcastInDim S8x73728 ![] bcast_S_S8x73728 (constantI S_ 32 0#32)) := by
  show StableHlo.after main_part1_ops2 (Whole.B5 m ρ c) (Proc.devRef .tc main_v83) = _
  after_results_simp <;> rfl

/-- The triple-id table at the end of the run is what the second host stretch writes. -/
theorem ids_result (c : Dev nD) : Whole.B6 m ρ c (Proc.devRef .tc main_v77)
    = StableHlo.after main_part1_ops1 (Whole.B3 m ρ c) (Proc.devRef .tc main_v77) :=
  calc Whole.B6 m ρ c (Proc.devRef .tc main_v77)
    _ = Whole.B5 m ρ c (Proc.devRef .tc main_v77) := StableHlo.after_of_writes_sub _ _ Whole.opsD_writes (by decide)
    _ = Whole.B4 m ρ c (Proc.devRef .tc main_v77) := Whole.B5_of_ne m ρ c main_v77 (by decide)
    _ = _ := rfl

/-- What the mask region is entered with, as the second host stretch leaves it. -/
theorem mask_entry_of (c : Dev nD) (b : Ref sig .tc) : Whole.E4 m ρ c b = StableHlo.after main_part1_ops1 (Whole.B3 m ρ c) (Proc.devRef .tc b) := rfl

/-- A buffer the first host stretch wrote and nothing later touches, as the second host stretch finds it. -/
theorem untouched_by_proj (c : Dev nD) (b : Ref sig .tc) (hb : ∀ w, Pipeline.arrRef spec0 w ≠ b) :
    Whole.B3 m ρ c (Proc.devRef .tc b) = StableHlo.after main_part1_ops0 (StableHlo.after main_part0_ops0 (Whole.B0 m ρ c)) (Proc.devRef .tc b) :=
  Whole.B3_of_ne m ρ c b hb

end Cert.KernelIdeal.Results

end
-- ==== Proof.MaskOperands.lean ====
/- What the host hands the mask kernel and does with its result, one entry at a time: an id vector viewed
   as one row, and the 32-bit result tested against zero. -/
import proofs.«164025_j25692494364677_2_alg».proof.Proof.Gen.KernelIdeal
import Idealize.ShloMosaic.Lib.Pipeline.Value
import Idealize.ShloMosaic.Lib.ValueIdx
import Idealize.ShloMosaic.Lib.ValueLayout
import Idealize.ShloMosaic.Lib.IdealHost

noncomputable section

namespace Cert.KernelIdeal.MaskOperands

open Cert.KernelIdeal Cert.KernelIdeal.Gen Idealize.ShloMosaic Idealize.SL.Sem Idealize.ShloMosaic.ValueIdx

/-- A vector of 73728 ids viewed as one row reads, at (0, t), the vector at t. -/
theorem ids_row_entry {α : Type} (X : S73728.Idx → α) (t : Fin 73728) :
    shapeCast S1x73728 X shapeCasts_S73728_S1x73728 (ix2 (0 : Fin 1) t) = X (ix1 t) :=
  shapeCast_a_1a_apply X shapeCasts_S73728_S1x73728 0 t

/-- A test of two 32-bit words for difference is the `if` on their difference. -/
theorem cmpi_ne_word (x y : BitVec 32) : IntOp.cmpi .ne x y = if x ≠ y then 1#1 else 0#1 := by
  show BitVec.ofBool (x != y) = _
  by_cases h : x = y
  · rw [if_neg (not_not.mpr h), h, bne_self_eq_false]; rfl
  · rw [if_pos h, bne_iff_ne.mpr h]; rfl

/-- The kernel's 32-bit result tested against the zero splat, at (b, t): 1 when the result there is not zero. -/
theorem ne_zero_entry (v : IVec S8x73728 32) (b : Fin 8) (t : Fin 73728) :
    cmpi .ne v (broadcastInDim S8x73728 ![] bcast_S_S8x73728 (constantI S_ 32 0#32)) (ix2 b t)
      = if v (ix2 b t) ≠ 0#32 then 1#1 else 0#1 := by
  show IntOp.cmpi .ne (v (ix2 b t)) (broadcastInDim S8x73728 ![] bcast_S_S8x73728 (constantI S_ 32 0#32) (ix2 b t)) = _
  rw [broadcastInDim_scalar_apply]
  exact cmpi_ne_word (v (ix2 b t)) 0#32

/-- A 0/1 word decided by a proposition is not zero exactly when the proposition holds. -/
theorem ne_zero_of_decided (P : Prop) [Decidable P] :
    (if (if P then 1#32 else 0#32) ≠ 0#32 then 1#1 else 0#1) = if P then 1#1 else 0#1 := by
  by_cases h : P
  · rw [if_pos h, if_pos h, if_pos (by decide)]
  · rw [if_neg h, if_neg h, if_neg (by decide)]

end Cert.KernelIdeal.MaskOperands

end
-- ==== Proof.HostChains.lean ====
/-
  The second host stretch of the idealized kernel's @main, read at the buffers that matter: the triple-id table, and
  the head-id and tail-id rows handed to the mask region. The stretch normalises the head and tail indices (a negative
  index has the extent added), gathers the concept ids at them, lays the three id columns side by side, and re-lays the
  two gathered id vectors as rows. Read against the reference's own stages (the reference runs the same operations on the
  same arguments), under hypotheses that say what the stretch finds in the four buffers it reads.
-/
import proofs.«164025_j25692494364677_2_alg».proof.Proof.Gen.KernelIdeal.Launch
import proofs.«164025_j25692494364677_2_alg».proof.Proof.ReferenceStages
import proofs.«164025_j25692494364677_2_alg».proof.Proof.LibHostThree
import proofs.«164025_j25692494364677_2_alg».proof.Proof.MaskOperands

set_option maxRecDepth 16384

noncomputable section

namespace Cert.KernelIdeal.HostChains

open Cert.KernelIdeal Cert.KernelIdeal.Gen
open Idealize.ShloMosaic Idealize.ShloMosaic.TcCoe Idealize.SL.Sem Idealize.ShloMosaic.StableHlo
open Idealize.ShloMosaic.HostThree Idealize.ShloMosaic.ValueIdx
open Cert.ReferenceIdeal.Stages

/-- Two lines of host operations run one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, after_cons, ih]

/-- The second stretch up to the three id columns. -/
abbrev idsLead : List (HloOp τ sig (Elt Ideal)) :=
  [
    StableHlo.nullary main_c_8 (constantI S_ 32 0#32),
    StableHlo.unary main_c_8 main_v60 (broadcastInDim S73728 ![] bcast_S_S73728 : (⟨S_, .i32⟩ : BufTy).Contents (Elt Ideal) → (⟨S73728, .i32⟩ : BufTy).Contents (Elt Ideal)),
    StableHlo.binary main_v35 main_v60 main_v61 (cmpi .slt : (⟨S73728, .i32⟩ : BufTy).Contents (Elt Ideal) → (⟨S73728, .i32⟩ : BufTy).Contents (Elt Ideal) → (⟨S73728, .i1⟩ : BufTy).Contents (Elt Ideal)),
    StableHlo.nullary main_c_9 (constantI S_ 32 8192#32),
    StableHlo.unary main_c_9 main_v62 (broadcastInDim S73728 ![] bcast_S_S73728 : (⟨S_, .i32⟩ : BufTy).Contents (Elt Ideal) → (⟨S73728, .i32⟩ : BufTy).Contents (Elt Ideal)),
    StableHlo.binary main_v35 main_v62 main_v63 (addi : (⟨S73728, .i32⟩ : BufTy).Contents (Elt Ideal) → (⟨S73728, .i32⟩ : BufTy).Contents (Elt Ideal) → (⟨S73728, .i32⟩ : BufTy).Contents (Elt Ideal)),
    StableHlo.ternary main_v61 main_v63 main_v35 main_v64 (select : (⟨S73728, .i1⟩ : BufTy).Contents (Elt Ideal) → (⟨S73728, .i32⟩ : BufTy).Contents (Elt Ideal) → (⟨S73728, .i32⟩ : BufTy).Contents (Elt Ideal) → (⟨S73728, .i32⟩ : BufTy).Contents (Elt Ideal)),
    StableHlo.unary main_v64 main_v65 (broadcastInDim S73728x1 ![0] bcast_S73728_S73728x1_0 : (⟨S73728, .i32⟩ : BufTy).Contents (Elt Ideal) → (⟨S73728x1, .i32⟩ : BufTy).Contents (Elt Ideal)),
    StableHlo.binary main_arg0 main_v65 main_v66 ((fun x i => Host.gather gather_S8192_S73728x1_S73728_n_0_n_n_0_1_1 x i) : (⟨S8192, .i32⟩ : BufTy).Contents (Elt Ideal) → (⟨S73728x1, .i32⟩ : BufTy).Contents (Elt Ideal) → (⟨S73728, .i32⟩ : BufTy).Contents (Elt Ideal)),
    StableHlo.nullary main_c_10 (constantI S_ 32 0#32),
    StableHlo.unary main_c_10 main_v67 (broadcastInDim S73728 ![] bcast_S_S73728 : (⟨S_, .i32⟩ : BufTy).Contents (Elt Ideal) → (⟨S73728, .i32⟩ : BufTy).Contents (Elt Ideal)),
    StableHlo.binary main_v37 main_v67 main_v68 (cmpi .slt : (⟨S73728, .i32⟩ : BufTy).Contents (Elt Ideal) → (⟨S73728, .i32⟩ : BufTy).Contents (Elt Ideal) → (⟨S73728, .i1⟩ : BufTy).Contents (Elt Ideal)),
    StableHlo.nullary main_c_11 (constantI S_ 32 8192#32),
    StableHlo.unary main_c_11 main_v69 (broadcastInDim S73728 ![] bcast_S_S73728 : (⟨S_, .i32⟩ : BufTy).Contents (Elt Ideal) → (⟨S73728, .i32⟩ : BufTy).Contents (Elt Ideal)),
    StableHlo.binary main_v37 main_v69 main_v70 (addi : (⟨S73728, .i32⟩ : BufTy).Contents (Elt Ideal) → (⟨S73728, .i32⟩ : BufTy).Contents (Elt Ideal) → (⟨S73728, .i32⟩ : BufTy).Contents (Elt Ideal)),
    StableHlo.ternary main_v68 main_v70 main_v37 main_v71 (select : (⟨S73728, .i1⟩ : BufTy).Contents (Elt Ideal) → (⟨S73728, .i32⟩ : BufTy).Contents (Elt Ideal) → (⟨S73728, .i32⟩ : BufTy).Contents (Elt Ideal) → (⟨S73728, .i32⟩ : BufTy).Contents (Elt Ideal)),
    StableHlo.unary main_v71 main_v72 (broadcastInDim S73728x1 ![0] bcast_S73728_S73728x1_0 : (⟨S73728, .i32⟩ : BufTy).Contents (Elt Ideal) → (⟨S73728x1, .i32⟩ : BufTy).Contents (Elt Ideal)),
    StableHlo.binary main_arg0 main_v72 main_v73 ((fun x i => Host.gather gather_S8192_S73728x1_S73728_n_0_n_n_0_1_1 x i) : (⟨S8192, .i32⟩ : BufTy).Contents (Elt Ideal) → (⟨S73728x1, .i32⟩ : BufTy).Contents (Elt Ideal) → (⟨S73728, .i32⟩ : BufTy).Contents (Elt Ideal)),
    StableHlo.unary main_v66 main_v74 (broadcastInDim S73728x1 ![0] bcast_S73728_S73728x1_0 : (⟨S73728, .i32⟩ : BufTy).Contents (Elt Ideal) → (⟨S73728x1, .i32⟩ : BufTy).Contents (Elt Ideal)),
    StableHlo.unary main_v33 main_v75 (broadcastInDim S73728x1 ![0] bcast_S73728_S73728x1_0 : (⟨S73728, .i32⟩ : BufTy).Contents (Elt Ideal) → (⟨S73728x1, .i32⟩ : BufTy).Contents (Elt Ideal)),
    StableHlo.unary main_v73 main_v76 (broadcastInDim S73728x1 ![0] bcast_S73728_S73728x1_0 : (⟨S73728, .i32⟩ : BufTy).Contents (Elt Ideal) → (⟨S73728x1, .i32⟩ : BufTy).Contents (Elt Ideal)) ]
/-- Its close: the columns side by side, and the two id vectors re-laid as rows. -/
abbrev idsClose : List (HloOp τ sig (Elt Ideal)) :=
  [
    StableHlo.nary ![main_v74, main_v75, main_v76] main_v77 (fun u => concatenate S73728x3 1 [⟨S73728x1, u 0⟩, ⟨S73728x1, u 1⟩, ⟨S73728x1, u 2⟩] concatenates_S73728x1_S73728x1_S73728x1_S73728x3_d1),
    StableHlo.reshape main_v66 main_v78 rfl shapeCasts_S73728_S1x73728,
    StableHlo.reshape main_v73 main_v79 rfl shapeCasts_S73728_S1x73728 ]
theorem second_stretch_split : (main_part1_ops1 : List (HloOp τ sig (Elt Ideal))) = idsLead ++ idsClose := rfl

section Lead

variable (W : Valuation τ sig (Elt Ideal))
variable (a0 : (⟨Cert.ReferenceIdeal.S8192, .i32⟩ : BufTy).Contents (Elt Ideal))
  (a1 : (⟨Cert.ReferenceIdeal.S2x65536, .i32⟩ : BufTy).Contents (Elt Ideal))
  (a2 : (⟨Cert.ReferenceIdeal.S65536x2, .f32⟩ : BufTy).Contents (Elt Ideal))
variable (h0 : W (Proc.devRef .tc main_arg0) = a0) (hh : W (Proc.devRef .tc main_v35) = val_main_v32 (F := Ideal) a1)
  (ht : W (Proc.devRef .tc main_v37) = val_main_v34 (F := Ideal) a1) (hr : W (Proc.devRef .tc main_v33) = val_main_v30 (F := Ideal) a2)

include h0 hh in
/-- The concept ids at the normalised head indices. -/
theorem head_ids : StableHlo.after idsLead W (Proc.devRef .tc main_v66) = val_main_v60 (F := Ideal) a0 a1 := by
  after_results_simp
  rw [h0, hh]
  rfl

include h0 ht in
/-- The concept ids at the normalised tail indices. -/
theorem tail_ids : StableHlo.after idsLead W (Proc.devRef .tc main_v73) = val_main_v67 (F := Ideal) a0 a1 := by
  after_results_simp
  rw [h0, ht]
  rfl

include h0 hh in
theorem head_column : StableHlo.after idsLead W (Proc.devRef .tc main_v74) = val_main_v68 (F := Ideal) a0 a1 := by
  after_results_simp
  rw [h0, hh]
  rfl

include hr in
theorem relation_column : StableHlo.after idsLead W (Proc.devRef .tc main_v75) = val_main_v69 (F := Ideal) a2 := by
  after_results_simp
  rw [hr]
  rfl

include h0 ht in
theorem tail_column : StableHlo.after idsLead W (Proc.devRef .tc main_v76) = val_main_v70 (F := Ideal) a0 a1 := by
  after_results_simp
  rw [h0, ht]
  rfl

include h0 hh ht hr in
/-- The triple-id table the stretch writes is the reference's. -/
theorem ids_table : StableHlo.after main_part1_ops1 W (Proc.devRef .tc main_v77) = val_main_v71 (F := Ideal) a0 a1 a2 := by
  rw [second_stretch_split, after_append]
  have e74 := head_column W a0 a1 h0 hh
  have e75 := relation_column W a2 hr
  have e76 := tail_column W a0 a1 h0 ht
  generalize StableHlo.after idsLead W = V at e74 e75 e76 ⊢
  host_line_results
  show concatenate S73728x3 1 [⟨S73728x1, V (Proc.devRef .tc main_v74)⟩, ⟨S73728x1, V (Proc.devRef .tc main_v75)⟩,
    ⟨S73728x1, V (Proc.devRef .tc main_v76)⟩] concatenates_S73728x1_S73728x1_S73728x1_S73728x3_d1 = _
  rw [e74, e75, e76]
  rfl

include h0 hh in
/-- The head-id row handed to the mask region, at a column. -/
theorem head_row (t : Fin 73728) :
    StableHlo.after main_part1_ops1 W (Proc.devRef .tc main_v78) (ix2 (0 : Fin 1) t) = val_main_v60 (F := Ideal) a0 a1 (ix1 t) := by
  rw [second_stretch_split, after_append]
  have e66 := head_ids W a0 a1 h0 hh
  generalize StableHlo.after idsLead W = V at e66 ⊢
  host_line_results
  show shapeCast S1x73728 (V (Proc.devRef .tc main_v66)) shapeCasts_S73728_S1x73728 (ix2 (0 : Fin 1) t) = _
  rw [MaskOperands.ids_row_entry, e66]

include h0 ht in
/-- The tail-id row handed to the mask region, at a column. -/
theorem tail_row (t : Fin 73728) :
    StableHlo.after main_part1_ops1 W (Proc.devRef .tc main_v79) (ix2 (0 : Fin 1) t) = val_main_v67 (F := Ideal) a0 a1 (ix1 t) := by
  rw [second_stretch_split, after_append]
  have e73 := tail_ids W a0 a1 h0 ht
  generalize StableHlo.after idsLead W = V at e73 ⊢
  host_line_results
  show shapeCast S1x73728 (V (Proc.devRef .tc main_v73)) shapeCasts_S73728_S1x73728 (ix2 (0 : Fin 1) t) = _
  rw [MaskOperands.ids_row_entry, e73]

end Lead

section First

variable (W : Valuation τ sig (Elt Ideal))

/-- What the first host stretch leaves in the head-index vector: the reference's, of the same edge list. -/
theorem head_index : StableHlo.after main_part1_ops0 (StableHlo.after main_part0_ops0 W) (Proc.devRef .tc main_v35)
    = val_main_v32 (F := Ideal) (W (Proc.devRef .tc main_arg1)) := by
  after_results_simp
  rfl

theorem tail_index : StableHlo.after main_part1_ops0 (StableHlo.after main_part0_ops0 W) (Proc.devRef .tc main_v37)
    = val_main_v34 (F := Ideal) (W (Proc.devRef .tc main_arg1)) := by
  after_results_simp
  rfl

/-- The relation ids, the self-loop id appended. -/
theorem relation_ids : StableHlo.after main_part1_ops0 (StableHlo.after main_part0_ops0 W) (Proc.devRef .tc main_v33)
    = val_main_v30 (F := Ideal) (W (Proc.devRef .tc main_arg2)) := by
  after_results_simp
  rfl

end First

end Cert.KernelIdeal.HostChains

end
-- ==== Proof.ReferenceProjectionEntry.lean ====
/- The reference's projection, one entry at a time: the three [73728,768] operands joined along the
   columns into [73728,2304], times the [2304,768] weight, plus the bias broadcast down the rows. A sum
   over the 2304 joined columns is the sum of the three sums over each operand's 768 columns, each against
   its own 768-row band of the weight. -/
import proofs.«164025_j25692494364677_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.ProjectionEntry

open Cert.ReferenceIdeal Cert.ReferenceIdeal.Gen Idealize.ShloMosaic Idealize.SL.Sem Idealize.ShloMosaic.ValueIdx

/-- A sum over 2304 = 768 + 768 + 768 coordinates is the sum of the sums over the three bands. -/
theorem sum_three_bands {M : Type*} [AddCommMonoid M] (f : Fin 2304 → M) :
    ∑ q : Fin 2304, f q
      = ((∑ j : Fin 768, f ⟨j.val, by omega⟩) + (∑ j : Fin 768, f ⟨768 + j.val, by omega⟩))
          + (∑ j : Fin 768, f ⟨1536 + j.val, by omega⟩) := by
  have h1 : ∑ q : Fin 2304, f q = (∑ i : Fin 1536, f ⟨i.val, by omega⟩) + (∑ j : Fin 768, f ⟨1536 + j.val, by omega⟩) :=
    Fin.sum_univ_add (a := 1536) (b := 768) f
  have h2 : (∑ i : Fin 1536, f ⟨i.val, by omega⟩) = (∑ j : Fin 768, f ⟨j.val, by omega⟩) + (∑ j : Fin 768, f ⟨768 + j.val, by omega⟩) :=
    Fin.sum_univ_add (a := 768) (b := 768) (fun i : Fin 1536 => f ⟨i.val, by omega⟩)
  rw [h1, h2]

/-- The left operand's row coordinate is the output's row. -/
theorem lhs_row (i : S73728x768.Idx) (q : dot_S73728x2304_S2304x768_S73728x768_1_0_0_1_n_n.contr.Idx) :
    (dot_S73728x2304_S2304x768_S73728x768_1_0_0_1_n_n.lhsIdx i q 0).val = (i 0).val := by
  unfold DotDims.lhsIdx
  rw [dif_neg (show ¬(0 : Fin S73728x2304.rank) ∈ dot_S73728x2304_S2304x768_S73728x768_1_0_0_1_n_n.lhsBatch by decide), dif_pos (show (0 : Fin S73728x2304.rank) ∈ dot_S73728x2304_S2304x768_S73728x768_1_0_0_1_n_n.lhsNonContracting by decide)]
  rfl
/-- The left operand's column coordinate is the contraction coordinate. -/
theorem lhs_col (i : S73728x768.Idx) (q : dot_S73728x2304_S2304x768_S73728x768_1_0_0_1_n_n.contr.Idx) :
    (dot_S73728x2304_S2304x768_S73728x768_1_0_0_1_n_n.lhsIdx i q 1).val = (q ⟨0, by decide⟩).val :=
  dot_S73728x2304_S2304x768_S73728x768_1_0_0_1_n_n.lhsIdx_val_of_single rfl i q
/-- The right operand's row coordinate is the contraction coordinate. -/
theorem rhs_row (i : S73728x768.Idx) (q : dot_S73728x2304_S2304x768_S73728x768_1_0_0_1_n_n.contr.Idx) :
    (dot_S73728x2304_S2304x768_S73728x768_1_0_0_1_n_n.rhsIdx i q 0).val = (q ⟨0, by decide⟩).val :=
  dot_S73728x2304_S2304x768_S73728x768_1_0_0_1_n_n.rhsIdx_val_of_single rfl i q
/-- The right operand's column coordinate is the output's column. -/
theorem rhs_col (i : S73728x768.Idx) (q : dot_S73728x2304_S2304x768_S73728x768_1_0_0_1_n_n.contr.Idx) :
    (dot_S73728x2304_S2304x768_S73728x768_1_0_0_1_n_n.rhsIdx i q 1).val = (i 1).val := by
  unfold DotDims.rhsIdx
  rw [dif_neg (show ¬(1 : Fin S2304x768.rank) ∈ dot_S73728x2304_S2304x768_S73728x768_1_0_0_1_n_n.rhsBatch by decide), dif_pos (show (1 : Fin S2304x768.rank) ∈ dot_S73728x2304_S2304x768_S73728x768_1_0_0_1_n_n.rhsNonContracting by decide)]
  rfl

/-- The host's product at entry (t, k): the inner product of row t and column k over the 2304 joined columns. -/
theorem dotGeneral_entry (C : FVec Ideal S73728x2304 .f32) (Wt : FVec Ideal S2304x768 .f32) (t : Fin 73728) (k : Fin 768) :
    Host.dotGeneral (F := Ideal) dot_S73728x2304_S2304x768_S73728x768_1_0_0_1_n_n none C Wt (ix2 t k)
      = ∑ q : Fin 2304, C (ix2 t q) * Wt (ix2 q k) := by
  simp only [Host.dotGeneral]
  rw [Ideal.dotGeneral_apply, ← Equiv.sum_comp (ValueIdx.contrEquiv1 dot_S73728x2304_S2304x768_S73728x768_1_0_0_1_n_n 2304 rfl rfl).symm]
  refine Finset.sum_congr rfl fun q _ => ?_
  have hq := ValueIdx.contrEquiv1_symm_val dot_S73728x2304_S2304x768_S73728x768_1_0_0_1_n_n 2304 rfl rfl q
  have el : dot_S73728x2304_S2304x768_S73728x768_1_0_0_1_n_n.lhsIdx (ix2 t k) ((ValueIdx.contrEquiv1 dot_S73728x2304_S2304x768_S73728x768_1_0_0_1_n_n 2304 rfl rfl).symm q) = ix2 t q := funext fun a => Fin.ext (by
    match a with
    | ⟨0, _⟩ => exact lhs_row _ _
    | ⟨1, _⟩ => exact (lhs_col _ _).trans hq)
  have er : dot_S73728x2304_S2304x768_S73728x768_1_0_0_1_n_n.rhsIdx (ix2 t k) ((ValueIdx.contrEquiv1 dot_S73728x2304_S2304x768_S73728x768_1_0_0_1_n_n 2304 rfl rfl).symm q) = ix2 q k := funext fun a => Fin.ext (by
    match a with
    | ⟨0, _⟩ => exact (rhs_row _ _).trans hq
    | ⟨1, _⟩ => exact rhs_col _ _)
  rw [el, er]

section Join
variable {α : Type} (XH EA XT : S73728x768.Idx → α) (t : Fin 73728) (j : Fin 768)

/-- The joined array's columns [0, 768) are the first operand's. -/
theorem join_band0 :
    concatenate S73728x2304 1 [⟨S73728x768, XH⟩, ⟨S73728x768, EA⟩, ⟨S73728x768, XT⟩] concatenates_S73728x768_S73728x768_S73728x768_S73728x2304_d1
        (ix2 t (⟨j.val, by omega⟩ : Fin 2304)) = XH (ix2 t j) :=
  concatenate_apply_piece (1 : Fin S73728x2304.rank) [⟨S73728x768, XH⟩, ⟨S73728x768, EA⟩, ⟨S73728x768, XT⟩] concatenates_S73728x768_S73728x768_S73728x768_S73728x2304_d1
    (ix2 t (⟨j.val, by omega⟩ : Fin 2304)) 0 (by show (0 : Nat) < 3; omega) S73728x768 XH rfl rfl 0 rfl (ix2 t j)
    (fun b hb => by match b with | ⟨0, _⟩ => rfl | ⟨1, _⟩ => exact absurd rfl hb)
    (Nat.zero_add _)

/-- The joined array's columns [768, 1536) are the second operand's. -/
theorem join_band1 :
    concatenate S73728x2304 1 [⟨S73728x768, XH⟩, ⟨S73728x768, EA⟩, ⟨S73728x768, XT⟩] concatenates_S73728x768_S73728x768_S73728x768_S73728x2304_d1
        (ix2 t (⟨768 + j.val, by omega⟩ : Fin 2304)) = EA (ix2 t j) :=
  concatenate_apply_piece (1 : Fin S73728x2304.rank) [⟨S73728x768, XH⟩, ⟨S73728x768, EA⟩, ⟨S73728x768, XT⟩] concatenates_S73728x768_S73728x768_S73728x768_S73728x2304_d1
    (ix2 t (⟨768 + j.val, by omega⟩ : Fin 2304)) 1 (by show (1 : Nat) < 3; omega) S73728x768 EA rfl rfl 768 rfl (ix2 t j)
    (fun b hb => by match b with | ⟨0, _⟩ => rfl | ⟨1, _⟩ => exact absurd rfl hb)
    rfl

/-- The joined array's columns [1536, 2304) are the third operand's. -/
theorem join_band2 :
    concatenate S73728x2304 1 [⟨S73728x768, XH⟩, ⟨S73728x768, EA⟩, ⟨S73728x768, XT⟩] concatenates_S73728x768_S73728x768_S73728x768_S73728x2304_d1
        (ix2 t (⟨1536 + j.val, by omega⟩ : Fin 2304)) = XT (ix2 t j) :=
  concatenate_apply_piece (1 : Fin S73728x2304.rank) [⟨S73728x768, XH⟩, ⟨S73728x768, EA⟩, ⟨S73728x768, XT⟩] concatenates_S73728x768_S73728x768_S73728x768_S73728x2304_d1
    (ix2 t (⟨1536 + j.val, by omega⟩ : Fin 2304)) 2 (by show (2 : Nat) < 3; omega) S73728x768 XT rfl rfl 1536 rfl (ix2 t j)
    (fun b hb => by match b with | ⟨0, _⟩ => rfl | ⟨1, _⟩ => exact absurd rfl hb)
    rfl

end Join

/-- The bias made a row and broadcast down the 73728 rows reads, at (t, k), the bias at k. -/
theorem bias_entry {α : Type} (b : S768.Idx → α) (t : Fin 73728) (k : Fin 768) :
    broadcastInDim S73728x768 ![0, 1] bcast_S1x768_S73728x768_0_1 (broadcastInDim S1x768 ![1] bcast_S768_S1x768_1 b) (ix2 t k)
      = b (ix1 k) := by
  refine (broadcastInDim_apply _ bcast_S1x768_S73728x768_0_1 _ (ix2 t k) (ix2 (0 : Fin 1) k) (fun a => match a with
    | ⟨0, _⟩ => by show 0 = if (1 : Nat) = 1 then 0 else t.val; rw [if_pos rfl]
    | ⟨1, _⟩ => by show k.val = if (768 : Nat) = 1 then 0 else k.val; rw [if_neg (by decide)])).trans ?_
  exact broadcastInDim_apply _ bcast_S768_S1x768_1 b (ix2 (0 : Fin 1) k) (ix1 k) (fun a => match a with
    | ⟨0, _⟩ => by show k.val = if (768 : Nat) = 1 then 0 else k.val; rw [if_neg (by decide)])

/-- THE REFERENCE'S PROJECTION AT AN ENTRY: the three inner products, each operand against its band of the weight,
    plus the bias at the column. -/
theorem projection_entry (XH EA XT : (⟨S73728x768, .f32⟩ : BufTy).Contents (Elt Ideal))
    (Wt : (⟨S2304x768, .f32⟩ : BufTy).Contents (Elt Ideal)) (b : (⟨S768, .f32⟩ : BufTy).Contents (Elt Ideal))
    (t : Fin 73728) (k : Fin 768) :
    addf (F := Ideal)
        (Host.dotGeneral (F := Ideal) (φ₁ := .f32) (φ₂ := .f32) dot_S73728x2304_S2304x768_S73728x768_1_0_0_1_n_n none
          (concatenate (α := Ideal .f32) S73728x2304 1 [⟨S73728x768, XH⟩, ⟨S73728x768, EA⟩, ⟨S73728x768, XT⟩] concatenates_S73728x768_S73728x768_S73728x768_S73728x2304_d1) Wt)
        (broadcastInDim S73728x768 ![0, 1] bcast_S1x768_S73728x768_0_1 (broadcastInDim S1x768 ![1] bcast_S768_S1x768_1 b))
        (ix2 t k)
      = ((∑ j : Fin 768, XH (ix2 t j) * Wt (ix2 (⟨j.val, by omega⟩ : Fin 2304) k))
          + (∑ j : Fin 768, EA (ix2 t j) * Wt (ix2 (⟨768 + j.val, by omega⟩ : Fin 2304) k)))
          + (∑ j : Fin 768, XT (ix2 t j) * Wt (ix2 (⟨1536 + j.val, by omega⟩ : Fin 2304) k))
          + b (ix1 k) := by
  rw [addf_apply, dotGeneral_entry, bias_entry, sum_three_bands]
  simp only [join_band0, join_band1, join_band2]

end Cert.ReferenceIdeal.ProjectionEntry

end
-- ==== Proof.ReferenceMaskEntry.lean ====
/- The reference's mask, one entry at a time. For each of the two id vectors the reference compares every
   sentence position's id with every triple's id and or-reduces the answers over the 64 sentence positions from
   the bit 0; the two results are or-ed. An or-fold of bits is 1 exactly when some bit is 1, so entry (b, t) is 1
   exactly when some position of sentence b holds the first vector's id at t or the second's. -/
import proofs.«164025_j25692494364677_2_alg».proof.Proof.Gen.ReferenceIdeal
import Idealize.ShloMosaic.Lib.Pipeline.Value
import Idealize.ShloMosaic.Lib.ValueIdx
import Idealize.ShloMosaic.Lib.ValueLayout
import Idealize.ShloMosaic.PureOps.Reduce

noncomputable section

namespace Cert.ReferenceIdeal.MaskEntry

open Cert.ReferenceIdeal Cert.ReferenceIdeal.Gen Idealize.ShloMosaic Idealize.SL.Sem Idealize.ShloMosaic.ValueIdx

/-! ## Bits -/

/-- The or of two bits is 1 exactly when one of them is. -/
theorem ori_eq_one_iff : ∀ x y : BitVec 1, IntOp.ori x y = 1#1 ↔ x = 1#1 ∨ y = 1#1 := by decide

/-- An or-fold of bits from the bit 0 is 1 exactly when some bit of the family is 1. -/
theorem fold_ori_eq_one_iff {ι : Type} [DecidableEq ι] (S : Finset ι) (f : ι → BitVec 1) :
    S.fold IntOp.ori 0#1 f = 1#1 ↔ ∃ s ∈ S, f s = 1#1 := by
  induction S using Finset.induction_on with
  | empty =>
    rw [Finset.fold_empty]
    exact ⟨fun h => absurd h (by decide), fun ⟨_, hs, _⟩ => absurd hs (by simp)⟩
  | insert a S ha ih =>
    rw [Finset.fold_insert ha, ori_eq_one_iff, ih]
    constructor
    · rintro (h | ⟨s, hs, h⟩)
      · exact ⟨a, Finset.mem_insert_self _ _, h⟩
      · exact ⟨s, Finset.mem_insert_of_mem hs, h⟩
    · rintro ⟨s, hs, h⟩
      rcases Finset.mem_insert.mp hs with rfl | hs
      · exact Or.inl h
      · exact Or.inr ⟨s, hs, h⟩

/-- A bit that is 1 exactly when a proposition holds is the `if` on the proposition. -/
theorem bit_eq_ite {x : BitVec 1} {P : Prop} [Decidable P] (h : x = 1#1 ↔ P) : x = if P then 1#1 else 0#1 := by
  by_cases hp : P
  · rw [if_pos hp]; exact h.mpr hp
  · rw [if_neg hp]; exact eq_zero_of_ne_one (mt h.mp hp)

/-- An equality test of two 32-bit words is 1 exactly when they are equal. -/
theorem cmpi_eq_one_iff (x y : BitVec 32) : IntOp.cmpi .eq x y = 1#1 ↔ x = y := by
  show BitVec.ofBool (x == y) = 1#1 ↔ _
  by_cases h : x = y
  · rw [beq_iff_eq.mpr h]; exact ⟨fun _ => h, fun _ => rfl⟩
  · rw [beq_eq_false_iff_ne.mpr h]; exact ⟨fun e => absurd e (by decide), fun e => absurd e h⟩

/-- Two decided bits or-ed: 1 exactly when one of them holds. -/
theorem ori_bits (A B : Prop) [Decidable A] [Decidable B] :
    IntOp.ori (if A then 1#1 else 0#1) (if B then 1#1 else 0#1) = if A ∨ B then 1#1 else 0#1 := by
  by_cases hA : A
  · rw [if_pos hA, if_pos (Or.inl hA)]
    by_cases hB : B
    · rw [if_pos hB]; decide
    · rw [if_neg hB]; decide
  · rw [if_neg hA]
    by_cases hB : B
    · rw [if_pos hB, if_pos (Or.inr hB)]; decide
    · rw [if_neg hB, if_neg (not_or.mpr ⟨hA, hB⟩)]; decide

/-! ## The two operands spread over [8, 64, 73728] -/

/-- The sentence ids, given a trailing unit axis and broadcast along it, read (b, s) at every (b, s, t). -/
theorem sent_spread_entry {α : Type} (sent : S8x64.Idx → α) (b : Fin 8) (s : Fin 64) (t : Fin 73728) :
    broadcastInDim S8x64x73728 ![0, 1, 2] bcast_S8x64x1_S8x64x73728_0_1_2
        (broadcastInDim S8x64x1 ![0, 1] bcast_S8x64_S8x64x1_0_1 sent) (ix3 b s t)
      = sent (ix2 b s) := by
  refine (broadcastInDim_apply _ bcast_S8x64x1_S8x64x73728_0_1_2 _ (ix3 b s t) (ix3 b s (0 : Fin 1)) (fun a => match a with
    | ⟨0, _⟩ => by show b.val = if (8 : Nat) = 1 then 0 else b.val; rw [if_neg (by decide)]
    | ⟨1, _⟩ => by show s.val = if (64 : Nat) = 1 then 0 else s.val; rw [if_neg (by decide)]
    | ⟨2, _⟩ => by show 0 = if (1 : Nat) = 1 then 0 else t.val; rw [if_pos rfl])).trans ?_
  exact broadcastInDim_apply _ bcast_S8x64_S8x64x1_0_1 sent (ix3 b s (0 : Fin 1)) (ix2 b s) (fun a => match a with
    | ⟨0, _⟩ => by show b.val = if (8 : Nat) = 1 then 0 else b.val; rw [if_neg (by decide)]
    | ⟨1, _⟩ => by show s.val = if (64 : Nat) = 1 then 0 else s.val; rw [if_neg (by decide)])

/-- A vector of triple ids, given two leading unit axes and broadcast along them, reads t at every (b, s, t). -/
theorem ids_spread_entry {α : Type} (X : S73728.Idx → α) (b : Fin 8) (s : Fin 64) (t : Fin 73728) :
    broadcastInDim S8x64x73728 ![0, 1, 2] bcast_S1x1x73728_S8x64x73728_0_1_2
        (broadcastInDim S1x1x73728 ![2] bcast_S73728_S1x1x73728_2 X) (ix3 b s t)
      = X (ix1 t) := by
  refine (broadcastInDim_apply _ bcast_S1x1x73728_S8x64x73728_0_1_2 _ (ix3 b s t) (ix3 (0 : Fin 1) (0 : Fin 1) t) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show t.val = if (73728 : Nat) = 1 then 0 else t.val; rw [if_neg (by decide)])).trans ?_
  exact broadcastInDim_apply _ bcast_S73728_S1x1x73728_2 X (ix3 (0 : Fin 1) (0 : Fin 1) t) (ix1 t) (fun a => match a with
    | ⟨0, _⟩ => by show t.val = if (73728 : Nat) = 1 then 0 else t.val; rw [if_neg (by decide)])

/-! ## The or-reduce over the sentence positions -/

/-- The shapes of the or-reduce, as the fact that names the inserted index. -/
theorem reduces_positions : S8x64x73728.Reduces [1] S8x73728 := by decide

/-- The source index over (b, t) with sentence position s inserted is (b, s, t). -/
theorem lift_entry (b : Fin 8) (s : Fin 64) (t : Fin 73728) :
    reduces_positions.lift (ix2 b t) s = ix3 b s t :=
  funext fun c => Fin.ext (by
    match c with
    | ⟨0, _⟩ => rfl
    | ⟨1, _⟩ => rfl
    | ⟨2, _⟩ => rfl)

/-- One vector's membership at (b, t), as the reference computes it. -/
def member (sent : IVec S8x64 32) (X : IVec S73728 32) : IVec S8x73728 1 :=
  Host.reduce IntOp.ori
    (cmpi .eq
      (broadcastInDim S8x64x73728 ![0, 1, 2] bcast_S8x64x1_S8x64x73728_0_1_2 (broadcastInDim S8x64x1 ![0, 1] bcast_S8x64_S8x64x1_0_1 sent))
      (broadcastInDim S8x64x73728 ![0, 1, 2] bcast_S1x1x73728_S8x64x73728_0_1_2 (broadcastInDim S1x1x73728 ![2] bcast_S73728_S1x1x73728_2 X)))
    (constantI S_ 1 0#1) reducesTo_S8x64x73728_S8x73728_d1 h_S_

/-- The equality test at (b, s, t) compares the sentence's id at (b, s) with the vector's id at t. -/
theorem eqTest_entry (sent : IVec S8x64 32) (X : IVec S73728 32) (b : Fin 8) (s : Fin 64) (t : Fin 73728) :
    cmpi .eq
      (broadcastInDim S8x64x73728 ![0, 1, 2] bcast_S8x64x1_S8x64x73728_0_1_2 (broadcastInDim S8x64x1 ![0, 1] bcast_S8x64_S8x64x1_0_1 sent))
      (broadcastInDim S8x64x73728 ![0, 1, 2] bcast_S1x1x73728_S8x64x73728_0_1_2 (broadcastInDim S1x1x73728 ![2] bcast_S73728_S1x1x73728_2 X))
      (ix3 b s t)
      = IntOp.cmpi .eq (sent (ix2 b s)) (X (ix1 t)) := by
  show IntOp.cmpi .eq
      (broadcastInDim S8x64x73728 ![0, 1, 2] bcast_S8x64x1_S8x64x73728_0_1_2 (broadcastInDim S8x64x1 ![0, 1] bcast_S8x64_S8x64x1_0_1 sent) (ix3 b s t))
      (broadcastInDim S8x64x73728 ![0, 1, 2] bcast_S1x1x73728_S8x64x73728_0_1_2 (broadcastInDim S1x1x73728 ![2] bcast_S73728_S1x1x73728_2 X) (ix3 b s t)) = _
  rw [sent_spread_entry, ids_spread_entry]

/-- The equality tests over (b, t), position by position. -/
theorem eqTest_lift (sent : IVec S8x64 32) (X : IVec S73728 32) (b : Fin 8) (t : Fin 73728) :
    ((cmpi .eq
      (broadcastInDim S8x64x73728 ![0, 1, 2] bcast_S8x64x1_S8x64x73728_0_1_2 (broadcastInDim S8x64x1 ![0, 1] bcast_S8x64_S8x64x1_0_1 sent))
      (broadcastInDim S8x64x73728 ![0, 1, 2] bcast_S1x1x73728_S8x64x73728_0_1_2 (broadcastInDim S1x1x73728 ![2] bcast_S73728_S1x1x73728_2 X)))
        ∘ reduces_positions.lift (ix2 b t))
      = fun s : Fin 64 => IntOp.cmpi .eq (sent (ix2 b s)) (X (ix1 t)) :=
  funext fun s => (congrArg _ (lift_entry b s t)).trans (eqTest_entry sent X b s t)

/-- One vector's membership at (b, t) is the or-fold from the bit 0 of the 64 equality tests. -/
theorem member_fold (sent : IVec S8x64 32) (X : IVec S73728 32) (b : Fin 8) (t : Fin 73728) :
    member sent X (ix2 b t)
      = (Finset.univ : Finset (Fin 64)).fold IntOp.ori 0#1 (fun s : Fin 64 => IntOp.cmpi .eq (sent (ix2 b s)) (X (ix1 t))) := by
  unfold member
  refine (Host.reduce_eq_fold_single IntOp.ori _ (constantI S_ 1 0#1) reducesTo_S8x64x73728_S8x73728_d1 reduces_positions h_S_ (ix2 b t)).trans ?_
  rw [eqTest_lift]
  rfl

/-- One vector's membership at (b, t): some position of sentence b holds the vector's id at t. -/
theorem member_entry (sent : IVec S8x64 32) (X : IVec S73728 32) (b : Fin 8) (t : Fin 73728) :
    member sent X (ix2 b t) = if ∃ s : Fin 64, sent (ix2 b s) = X (ix1 t) then 1#1 else 0#1 := by
  rw [member_fold]
  refine bit_eq_ite ?_
  rw [fold_ori_eq_one_iff]
  constructor
  · rintro ⟨s, _, hs⟩
    exact ⟨s, (cmpi_eq_one_iff _ _).mp hs⟩
  · rintro ⟨s, hs⟩
    exact ⟨s, Finset.mem_univ _, (cmpi_eq_one_iff _ _).mpr hs⟩

/-- THE REFERENCE'S MASK AT AN ENTRY: 1 exactly when some position of sentence b holds the first vector's id at t or
    the second's. -/
theorem mask_entry (sent : IVec S8x64 32) (H T : IVec S73728 32) (b : Fin 8) (t : Fin 73728) :
    ori (member sent H) (member sent T) (ix2 b t)
      = if (∃ s : Fin 64, sent (ix2 b s) = H (ix1 t)) ∨ (∃ s : Fin 64, sent (ix2 b s) = T (ix1 t)) then 1#1 else 0#1 := by
  show IntOp.ori (member sent H (ix2 b t)) (member sent T (ix2 b t)) = _
  rw [member_entry, member_entry, ori_bits]

end Cert.ReferenceIdeal.MaskEntry

end
-- ==== Proof.ReferenceEntries.lean ====
/- The reference's two results, one entry at a time, on the names of the reference read operation by
   operation: the projection is the three inner products of the gathered head rows, the edge rows and the
   gathered tail rows against their bands of the weight, plus the bias; the mask is 1 exactly when some
   position of the sentence holds the head's id or the tail's. -/
import proofs.«164025_j25692494364677_2_alg».proof.Proof.ReferenceStages
import proofs.«164025_j25692494364677_2_alg».proof.Proof.ReferenceProjectionEntry
import proofs.«164025_j25692494364677_2_alg».proof.Proof.ReferenceMaskEntry

noncomputable section

open scoped BigOperators

namespace Cert.ReferenceIdeal.Entries

open Cert.ReferenceIdeal Cert.ReferenceIdeal.Gen Cert.ReferenceIdeal.Stages Idealize.ShloMosaic Idealize.SL.Sem Idealize.ShloMosaic.ValueIdx

/-- The reference's projection at (t, k). -/
theorem projection_read (x0 : (⟨S8192, .i32⟩ : BufTy).Contents (Elt Ideal)) (x1 : (⟨S2x65536, .i32⟩ : BufTy).Contents (Elt Ideal)) (x2 : (⟨S65536x2, .f32⟩ : BufTy).Contents (Elt Ideal)) (x4 : (⟨S100000x768, .f32⟩ : BufTy).Contents (Elt Ideal)) (x5 : (⟨S38x768, .f32⟩ : BufTy).Contents (Elt Ideal)) (x6 : (⟨S768, .f32⟩ : BufTy).Contents (Elt Ideal)) (x7 : (⟨S2304x768, .f32⟩ : BufTy).Contents (Elt Ideal)) (x8 : (⟨S768, .f32⟩ : BufTy).Contents (Elt Ideal))
    (t : Fin 73728) (k : Fin 768) :
    val_main_v53 (F := Ideal) x0 x1 x2 x4 x5 x6 x7 x8 (ix2 t k)
      = ((∑ j : Fin 768, val_main_v41 (F := Ideal) x0 x1 x4 (ix2 t j) * x7 (ix2 (⟨j.val, by omega⟩ : Fin 2304) k))
          + (∑ j : Fin 768, val_main_v28 (F := Ideal) x2 x5 x6 (ix2 t j) * x7 (ix2 (⟨768 + j.val, by omega⟩ : Fin 2304) k)))
          + (∑ j : Fin 768, val_main_v48 (F := Ideal) x0 x1 x4 (ix2 t j) * x7 (ix2 (⟨1536 + j.val, by omega⟩ : Fin 2304) k))
          + x8 (ix1 k) :=
  ProjectionEntry.projection_entry (val_main_v41 (F := Ideal) x0 x1 x4) (val_main_v28 (F := Ideal) x2 x5 x6)
    (val_main_v48 (F := Ideal) x0 x1 x4) x7 x8 t k

/-- The reference's mask at (b, t). -/
theorem mask_read (x0 : (⟨S8192, .i32⟩ : BufTy).Contents (Elt Ideal)) (x1 : (⟨S2x65536, .i32⟩ : BufTy).Contents (Elt Ideal))
    (x3 : (⟨S8x64, .i32⟩ : BufTy).Contents (Elt Ideal)) (b : Fin 8) (t : Fin 73728) :
    val_main_v84 (F := Ideal) x0 x1 x3 (ix2 b t)
      = if (∃ s : Fin 64, x3 (ix2 b s) = val_main_v60 (F := Ideal) x0 x1 (ix1 t))
            ∨ (∃ s : Fin 64, x3 (ix2 b s) = val_main_v67 (F := Ideal) x0 x1 (ix1 t)) then 1#1 else 0#1 :=
  MaskEntry.mask_entry x3 (val_main_v60 (F := Ideal) x0 x1) (val_main_v67 (F := Ideal) x0 x1) b t

end Cert.ReferenceIdeal.Entries

end
-- ==== Proof.ProjectionOperands.lean ====
/- What the host hands the projection kernel, one entry at a time: the three 768-row bands of the
   [2304,768] weight, each narrowed to bf16 (the identity at the ideal values), and the bias viewed as
   one row. -/
import proofs.«164025_j25692494364677_2_alg».proof.Proof.Gen.KernelIdeal
import Idealize.ShloMosaic.Lib.Pipeline.Value
import Idealize.ShloMosaic.Lib.ValueIdx
import Idealize.ShloMosaic.Lib.ValueLayout

noncomputable section

namespace Cert.KernelIdeal.ProjectionOperands

open Cert.KernelIdeal Cert.KernelIdeal.Gen Idealize.ShloMosaic Idealize.SL.Sem Idealize.ShloMosaic.ValueIdx

/-- At the ideal values a narrowing to bf16 changes nothing, at any shape. -/
theorem truncf_bf16_eq {s : Shape} (x : FVec Ideal s .f32) (h : FTy.bits .bf16 < FTy.bits .f32) :
    (truncf .bf16 x h : FVec Ideal s .bf16) = x :=
  funext fun i => truncf_apply x h i

/-- The first band of the weight, narrowed: row j of the band is row j of the weight. -/
theorem weight_band0_entry (Wt : (⟨S2304x768, .f32⟩ : BufTy).Contents (Elt Ideal)) (j k : Fin 768) :
    truncf (F := Ideal) .bf16 (extractStridedSlice S768x768 ![0, 0] Wt slices_S2304x768_S768x768_0_0) bitsLt_bf16_f32 (ix2 j k)
      = Wt (ix2 (⟨j.val, by omega⟩ : Fin 2304) k) := by
  rw [truncf_apply]
  exact slice2_axis0_apply 0 Wt slices_S2304x768_S768x768_0_0 j k ⟨j.val, by omega⟩ (Nat.zero_add _).symm

/-- The second band of the weight, narrowed: row j of the band is row 768 + j of the weight. -/
theorem weight_band1_entry (Wt : (⟨S2304x768, .f32⟩ : BufTy).Contents (Elt Ideal)) (j k : Fin 768) :
    truncf (F := Ideal) .bf16 (extractStridedSlice S768x768 ![768, 0] Wt slices_S2304x768_S768x768_768_0) bitsLt_bf16_f32 (ix2 j k)
      = Wt (ix2 (⟨768 + j.val, by omega⟩ : Fin 2304) k) := by
  rw [truncf_apply]
  exact slice2_axis0_apply 768 Wt slices_S2304x768_S768x768_768_0 j k ⟨768 + j.val, by omega⟩ rfl

/-- The third band of the weight, narrowed: row j of the band is row 1536 + j of the weight. -/
theorem weight_band2_entry (Wt : (⟨S2304x768, .f32⟩ : BufTy).Contents (Elt Ideal)) (j k : Fin 768) :
    truncf (F := Ideal) .bf16 (extractStridedSlice S768x768 ![1536, 0] Wt slices_S2304x768_S768x768_1536_0) bitsLt_bf16_f32 (ix2 j k)
      = Wt (ix2 (⟨1536 + j.val, by omega⟩ : Fin 2304) k) := by
  rw [truncf_apply]
  exact slice2_axis0_apply 1536 Wt slices_S2304x768_S768x768_1536_0 j k ⟨1536 + j.val, by omega⟩ rfl

/-- The bias viewed as one row reads, at (0, k), the bias at k. -/
theorem bias_row_entry {α : Type} (b : S768.Idx → α) (k : Fin 768) :
    shapeCast S1x768 b shapeCasts_S768_S1x768 (ix2 (0 : Fin 1) k) = b (ix1 k) :=
  shapeCast_a_1a_apply b shapeCasts_S768_S1x768 0 k

end Cert.KernelIdeal.ProjectionOperands

end
-- ==== Proof.ProjOperandsChain.lean ====
/- What the projection region is handed, as functions of the arguments: after the two stretches of host
   operations that precede it, the three [73728,768] operands are the reference's gathered head rows, edge
   rows and gathered tail rows (the kernel's narrowings to bf16 are the identity at the ideal values), the
   three weight operands are the three 768-row bands of the weight, and the bias operand is the bias as one
   row. Stated for any buffer contents the stretches start from. -/
import proofs.«164025_j25692494364677_2_alg».proof.Proof.Gen.KernelIdeal.Launch
import proofs.«164025_j25692494364677_2_alg».proof.Proof.ReferenceStages
import proofs.«164025_j25692494364677_2_alg».proof.Proof.ProjectionOperands
import Idealize.ShloMosaic.Lib.StableHlo.Run

set_option maxRecDepth 16384

noncomputable section

namespace Cert.KernelIdeal.ProjOperandsChain

open Cert.KernelIdeal Cert.KernelIdeal.Gen Idealize.ShloMosaic Idealize.ShloMosaic.TcCoe Idealize.SL.Sem Idealize.ShloMosaic.StableHlo Idealize.ShloMosaic.ValueIdx
open Cert.KernelIdeal.ProjectionOperands

/-- Rewrites every operation's result at a buffer: its function's value at its own result buffer, what was there
    at any other. -/
macro "results_rw" : tactic =>
  `(tactic| repeat (first
      | rw [StableHlo.nullary_result] | rw [StableHlo.unary_result] | rw [StableHlo.binary_result] | rw [StableHlo.ternary_result]
      | rw [StableHlo.reshape_result]
      | rw [StableHlo.nullary_result_ne (h := by decide)]
      | rw [StableHlo.unary_result_ne (h := by decide)]
      | rw [StableHlo.binary_result_ne (h := by decide)]
      | rw [StableHlo.ternary_result_ne (h := by decide)]
      | rw [StableHlo.reshape_result_ne (h := by decide)]))

set_option maxHeartbeats 4000000 in
/-- The first operand is the reference's gathered head rows. -/
theorem xh_chain (W0 : Valuation τ sig (Elt Ideal)) :
    StableHlo.after (main_part1_ops0 (F := Ideal)) (StableHlo.after (main_part0_ops0 (F := Ideal)) W0) (Proc.devRef .tc main_v44)
      = Cert.ReferenceIdeal.Stages.val_main_v41 (F := Ideal) (W0 (Proc.devRef .tc main_arg0)) (W0 (Proc.devRef .tc main_arg1))
          (W0 (Proc.devRef .tc main_arg4)) := by
  after_results_simp
  results_rw
  repeat rw [truncf_bf16_eq]
  rfl

set_option maxHeartbeats 4000000 in
/-- The second operand is the reference's edge rows. -/
theorem ea_chain (W0 : Valuation τ sig (Elt Ideal)) :
    StableHlo.after (main_part1_ops0 (F := Ideal)) (StableHlo.after (main_part0_ops0 (F := Ideal)) W0) (Proc.devRef .tc main_v31)
      = Cert.ReferenceIdeal.Stages.val_main_v28 (F := Ideal) (W0 (Proc.devRef .tc main_arg2)) (W0 (Proc.devRef .tc main_arg5))
          (W0 (Proc.devRef .tc main_arg6)) := by
  after_results_simp
  results_rw
  repeat rw [truncf_bf16_eq]
  rfl

set_option maxHeartbeats 4000000 in
/-- The third operand is the reference's gathered tail rows. -/
theorem xt_chain (W0 : Valuation τ sig (Elt Ideal)) :
    StableHlo.after (main_part1_ops0 (F := Ideal)) (StableHlo.after (main_part0_ops0 (F := Ideal)) W0) (Proc.devRef .tc main_v51)
      = Cert.ReferenceIdeal.Stages.val_main_v48 (F := Ideal) (W0 (Proc.devRef .tc main_arg0)) (W0 (Proc.devRef .tc main_arg1))
          (W0 (Proc.devRef .tc main_arg4)) := by
  after_results_simp
  results_rw
  repeat rw [truncf_bf16_eq]
  rfl

set_option maxHeartbeats 4000000 in
/-- The first weight operand is rows [0, 768) of the weight. -/
theorem w1_chain (W0 : Valuation τ sig (Elt Ideal)) (j k : Fin 768) :
    StableHlo.after (main_part1_ops0 (F := Ideal)) (StableHlo.after (main_part0_ops0 (F := Ideal)) W0) (Proc.devRef .tc main_v53) (ix2 j k)
      = W0 (Proc.devRef .tc main_arg7) (ix2 (⟨j.val, by omega⟩ : Fin 2304) k) := by
  have h : StableHlo.after (main_part1_ops0 (F := Ideal)) (StableHlo.after (main_part0_ops0 (F := Ideal)) W0) (Proc.devRef .tc main_v53)
      = truncf (F := Ideal) .bf16 (extractStridedSlice S768x768 ![0, 0] (W0 (Proc.devRef .tc main_arg7)) slices_S2304x768_S768x768_0_0) bitsLt_bf16_f32 := by
    after_results_simp
  rw [h]
  exact weight_band0_entry (W0 (Proc.devRef .tc main_arg7)) j k

set_option maxHeartbeats 4000000 in
/-- The second weight operand is rows [768, 1536) of the weight. -/
theorem w2_chain (W0 : Valuation τ sig (Elt Ideal)) (j k : Fin 768) :
    StableHlo.after (main_part1_ops0 (F := Ideal)) (StableHlo.after (main_part0_ops0 (F := Ideal)) W0) (Proc.devRef .tc main_v55) (ix2 j k)
      = W0 (Proc.devRef .tc main_arg7) (ix2 (⟨768 + j.val, by omega⟩ : Fin 2304) k) := by
  have h : StableHlo.after (main_part1_ops0 (F := Ideal)) (StableHlo.after (main_part0_ops0 (F := Ideal)) W0) (Proc.devRef .tc main_v55)
      = truncf (F := Ideal) .bf16 (extractStridedSlice S768x768 ![768, 0] (W0 (Proc.devRef .tc main_arg7)) slices_S2304x768_S768x768_768_0) bitsLt_bf16_f32 := by
    after_results_simp
  rw [h]
  exact weight_band1_entry (W0 (Proc.devRef .tc main_arg7)) j k

set_option maxHeartbeats 4000000 in
/-- The third weight operand is rows [1536, 2304) of the weight. -/
theorem w3_chain (W0 : Valuation τ sig (Elt Ideal)) (j k : Fin 768) :
    StableHlo.after (main_part1_ops0 (F := Ideal)) (StableHlo.after (main_part0_ops0 (F := Ideal)) W0) (Proc.devRef .tc main_v57) (ix2 j k)
      = W0 (Proc.devRef .tc main_arg7) (ix2 (⟨1536 + j.val, by omega⟩ : Fin 2304) k) := by
  have h : StableHlo.after (main_part1_ops0 (F := Ideal)) (StableHlo.after (main_part0_ops0 (F := Ideal)) W0) (Proc.devRef .tc main_v57)
      = truncf (F := Ideal) .bf16 (extractStridedSlice S768x768 ![1536, 0] (W0 (Proc.devRef .tc main_arg7)) slices_S2304x768_S768x768_1536_0) bitsLt_bf16_f32 := by
    after_results_simp
  rw [h]
  exact weight_band2_entry (W0 (Proc.devRef .tc main_arg7)) j k

set_option maxHeartbeats 4000000 in
/-- The bias operand is the bias as one row. -/
theorem bias_chain (W0 : Valuation τ sig (Elt Ideal)) (k : Fin 768) :
    StableHlo.after (main_part1_ops0 (F := Ideal)) (StableHlo.after (main_part0_ops0 (F := Ideal)) W0) (Proc.devRef .tc main_v58) (ix2 (0 : Fin 1) k)
      = W0 (Proc.devRef .tc main_arg8) (ix1 k) := by
  have h : StableHlo.after (main_part1_ops0 (F := Ideal)) (StableHlo.after (main_part0_ops0 (F := Ideal)) W0) (Proc.devRef .tc main_v58)
      = shapeCast S1x768 (W0 (Proc.devRef .tc main_arg8)) shapeCasts_S768_S1x768 := by
    after_results_simp
    rfl
  rw [h]
  exact bias_row_entry (W0 (Proc.devRef .tc main_arg8)) k

end Cert.KernelIdeal.ProjOperandsChain

end
-- ==== Proof.KernelMatches.lean ====
/-
  The idealized kernel's three results are the reference's, as functions of the same arguments.
  The triple-id table: the kernel's second host stretch runs the reference's operations on what the first stretch left,
  which is what the reference's first operations compute. The mask: flag (b, n) of the mask region, compared with zero,
  is "some id of sentence b equals head id n or tail id n", which is what the reference's two or-reductions of equality
  tests say, the head and tail ids being the same gathered vectors on both sides. The projection: entry (n, k) of the
  region's result is Σ_j xh(n, j)·W(j, k) + Σ_j ea(n, j)·W(768 + j, k) + Σ_j xt(n, j)·W(1536 + j, k) + b(k), and the reference's
  product of the three operands laid side by side with the whole weight matrix is the same three sums regrouped — sums of
  extended reals are commutative and associative, so no finiteness of the inputs is used.
-/
import proofs.«164025_j25692494364677_2_alg».proof.Proof.KernelResults
import proofs.«164025_j25692494364677_2_alg».proof.Proof.HostChains
import proofs.«164025_j25692494364677_2_alg».proof.Proof.ReferenceEntries
import proofs.«164025_j25692494364677_2_alg».proof.Proof.ProjOperandsChain

set_option maxRecDepth 16384

noncomputable section

namespace Cert.KernelIdeal.Matches

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Stages

variable (m : (ℓ : Loc nD τ sig) → Buf (Elt Ideal) ℓ) (ρ : Dev nD → PrngReg) (c : Dev nD)

/-- An argument array, as the second host stretch finds it: no operation before it writes an argument, and the
    projection region's operands are none of the arguments. -/
theorem arg_at_second_stretch (b : Ref sig .tc) (h0 : ∀ w, Pipeline.arrRef spec0 w ≠ b) (hA : b ∉ Whole.opsA_written) (hB : b ∉ Whole.opsB_written) :
    Whole.B3 m ρ c (Proc.devRef .tc b) = m ((c : Thread nD τ).loc b) :=
  calc Whole.B3 m ρ c (Proc.devRef .tc b)
    _ = Whole.B2 m ρ c (Proc.devRef .tc b) := Whole.B3_of_ne m ρ c b h0
    _ = Whole.B1 m ρ c (Proc.devRef .tc b) := StableHlo.after_of_writes_sub _ _ Whole.opsB_writes hB
    _ = Whole.B0 m ρ c (Proc.devRef .tc b) := StableHlo.after_of_writes_sub _ _ Whole.opsA_writes hA
    _ = _ := rfl

theorem concept_ids_kept : Whole.B3 m ρ c (Proc.devRef .tc main_arg0) = m ((c : Thread nD τ).loc main_arg0) :=
  arg_at_second_stretch m ρ c main_arg0 (by decide) (by decide) (by decide)

theorem head_index_found : Whole.B3 m ρ c (Proc.devRef .tc main_v35) = val_main_v32 (F := Ideal) (m ((c : Thread nD τ).loc main_arg1)) :=
  (Results.untouched_by_proj m ρ c main_v35 (by decide)).trans (HostChains.head_index (Whole.B0 m ρ c))

theorem tail_index_found : Whole.B3 m ρ c (Proc.devRef .tc main_v37) = val_main_v34 (F := Ideal) (m ((c : Thread nD τ).loc main_arg1)) :=
  (Results.untouched_by_proj m ρ c main_v37 (by decide)).trans (HostChains.tail_index (Whole.B0 m ρ c))

theorem relation_ids_found : Whole.B3 m ρ c (Proc.devRef .tc main_v33) = val_main_v30 (F := Ideal) (m ((c : Thread nD τ).loc main_arg2)) :=
  (Results.untouched_by_proj m ρ c main_v33 (by decide)).trans (HostChains.relation_ids (Whole.B0 m ρ c))

/-- The triple-id tables agree. -/
theorem ids_match : Whole.B6 m ρ c (Proc.devRef .tc main_v77)
    = val_main_v71 (F := Ideal) (m ((c : Thread nD τ).loc main_arg0)) (m ((c : Thread nD τ).loc main_arg1)) (m ((c : Thread nD τ).loc main_arg2)) :=
  (Results.ids_result m ρ c).trans
    (HostChains.ids_table (Whole.B3 m ρ c) _ _ _ (concept_ids_kept m ρ c) (head_index_found m ρ c) (tail_index_found m ρ c)
      (relation_ids_found m ρ c))

/-- The sentence ids reach the mask region as launched. -/
theorem sentence_ids_kept : Whole.E4 m ρ c main_arg3 = m ((c : Thread nD τ).loc main_arg3) :=
  calc Whole.B4 m ρ c (Proc.devRef .tc main_arg3)
    _ = Whole.B3 m ρ c (Proc.devRef .tc main_arg3) := StableHlo.after_of_writes_sub _ _ Whole.opsC_writes (by decide)
    _ = _ := arg_at_second_stretch m ρ c main_arg3 (by decide) (by decide) (by decide)

/-- A flag of the mask region tested against zero: 1 exactly when its condition holds. -/
theorem flag_test (sent : Vec Ideal S8x64 .i32) (hd tl : Vec Ideal S1x73728 .i32) (b : Fin 8) (t : Fin 73728) :
    (if MaskArray.flags sent hd tl (ix2 b t) ≠ 0#32 then 1#1 else 0#1)
      = if (∃ s : Fin 64, sent (ix2 b s) = hd (ix2 (0 : Fin 1) t)) ∨ (∃ s : Fin 64, sent (ix2 b s) = tl (ix2 (0 : Fin 1) t))
          then 1#1 else 0#1 := by
  unfold MaskArray.flags
  exact MaskOperands.ne_zero_of_decided _

/-- The condition read on other names of the same arrays: the sentence ids as another array equal to them, the head
    and tail id rows at column t as two id vectors at t. -/
theorem flag_condition_congr (sent : Vec Ideal S8x64 .i32) (hd tl : Vec Ideal S1x73728 .i32)
    (sent' : (⟨Cert.ReferenceIdeal.S8x64, .i32⟩ : BufTy).Contents (Elt Ideal))
    (H T : (⟨Cert.ReferenceIdeal.S73728, .i32⟩ : BufTy).Contents (Elt Ideal)) (b : Fin 8) (t : Fin 73728)
    (hs : sent = sent') (hh : hd (ix2 (0 : Fin 1) t) = H (ix1 t)) (ht : tl (ix2 (0 : Fin 1) t) = T (ix1 t)) :
    (if (∃ s : Fin 64, sent (ix2 b s) = hd (ix2 (0 : Fin 1) t)) ∨ (∃ s : Fin 64, sent (ix2 b s) = tl (ix2 (0 : Fin 1) t))
        then 1#1 else 0#1)
      = if (∃ s : Fin 64, sent' (ix2 b s) = H (ix1 t)) ∨ (∃ s : Fin 64, sent' (ix2 b s) = T (ix1 t)) then 1#1 else 0#1 := by
  subst hs
  rw [hh, ht]

/-- The masks agree. -/
theorem mask_match : Whole.B6 m ρ c (Proc.devRef .tc main_v83)
    = val_main_v84 (F := Ideal) (m ((c : Thread nD τ).loc main_arg0)) (m ((c : Thread nD τ).loc main_arg1)) (m ((c : Thread nD τ).loc main_arg3)) := by
  funext i
  obtain ⟨b, t, rfl⟩ : ∃ (b : Fin 8) (t : Fin 73728), i = ix2 b t := ⟨i 0, i 1, eq_ix2 i⟩
  refine (congrFun (Results.mask_result m ρ c) (ix2 b t)).trans ?_
  refine (MaskOperands.ne_zero_entry _ b t).trans ?_
  refine (congrArg (fun v : Vec Ideal S8x73728 .i32 => if v (ix2 b t) ≠ 0#32 then (1#1 : BitVec 1) else 0#1)
    (Results.flags_left m ρ c)).trans ?_
  refine (flag_test _ _ _ b t).trans ?_
  refine (flag_condition_congr _ _ _ _ _ _ b t (sentence_ids_kept m ρ c)
    (HostChains.head_row (Whole.B3 m ρ c) _ _ (concept_ids_kept m ρ c) (head_index_found m ρ c) t)
    (HostChains.tail_row (Whole.B3 m ρ c) _ _ (concept_ids_kept m ρ c) (tail_index_found m ρ c) t)).trans ?_
  exact (Cert.ReferenceIdeal.Entries.mask_read _ _ _ b t).symm

/-- Four-term sums of extended reals agree when their terms do. -/
theorem four_terms {a a' b b' d d' e e' : EReal} (ha : a = a') (hb : b = b') (hd : d = d') (he : e = e') :
    ((a + b) + d) + e = ((a' + b') + d') + e' := by rw [ha, hb, hd, he]

/-- Sums of products agree when the factors do. -/
theorem sum_mul_congr {f f' g g' : Fin 768 → EReal} (hf : ∀ j, f j = f' j) (hg : ∀ j, g j = g' j) :
    (∑ j : Fin 768, f j * g j) = ∑ j : Fin 768, f' j * g' j :=
  Finset.sum_congr rfl fun j _ => by rw [hf j, hg j]

/-- The projections agree. -/
theorem proj_match : Whole.B6 m ρ c (Proc.devRef .tc main_v59)
    = val_main_v53 (F := Ideal) (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7)) (m ((c : Thread nD τ).loc main_arg8)) := by
  funext i
  obtain ⟨n, k, rfl⟩ : ∃ (n : Fin 73728) (k : Fin 768), i = ix2 n k := ⟨i 0, i 1, eq_ix2 i⟩
  rw [Results.proj_result, Cert.ReferenceIdeal.Entries.projection_read]
  unfold ProjArray.rowsTimes
  exact four_terms
    (sum_mul_congr (fun j => congrFun (ProjOperandsChain.xh_chain (Whole.B0 m ρ c)) _) (fun j => ProjOperandsChain.w1_chain (Whole.B0 m ρ c) j k))
    (sum_mul_congr (fun j => congrFun (ProjOperandsChain.ea_chain (Whole.B0 m ρ c)) _) (fun j => ProjOperandsChain.w2_chain (Whole.B0 m ρ c) j k))
    (sum_mul_congr (fun j => congrFun (ProjOperandsChain.xt_chain (Whole.B0 m ρ c)) _) (fun j => ProjOperandsChain.w3_chain (Whole.B0 m ρ c) j k))
    (ProjOperandsChain.bias_chain (Whole.B0 m ρ c) k)

end Cert.KernelIdeal.Matches

end
-- ==== Proof.lean ====
/-
  A graph-encoder step: gather concept embeddings at the nodes of each (head, relation, tail) triple, scale the relation
  embeddings by the edge weights, append self-loops, and project [x_head | edge | x_tail] by a 2304 x 768 matrix plus a
  bias; beside it, a membership mask (does sentence b mention the head or the tail concept of triple n) and the table of
  triple ids. The kernel splits the projection into three 768-column bands and runs it, 3072 rows at a time, on the
  matrix unit; the reference multiplies the concatenated rows by the whole matrix. At the ideal instance (floats are
  extended reals, a change of float format is the identity) the two are the same three sums regrouped, which needs only
  that addition of extended reals is commutative and associative. The mask is computed by the kernel as "the maximum over
  the sentence's ids of a 0/1 indicator is positive" and by the reference as an or-reduction of equality tests; the id
  table by the same host operations in both.
  The frames of the two kernel programs (word-level and idealized: the same text) are the run of @main as six
  segments — two host stretches, the projection region, a host stretch, the mask region, a host stretch —; the reference's
  frame and values are its run read back stage by stage.
-/
import proofs.«164025_j25692494364677_2_alg».proof.Defs
import proofs.«164025_j25692494364677_2_alg».proof.Proof.Gen.Kernel
import proofs.«164025_j25692494364677_2_alg».proof.Proof.Gen.KernelIdeal
import proofs.«164025_j25692494364677_2_alg».proof.Proof.Gen.ReferenceIdeal
import proofs.«164025_j25692494364677_2_alg».proof.Proof.Gen.Pre_finite_inputs
import proofs.«164025_j25692494364677_2_alg».proof.Proof.ReferenceRun
import proofs.«164025_j25692494364677_2_alg».proof.Proof.WordsWholeRun
import proofs.«164025_j25692494364677_2_alg».proof.Proof.WholeRun
import proofs.«164025_j25692494364677_2_alg».proof.Proof.KernelMatches
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end without fault and leaves its arguments as launched. -/
theorem frame_words : Cert.frame_Kernel := fun m ρ _ => Cert.Kernel.Whole.frame (F := Bits) m ρ

/-- So does the idealized one. -/
theorem frame_ideal : Cert.frame_KernelIdeal := fun m ρ _ => Cert.KernelIdeal.Whole.frame (F := Ideal) m ρ

/-- The reference's frame is its run with the results dropped. -/
theorem frame_reference : Cert.frame_ReferenceIdeal := fun m ρ _ =>
  (θ_run Cert.ReferenceIdeal.defs _ _).mono (fun _ h c => (h c).2.2.2) (Cert.ReferenceIdeal.StagedRun.run m ρ)

/-- The ideal pass rewrote nothing. -/
theorem preserves : Cert.preserves_Kernel_KernelIdeal := trivial

open Cert.ReferenceIdeal.Stages in
/-- From memories that agree on the arguments both idealized programs end with the reference's three stages of those
    arguments: the kernel's by `Matches`, the reference's by its run. -/
theorem algebraic : Cert.algebraic_KernelIdeal_ReferenceIdeal := by
  intro m ρ m' ρ' _ hagree
  refine ⟨fun c => val_main_v53 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => val_main_v84 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => val_main_v71 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Whole.run_all (F := Ideal) m ρ)
    exact ⟨(h c _ (Cert.KernelIdeal.Whole.mem_uc Cert.KernelIdeal.main_v59 (by decide))).trans (Cert.KernelIdeal.Matches.proj_match m ρ c),
      (h c _ (Cert.KernelIdeal.Whole.mem_uc Cert.KernelIdeal.main_v83 (by decide))).trans (Cert.KernelIdeal.Matches.mask_match m ρ c),
      (h c _ (Cert.KernelIdeal.Whole.mem_uc Cert.KernelIdeal.main_v77 (by decide))).trans (Cert.KernelIdeal.Matches.ids_match m ρ c),
      (h c _ (Cert.KernelIdeal.Whole.mem_uc Cert.KernelIdeal.main_arg0 (by decide))).trans (Cert.KernelIdeal.Whole.kept_main_arg0 m ρ c),
      (h c _ (Cert.KernelIdeal.Whole.mem_uc Cert.KernelIdeal.main_arg1 (by decide))).trans (Cert.KernelIdeal.Whole.kept_main_arg1 m ρ c),
      (h c _ (Cert.KernelIdeal.Whole.mem_uc Cert.KernelIdeal.main_arg2 (by decide))).trans (Cert.KernelIdeal.Whole.kept_main_arg2 m ρ c),
      (h c _ (Cert.KernelIdeal.Whole.mem_uc Cert.KernelIdeal.main_arg3 (by decide))).trans (Cert.KernelIdeal.Whole.kept_main_arg3 m ρ c),
      (h c _ (Cert.KernelIdeal.Whole.mem_uc Cert.KernelIdeal.main_arg4 (by decide))).trans (Cert.KernelIdeal.Whole.kept_main_arg4 m ρ c),
      (h c _ (Cert.KernelIdeal.Whole.mem_uc Cert.KernelIdeal.main_arg5 (by decide))).trans (Cert.KernelIdeal.Whole.kept_main_arg5 m ρ c),
      (h c _ (Cert.KernelIdeal.Whole.mem_uc Cert.KernelIdeal.main_arg6 (by decide))).trans (Cert.KernelIdeal.Whole.kept_main_arg6 m ρ c),
      (h c _ (Cert.KernelIdeal.Whole.mem_uc Cert.KernelIdeal.main_arg7 (by decide))).trans (Cert.KernelIdeal.Whole.kept_main_arg7 m ρ c),
      (h c _ (Cert.KernelIdeal.Whole.mem_uc Cert.KernelIdeal.main_arg8 (by decide))).trans (Cert.KernelIdeal.Whole.kept_main_arg8 m ρ c)⟩
  · refine (θ_run Cert.ReferenceIdeal.defs _ _).mono (fun r h c => ?_) (Cert.ReferenceIdeal.StagedRun.run m' ρ')
    obtain ⟨g0, g1, g2, g3, g4, g5, g6, g7, g8⟩ := hagree c
    exact ⟨(h c).1.trans (by rw [g0, g1, g2, g4, g5, g6, g7, g8]),
      (h c).2.1.trans (by rw [g0, g1, g3]),
      (h c).2.2.1.trans (by rw [g0, g1, g2]),
      (h c).2.2.2⟩

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
